-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x2 : Shape := ⟨2, ![50000, 2]⟩
abbrev S2x360000 : Shape := ⟨2, ![2, 360000]⟩
abbrev S118x200 : Shape := ⟨2, ![118, 200]⟩
abbrev S16x10 : Shape := ⟨2, ![16, 10]⟩
abbrev S64x10 : Shape := ⟨2, ![64, 10]⟩
abbrev S222x222 : Shape := ⟨2, ![222, 222]⟩
abbrev S222 : Shape := ⟨1, ![222]⟩
abbrev S222x512 : Shape := ⟨2, ![222, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S118x200 : S_.BroadcastsInDim S118x200 (![] : Fin 0 → Fin S118x200.rank)
  reducesTo_S118x200_S_d0_1 : S118x200.ReducesTo [0, 1] S_
  bcast_S_S16x10 : S_.BroadcastsInDim S16x10 (![] : Fin 0 → Fin S16x10.rank)
  reducesTo_S16x10_S_d0_1 : S16x10.ReducesTo [0, 1] S_
  bcast_S_S64x10 : S_.BroadcastsInDim S64x10 (![] : Fin 0 → Fin S64x10.rank)
  reducesTo_S64x10_S_d0_1 : S64x10.ReducesTo [0, 1] S_
  bcast_S_S222x222 : S_.BroadcastsInDim S222x222 (![] : Fin 0 → Fin S222x222.rank)
  reducesTo_S222x222_S_d0_1 : S222x222.ReducesTo [0, 1] S_
  bcast_S_S222 : S_.BroadcastsInDim S222 (![] : Fin 0 → Fin S222.rank)
  reducesTo_S222_S_d0 : S222.ReducesTo [0] S_
  bcast_S_S222x512 : S_.BroadcastsInDim S222x512 (![] : Fin 0 → Fin S222x512.rank)
  reducesTo_S222x512_S_d0_1 : S222x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg19 : FVec F S128x1 .f32) (main_arg20 : FVec F S1 .f32) (main_v63 : IVec S_ 1) (main_v67 : IVec S_ 1) : IVec S_ 1 :=
  let main_v68 : IVec S_ 1 := andi main_v63 main_v67
  let main_v69 : FVec F S128x1 .f32 := Host.absf main_arg19
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg20
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg16 : FVec F S512 .f32) (main_arg17 : FVec F S512x128 .f32) (main_arg18 : FVec F S128 .f32) (main_arg19 : FVec F S128x1 .f32) (main_arg20 : FVec F S1 .f32) (main_v48 : IVec S_ 1) (main_v49 : FVec F S222x512 .f32) (main_v50 : FVec F S222x512 .f32) : IVec S_ 1 :=
  let main_v51 : IVec S222x512 1 := cmpf .olt main_v49 main_v50
  let main_c_19 : IVec S_ 1 := constantI S_ 1 1#1
  let main_v52 : IVec S_ 1 := (fun x v => Host.reduce IntOp.andi x v reducesTo_S222x512_S_d0_1 h_S_) main_v51 main_c_19
  let main_v53 : IVec S_ 1 := andi main_v48 main_v52
  let main_v54 : FVec F S512 .f32 := Host.absf main_arg16
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x128 .f32 := Host.absf main_arg17
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg18
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg19 main_arg20 main_v63 main_v67

def fn_part2 {F : FTy → Type} [FloatOps F] (main_arg12 : FVec F S222 .f32) (main_arg13 : FVec F S222x222 .f32) (main_arg14 : FVec F S222 .f32) (main_arg15 : FVec F S222x512 .f32) (main_arg16 : FVec F S512 .f32) (main_arg17 : FVec F S512x128 .f32) (main_arg18 : FVec F S128 .f32) (main_arg19 : FVec F S128x1 .f32) (main_arg20 : FVec F S1 .f32) (main_v33 : IVec S_ 1) : IVec S_ 1 :=
  let main_v34 : FVec F S222 .f32 := Host.absf main_arg12
  let main_cst_12 : FVec F S_ .f32 := constant S_ .f32 0x7F800000#32
  let main_v35 : FVec F S222 .f32 := broadcastInDim S222 ![] bcast_S_S222 main_cst_12
  let main_v36 : IVec S222 1 := cmpf .olt main_v34 main_v35
  let main_c_13 : IVec S_ 1 := constantI S_ 1 1#1
  let main_v37 : IVec S_ 1 := (fun x v => Host.reduce IntOp.andi x v reducesTo_S222_S_d0 h_S_) main_v36 main_c_13
  let main_v38 : IVec S_ 1 := andi main_v33 main_v37
  let main_v39 : FVec F S222x222 .f32 := Host.absf main_arg13
  let main_cst_14 : FVec F S_ .f32 := constant S_ .f32 0x7F800000#32
  let main_v40 : FVec F S222x222 .f32 := broadcastInDim S222x222 ![] bcast_S_S222x222 main_cst_14
  let main_v41 : IVec S222x222 1 := cmpf .olt main_v39 main_v40
  let main_c_15 : IVec S_ 1 := constantI S_ 1 1#1
  let main_v42 : IVec S_ 1 := (fun x v => Host.reduce IntOp.andi x v reducesTo_S222x222_S_d0_1 h_S_) main_v41 main_c_15
  let main_v43 : IVec S_ 1 := andi main_v38 main_v42
  let main_v44 : FVec F S222 .f32 := Host.absf main_arg14
  let main_cst_16 : FVec F S_ .f32 := constant S_ .f32 0x7F800000#32
  let main_v45 : FVec F S222 .f32 := broadcastInDim S222 ![] bcast_S_S222 main_cst_16
  let main_v46 : IVec S222 1 := cmpf .olt main_v44 main_v45
  let main_c_17 : IVec S_ 1 := constantI S_ 1 1#1
  let main_v47 : IVec S_ 1 := (fun x v => Host.reduce IntOp.andi x v reducesTo_S222_S_d0 h_S_) main_v46 main_c_17
  let main_v48 : IVec S_ 1 := andi main_v43 main_v47
  let main_v49 : FVec F S222x512 .f32 := Host.absf main_arg15
  let main_cst_18 : FVec F S_ .f32 := constant S_ .f32 0x7F800000#32
  let main_v50 : FVec F S222x512 .f32 := broadcastInDim S222x512 ![] bcast_S_S222x512 main_cst_18
  fn_part3 (F := F) main_arg16 main_arg17 main_arg18 main_arg19 main_arg20 main_v48 main_v49 main_v50

def fn_part1 {F : FTy → Type} [FloatOps F] (main_arg9 : FVec F S222x222 .f32) (main_arg10 : FVec F S222 .f32) (main_arg11 : FVec F S222x222 .f32) (main_arg12 : FVec F S222 .f32) (main_arg13 : FVec F S222x222 .f32) (main_arg14 : FVec F S222 .f32) (main_arg15 : FVec F S222x512 .f32) (main_arg16 : FVec F S512 .f32) (main_arg17 : FVec F S512x128 .f32) (main_arg18 : FVec F S128 .f32) (main_arg19 : FVec F S128x1 .f32) (main_arg20 : FVec F S1 .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S222x222 .f32 := Host.absf main_arg9
  let main_cst_6 : FVec F S_ .f32 := constant S_ .f32 0x7F800000#32
  let main_v20 : FVec F S222x222 .f32 := broadcastInDim S222x222 ![] bcast_S_S222x222 main_cst_6
  let main_v21 : IVec S222x222 1 := cmpf .olt main_v19 main_v20
  let main_c_7 : IVec S_ 1 := constantI S_ 1 1#1
  let main_v22 : IVec S_ 1 := (fun x v => Host.reduce IntOp.andi x v reducesTo_S222x222_S_d0_1 h_S_) main_v21 main_c_7
  let main_v23 : IVec S_ 1 := andi main_v18 main_v22
  let main_v24 : FVec F S222 .f32 := Host.absf main_arg10
  let main_cst_8 : FVec F S_ .f32 := constant S_ .f32 0x7F800000#32
  let main_v25 : FVec F S222 .f32 := broadcastInDim S222 ![] bcast_S_S222 main_cst_8
  let main_v26 : IVec S222 1 := cmpf .olt main_v24 main_v25
  let main_c_9 : IVec S_ 1 := constantI S_ 1 1#1
  let main_v27 : IVec S_ 1 := (fun x v => Host.reduce IntOp.andi x v reducesTo_S222_S_d0 h_S_) main_v26 main_c_9
  let main_v28 : IVec S_ 1 := andi main_v23 main_v27
  let main_v29 : FVec F S222x222 .f32 := Host.absf main_arg11
  let main_cst_10 : FVec F S_ .f32 := constant S_ .f32 0x7F800000#32
  let main_v30 : FVec F S222x222 .f32 := broadcastInDim S222x222 ![] bcast_S_S222x222 main_cst_10
  let main_v31 : IVec S222x222 1 := cmpf .olt main_v29 main_v30
  let main_c_11 : IVec S_ 1 := constantI S_ 1 1#1
  let main_v32 : IVec S_ 1 := (fun x v => Host.reduce IntOp.andi x v reducesTo_S222x222_S_d0_1 h_S_) main_v31 main_c_11
  let main_v33 : IVec S_ 1 := andi main_v28 main_v32
  fn_part2 (F := F) main_arg12 main_arg13 main_arg14 main_arg15 main_arg16 main_arg17 main_arg18 main_arg19 main_arg20 main_v33

def fn {F : FTy → Type} [FloatOps F] (main_arg0 : IVec S50000 32) (main_arg1 : IVec S50000 32) (main_arg2 : IVec S50000 32) (main_arg3 : FVec F S50000x2 .f32) (main_arg4 : IVec S2x360000 32) (main_arg5 : IVec S50000 32) (main_arg6 : FVec F S118x200 .f32) (main_arg7 : FVec F S16x10 .f32) (main_arg8 : FVec F S64x10 .f32) (main_arg9 : FVec F S222x222 .f32) (main_arg10 : FVec F S222 .f32) (main_arg11 : FVec F S222x222 .f32) (main_arg12 : FVec F S222 .f32) (main_arg13 : FVec F S222x222 .f32) (main_arg14 : FVec F S222 .f32) (main_arg15 : FVec F S222x512 .f32) (main_arg16 : FVec F S512 .f32) (main_arg17 : FVec F S512x128 .f32) (main_arg18 : FVec F S128 .f32) (main_arg19 : FVec F S128x1 .f32) (main_arg20 : FVec F S1 .f32) : IVec S_ 1 :=
  let main_v0 : FVec F S50000x2 .f32 := Host.absf main_arg3
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S118x200 .f32 := Host.absf main_arg6
  let main_cst_0 : FVec F S_ .f32 := constant S_ .f32 0x7F800000#32
  let main_v5 : FVec F S118x200 .f32 := broadcastInDim S118x200 ![] bcast_S_S118x200 main_cst_0
  let main_v6 : IVec S118x200 1 := cmpf .olt main_v4 main_v5
  let main_c_1 : IVec S_ 1 := constantI S_ 1 1#1
  let main_v7 : IVec S_ 1 := (fun x v => Host.reduce IntOp.andi x v reducesTo_S118x200_S_d0_1 h_S_) main_v6 main_c_1
  let main_v8 : IVec S_ 1 := andi main_v3 main_v7
  let main_v9 : FVec F S16x10 .f32 := Host.absf main_arg7
  let main_cst_2 : FVec F S_ .f32 := constant S_ .f32 0x7F800000#32
  let main_v10 : FVec F S16x10 .f32 := broadcastInDim S16x10 ![] bcast_S_S16x10 main_cst_2
  let main_v11 : IVec S16x10 1 := cmpf .olt main_v9 main_v10
  let main_c_3 : IVec S_ 1 := constantI S_ 1 1#1
  let main_v12 : IVec S_ 1 := (fun x v => Host.reduce IntOp.andi x v reducesTo_S16x10_S_d0_1 h_S_) main_v11 main_c_3
  let main_v13 : IVec S_ 1 := andi main_v8 main_v12
  let main_v14 : FVec F S64x10 .f32 := Host.absf main_arg8
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg9 main_arg10 main_arg11 main_arg12 main_arg13 main_arg14 main_arg15 main_arg16 main_arg17 main_arg18 main_arg19 main_arg20 main_v13 main_v16
-- ==== Kernel.lean ====
abbrev S50000 : Shape := ⟨1, ![50000]⟩
abbrev S50000x2 : Shape := ⟨2, ![50000, 2]⟩
abbrev S2x360000 : Shape := ⟨2, ![2, 360000]⟩
abbrev S118x200 : Shape := ⟨2, ![118, 200]⟩
abbrev S16x10 : Shape := ⟨2, ![16, 10]⟩
abbrev S64x10 : Shape := ⟨2, ![64, 10]⟩
abbrev S222x222 : Shape := ⟨2, ![222, 222]⟩
abbrev S222 : Shape := ⟨1, ![222]⟩
abbrev S222x512 : Shape := ⟨2, ![222, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S200x222 : Shape := ⟨2, ![200, 222]⟩
abbrev S10x222 : Shape := ⟨2, ![10, 222]⟩
abbrev S2x222 : Shape := ⟨2, ![2, 222]⟩
abbrev S118x222 : Shape := ⟨2, ![118, 222]⟩
abbrev S16x222 : Shape := ⟨2, ![16, 222]⟩
abbrev S64x222 : Shape := ⟨2, ![64, 222]⟩
abbrev S50000x222 : Shape := ⟨2, ![50000, 222]⟩
abbrev S_ : Shape := ⟨0, ![]⟩
abbrev S50000x1 : Shape := ⟨2, ![50000, 1]⟩
abbrev S1x360000 : Shape := ⟨2, ![1, 360000]⟩
abbrev S360000 : Shape := ⟨1, ![360000]⟩
abbrev S410000 : Shape := ⟨1, ![410000]⟩
abbrev S410000x1 : Shape := ⟨2, ![410000, 1]⟩
abbrev S410000x222 : Shape := ⟨2, ![410000, 222]⟩
abbrev S1x222 : Shape := ⟨2, ![1, 222]⟩
abbrev S5000x222 : Shape := ⟨2, ![5000, 222]⟩
abbrev S2000x222 : Shape := ⟨2, ![2000, 222]⟩
abbrev S2000 : Shape := ⟨1, ![2000]⟩
abbrev S2000x1 : Shape := ⟨2, ![2000, 1]⟩
abbrev S1x512 : Shape := ⟨2, ![1, 512]⟩
abbrev S1x128 : Shape := ⟨2, ![1, 128]⟩
abbrev S1x1 : Shape := ⟨2, ![1, 1]⟩
abbrev S2000x512 : Shape := ⟨2, ![2000, 512]⟩
abbrev S2000x128 : Shape := ⟨2, ![2000, 128]⟩

abbrev nBuf : Space → Nat
  | .hbm => 176
  | .vmem => 25
  | .smem => 0
  | _ => 0

abbrev hbmTy0_0 (i : Nat) : BufTy := match i % 128 with
  | 0 => ⟨S50000, .i32⟩
  | 1 => ⟨S50000, .i32⟩
  | 2 => ⟨S50000, .i32⟩
  | 3 => ⟨S50000x2, .f32⟩
  | 4 => ⟨S2x360000, .i32⟩
  | 5 => ⟨S50000, .i32⟩
  | 6 => ⟨S118x200, .f32⟩
  | 7 => ⟨S16x10, .f32⟩
  | 8 => ⟨S64x10, .f32⟩
  | 9 => ⟨S222x222, .f32⟩
  | 10 => ⟨S222, .f32⟩
  | 11 => ⟨S222x222, .f32⟩
  | 12 => ⟨S222, .f32⟩
  | 13 => ⟨S222x222, .f32⟩
  | 14 => ⟨S222, .f32⟩
  | 15 => ⟨S222x512, .f32⟩
  | 16 => ⟨S512, .f32⟩
  | 17 => ⟨S512x128, .f32⟩
  | 18 => ⟨S128, .f32⟩
  | 19 => ⟨S128x1, .f32⟩
  | 20 => ⟨S1, .f32⟩
  | 21 => ⟨S200x222, .f32⟩
  | 22 => ⟨S10x222, .f32⟩
  | 23 => ⟨S10x222, .f32⟩
  | 24 => ⟨S2x222, .f32⟩
  | 25 => ⟨S118x222, .f32⟩
  | 26 => ⟨S16x222, .f32⟩
  | 27 => ⟨S64x222, .f32⟩
  | 28 => ⟨S50000x222, .f32⟩
  | 29 => ⟨S_, .i32⟩
  | 30 => ⟨S50000, .i32⟩
  | 31 => ⟨S50000, .i1⟩
  | 32 => ⟨S_, .i32⟩
  | 33 => ⟨S50000, .i32⟩
  | 34 => ⟨S50000, .i32⟩
  | 35 => ⟨S50000, .i32⟩
  | 36 => ⟨S50000x1, .i32⟩
  | 37 => ⟨S50000x222, .f32⟩
  | 38 => ⟨S_, .i32⟩
  | 39 => ⟨S50000, .i32⟩
  | 40 => ⟨S50000, .i1⟩
  | 41 => ⟨S_, .i32⟩
  | 42 => ⟨S50000, .i32⟩
  | 43 => ⟨S50000, .i32⟩
  | 44 => ⟨S50000, .i32⟩
  | 45 => ⟨S50000x1, .i32⟩
  | 46 => ⟨S50000x222, .f32⟩
  | 47 => ⟨S50000x222, .f32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000x222, .f32⟩
  | 57 => ⟨S50000x222, .f32⟩
  | 58 => ⟨S50000x222, .f32⟩
  | 59 => ⟨S50000, .i32⟩
  | 60 => ⟨S1x360000, .i32⟩
  | 61 => ⟨S360000, .i32⟩
  | 62 => ⟨S410000, .i32⟩
  | 63 => ⟨S1x360000, .i32⟩
  | 64 => ⟨S360000, .i32⟩
  | 65 => ⟨S410000, .i32⟩
  | 66 => ⟨S_, .f32⟩
  | 67 => ⟨S50000, .f32⟩
  | 68 => ⟨S_, .i32⟩
  | 69 => ⟨S410000, .i32⟩
  | 70 => ⟨S410000, .i1⟩
  | 71 => ⟨S_, .i32⟩
  | 72 => ⟨S410000, .i32⟩
  | 73 => ⟨S410000, .i32⟩
  | 74 => ⟨S410000, .i32⟩
  | 75 => ⟨S410000x1, .i32⟩
  | 76 => ⟨S_, .f32⟩
  | 77 => ⟨S410000, .f32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S410000, .i32⟩
  | 85 => ⟨S410000, .i1⟩
  | 86 => ⟨S_, .i32⟩
  | 87 => ⟨S410000, .i32⟩
  | 88 => ⟨S410000, .i32⟩
  | 89 => ⟨S410000, .i32⟩
  | 90 => ⟨S410000x1, .i32⟩
  | 91 => ⟨S410000, .f32⟩
  | 92 => ⟨S_, .i32⟩
  | 93 => ⟨S410000, .i32⟩
  | 94 => ⟨S410000, .i1⟩
  | 95 => ⟨S_, .i32⟩
  | 96 => ⟨S410000, .i32⟩
  | 97 => ⟨S410000, .i32⟩
  | 98 => ⟨S410000, .i32⟩
  | 99 => ⟨S410000x1, .i32⟩
  | 100 => ⟨S410000, .f32⟩
  | 101 => ⟨S410000, .f32⟩
  | 102 => ⟨S_, .i32⟩
  | 103 => ⟨S410000, .i32⟩
  | 104 => ⟨S410000, .i1⟩
  | 105 => ⟨S_, .i32⟩
  | 106 => ⟨S410000, .i32⟩
  | 107 => ⟨S410000, .i32⟩
  | 108 => ⟨S410000, .i32⟩
  | 109 => ⟨S410000x1, .i32⟩
  | 110 => ⟨S410000x222, .f32⟩
  | 111 => ⟨S410000x1, .f32⟩
  | 112 => ⟨S410000x222, .f32⟩
  | 113 => ⟨S410000x222, .f32⟩
  | 114 => ⟨S_, .f32⟩
  | 115 => ⟨S50000x222, .f32⟩
  | 116 => ⟨S410000x1, .i32⟩
  | 117 => ⟨S50000x222, .f32⟩
  | 118 => ⟨S1x222, .f32⟩
  | 119 => ⟨S50000x222, .f32⟩
  | 120 => ⟨S_, .i32⟩
  | 121 => ⟨S410000, .i32⟩
  | 122 => ⟨S410000, .i1⟩
  | 123 => ⟨S_, .i32⟩
  | 124 => ⟨S410000, .i32⟩
  | 125 => ⟨S410000, .i32⟩
  | 126 => ⟨S410000, .i32⟩
  | 127 => ⟨S410000x1, .i32⟩
  | _ => ⟨S50000, .i32⟩

abbrev hbmTy0_1 (i : Nat) : BufTy := match i % 128 with
  | 0 => ⟨S410000x222, .f32⟩
  | 1 => ⟨S410000x1, .f32⟩
  | 2 => ⟨S410000x222, .f32⟩
  | 3 => ⟨S410000x222, .f32⟩
  | 4 => ⟨S_, .f32⟩
  | 5 => ⟨S50000x222, .f32⟩
  | 6 => ⟨S410000x1, .i32⟩
  | 7 => ⟨S50000x222, .f32⟩
  | 8 => ⟨S1x222, .f32⟩
  | 9 => ⟨S50000x222, .f32⟩
  | 10 => ⟨S_, .i32⟩
  | 11 => ⟨S410000, .i32⟩
  | 12 => ⟨S410000, .i1⟩
  | 13 => ⟨S_, .i32⟩
  | 14 => ⟨S410000, .i32⟩
  | 15 => ⟨S410000, .i32⟩
  | 16 => ⟨S410000, .i32⟩
  | 17 => ⟨S410000x1, .i32⟩
  | 18 => ⟨S410000x222, .f32⟩
  | 19 => ⟨S410000x1, .f32⟩
  | 20 => ⟨S410000x222, .f32⟩
  | 21 => ⟨S410000x222, .f32⟩
  | 22 => ⟨S_, .f32⟩
  | 23 => ⟨S50000x222, .f32⟩
  | 24 => ⟨S410000x1, .i32⟩
  | 25 => ⟨S50000x222, .f32⟩
  | 26 => ⟨S1x222, .f32⟩
  | 27 => ⟨S50000x222, .f32⟩
  | 28 => ⟨S_, .f32⟩
  | 29 => ⟨S2000x222, .f32⟩
  | 30 => ⟨S50000x1, .i32⟩
  | 31 => ⟨S2000x222, .f32⟩
  | 32 => ⟨S_, .f32⟩
  | 33 => ⟨S50000, .f32⟩
  | 34 => ⟨S_, .f32⟩
  | 35 => ⟨S2000, .f32⟩
  | 36 => ⟨S50000x1, .i32⟩
  | 37 => ⟨S2000, .f32⟩
  | 38 => ⟨S_, .f32⟩
  | 39 => ⟨S2000, .f32⟩
  | 40 => ⟨S2000, .f32⟩
  | 41 => ⟨S2000x1, .f32⟩
  | 42 => ⟨S2000x222, .f32⟩
  | 43 => ⟨S2000x222, .f32⟩
  | 44 => ⟨S1x512, .f32⟩
  | 45 => ⟨S1x128, .f32⟩
  | 46 => ⟨S1x1, .f32⟩
  | 47 => ⟨S2000x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x222, .f32⟩
  | .local _ .vmem, ⟨1, _⟩ => ⟨S5000x222, .f32⟩
  | .local _ .vmem, ⟨2, _⟩ => ⟨S1x222, .f32⟩
  | .local _ .vmem, ⟨3, _⟩ => ⟨S222x222, .f32⟩
  | .local _ .vmem, ⟨4, _⟩ => ⟨S5000x222, .f32⟩
  | .local _ .vmem, ⟨5, _⟩ => ⟨S5000x222, .f32⟩
  | .local _ .vmem, ⟨6, _⟩ => ⟨S5000x222, .f32⟩
  | .local _ .vmem, ⟨7, _⟩ => ⟨S5000x222, .f32⟩
  | .local _ .vmem, ⟨8, _⟩ => ⟨S1x222, .f32⟩
  | .local _ .vmem, ⟨9, _⟩ => ⟨S222x222, .f32⟩
  | .local _ .vmem, ⟨10, _⟩ => ⟨S5000x222, .f32⟩
  | .local _ .vmem, ⟨11, _⟩ => ⟨S5000x222, .f32⟩
  | .local _ .vmem, ⟨12, _⟩ => ⟨S5000x222, .f32⟩
  | .local _ .vmem, ⟨13, _⟩ => ⟨S5000x222, .f32⟩
  | .local _ .vmem, ⟨14, _⟩ => ⟨S1x222, .f32⟩
  | .local _ .vmem, ⟨15, _⟩ => ⟨S5000x222, .f32⟩
  | .local _ .vmem, ⟨16, _⟩ => ⟨S5000x222, .f32⟩
  | .local _ .vmem, ⟨17, _⟩ => ⟨S2000x222, .f32⟩
  | .local _ .vmem, ⟨18, _⟩ => ⟨S222x512, .f32⟩
  | .local _ .vmem, ⟨19, _⟩ => ⟨S1x512, .f32⟩
  | .local _ .vmem, ⟨20, _⟩ => ⟨S512x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S2000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_3 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_cst_8 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_9 : Ref sig .tc := ⟨.hbm, 83, rfl⟩
abbrev main_v51 : Ref sig .tc := ⟨.hbm, 84, rfl⟩
abbrev main_v52 : Ref sig .tc := ⟨.hbm, 85, rfl⟩
abbrev main_c_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_c_12 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_13 : Ref sig .tc := ⟨.hbm, 102, rfl⟩
abbrev main_v66 : Ref sig .tc := ⟨.hbm, 103, rfl⟩
abbrev main_v67 : Ref sig .tc := ⟨.hbm, 104, rfl⟩
abbrev main_c_14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_16 : Ref sig .tc := ⟨.hbm, 120, rfl⟩
abbrev main_v81 : Ref sig .tc := ⟨.hbm, 121, rfl⟩
abbrev main_v82 : Ref sig .tc := ⟨.hbm, 122, rfl⟩
abbrev main_c_17 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_19 : Ref sig .tc := ⟨.hbm, 138, rfl⟩
abbrev main_v96 : Ref sig .tc := ⟨.hbm, 139, rfl⟩
abbrev main_v97 : Ref sig .tc := ⟨.hbm, 140, rfl⟩
abbrev main_c_20 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_21 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_22 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_23 : Ref sig .tc := ⟨.hbm, 160, rfl⟩
abbrev main_v114 : Ref sig .tc := ⟨.hbm, 161, rfl⟩
abbrev main_cst_24 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_25 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem6_0 : DmaSem sig := 23
abbrev cc3_sem7_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x222 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x222 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S222x222 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x222 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x222 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x222 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S222x222 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x222 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x222 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x222 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x222 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2000x222 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S222x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2000x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S222x222_S200x222_0_0 : S222x222.Slices ![0, 0] S200x222
  slices_S222x222_S10x222_200_0 : S222x222.Slices ![200, 0] S10x222
  slices_S222x222_S10x222_210_0 : S222x222.Slices ![210, 0] S10x222
  slices_S222x222_S2x222_220_0 : S222x222.Slices ![220, 0] S2x222
  bcast_S_S50000 : S_.BroadcastsInDim S50000 (![] : Fin 0 → Fin S50000.rank)
  bcast_S50000_S50000x1_0 : S50000.BroadcastsInDim S50000x1 (![0] : Fin 1 → Fin S50000x1.rank)
  slices_S2x360000_S1x360000_0_0 : S2x360000.Slices ![0, 0] S1x360000
  shapeCasts_S1x360000_S360000 : S1x360000.ShapeCasts S360000
  concatenates_S360000_S50000_S410000_d0 : Shape.Concatenates [S360000, S50000] S410000 0
  slices_S2x360000_S1x360000_1_0 : S2x360000.Slices ![1, 0] S1x360000
  bcast_S_S410000 : S_.BroadcastsInDim S410000 (![] : Fin 0 → Fin S410000.rank)
  bcast_S410000_S410000x1_0 : S410000.BroadcastsInDim S410000x1 (![0] : Fin 1 → Fin S410000x1.rank)
  bcast_S410000x1_S410000x222_0_1 : S410000x1.BroadcastsInDim S410000x222 (![0, 1] : Fin 2 → Fin S410000x222.rank)
  bcast_S_S50000x222 : S_.BroadcastsInDim S50000x222 (![] : Fin 0 → Fin S50000x222.rank)
  shapeCasts_S222_S1x222 : S222.ShapeCasts S1x222
  inb_S5000x222_S5000x222_0_0 : ∀ a, (![0, 0] : Fin 2 → Nat) a + S5000x222.size a ≤ S5000x222.size a
  h_S5000x222 : 0 < S5000x222.numel
  shapeCasts_S5000x222_S5000x222 : S5000x222.ShapeCasts S5000x222
  inb_S1x222_S1x222_0_0 : ∀ a, (![0, 0] : Fin 2 → Nat) a + S1x222.size a ≤ S1x222.size a
  h_S1x222 : 0 < S1x222.numel
  shapeCasts_S1x222_S1x222 : S1x222.ShapeCasts S1x222
  broadcasts_S1x222_S5000x222 : S1x222.Broadcasts S5000x222
  bitsLt_bf16_f32 : FTy.bits .bf16 < FTy.bits .f32
  inb_S222x222_S222x222_0_0 : ∀ a, (![0, 0] : Fin 2 → Nat) a + S222x222.size a ≤ S222x222.size a
  h_S222x222 : 0 < S222x222.numel
  bcast_S_S2000x222 : S_.BroadcastsInDim S2000x222 (![] : Fin 0 → Fin S2000x222.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x222_0_1 : S2000x1.BroadcastsInDim S2000x222 (![0, 1] : Fin 2 → Fin S2000x222.rank)
  shapeCasts_S512_S1x512 : S512.ShapeCasts S1x512
  shapeCasts_S128_S1x128 : S128.ShapeCasts S1x128
  shapeCasts_S1_S1x1 : S1.ShapeCasts S1x1
  inb_S2000x222_S2000x222_0_0 : ∀ a, (![0, 0] : Fin 2 → Nat) a + S2000x222.size a ≤ S2000x222.size a
  h_S2000x222 : 0 < S2000x222.numel
  shapeCasts_S2000x222_S2000x222 : S2000x222.ShapeCasts S2000x222
  inb_S222x512_S222x512_0_0 : ∀ a, (![0, 0] : Fin 2 → Nat) a + S222x512.size a ≤ S222x512.size a
  h_S222x512 : 0 < S222x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S118x200_S200x222_S118x222_1_0_0_1_n_n_wf : DotDims.WF S118x200 S200x222 S118x222 [1] [0] [0] [1] [] []
  dot_S16x10_S10x222_S16x222_1_0_0_1_n_n_wf : DotDims.WF S16x10 S10x222 S16x222 [1] [0] [0] [1] [] []
  dot_S64x10_S10x222_S64x222_1_0_0_1_n_n_wf : DotDims.WF S64x10 S10x222 S64x222 [1] [0] [0] [1] [] []
  dot_S50000x2_S2x222_S50000x222_1_0_0_1_n_n_wf : DotDims.WF S50000x2 S2x222 S50000x222 [1] [0] [0] [1] [] []
  gather_S118x222_S50000x1_S50000x222_1_0_n_n_0_1_1222_wf : GatherDims.WF S118x222 S50000x1 S50000x222 [1] [0] [] [0] [] 1 ![1, 222]
  gather_S16x222_S50000x1_S50000x222_1_0_n_n_0_1_1222_wf : GatherDims.WF S16x222 S50000x1 S50000x222 [1] [0] [] [0] [] 1 ![1, 222]
  gather_S64x222_S50000x1_S50000x222_1_0_n_n_0_1_1222_wf : GatherDims.WF S64x222 S50000x1 S50000x222 [1] [0] [] [0] [] 1 ![1, 222]
  scatter_S50000_S410000x1_S410000_n_0_0_1_wf : ScatterDims.WF S50000 S410000x1 S410000 [] [0] [0] 1
  gather_S50000_S410000x1_S410000_n_0_n_n_0_1_1_wf : GatherDims.WF S50000 S410000x1 S410000 [] [0] [] [0] [] 1 ![1]
  gather_S50000x222_S410000x1_S410000x222_1_0_n_n_0_1_1222_wf : GatherDims.WF S50000x222 S410000x1 S410000x222 [1] [0] [] [0] [] 1 ![1, 222]
  scatter_S50000x222_S410000x1_S410000x222_1_0_0_1_wf : ScatterDims.WF S50000x222 S410000x1 S410000x222 [1] [0] [0] 1
  dot_S5000x222_S222x222_S5000x222_1_0_0_1_n_n_wf : DotDims.WF S5000x222 S222x222 S5000x222 [1] [0] [0] [1] [] []
  scatter_S2000x222_S50000x1_S50000x222_1_0_0_1_wf : ScatterDims.WF S2000x222 S50000x1 S50000x222 [1] [0] [0] 1
  scatter_S2000_S50000x1_S50000_n_0_0_1_wf : ScatterDims.WF S2000 S50000x1 S50000 [] [0] [0] 1
  dot_S2000x222_S222x512_S2000x512_1_0_0_1_n_n_wf : DotDims.WF S2000x222 S222x512 S2000x512 [1] [0] [0] [1] [] []
  dot_S2000x512_S512x128_S2000x128_1_0_0_1_n_n_wf : DotDims.WF S2000x512 S512x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x222.size a ≤ S50000x222.size a
  hwx0_0 : ∀ i : grid0.Coords, EltTy.bits .f32 = 32 ∨ (Rect.block (s := S50000x222) S5000x222.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x222.size a ≤ S1x222.size a
  hwx0_1 : ∀ i : grid0.Coords, EltTy.bits .f32 = 32 ∨ (Rect.block (s := S1x222) S1x222.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S222x222.size a ≤ S222x222.size a
  hwx0_2 : ∀ i : grid0.Coords, EltTy.bits .f32 = 32 ∨ (Rect.block (s := S222x222) S222x222.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x222.size a ≤ S50000x222.size a
  hwx0_3 : ∀ i : grid0.Coords, EltTy.bits .f32 = 32 ∨ (Rect.block (s := S50000x222) S5000x222.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x222.size a ≤ S50000x222.size a
  hwx1_0 : ∀ i : grid1.Coords, EltTy.bits .f32 = 32 ∨ (Rect.block (s := S50000x222) S5000x222.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x222.size a ≤ S1x222.size a
  hwx1_1 : ∀ i : grid1.Coords, EltTy.bits .f32 = 32 ∨ (Rect.block (s := S1x222) S1x222.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S222x222.size a ≤ S222x222.size a
  hwx1_2 : ∀ i : grid1.Coords, EltTy.bits .f32 = 32 ∨ (Rect.block (s := S222x222) S222x222.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x222.size a ≤ S50000x222.size a
  hwx1_3 : ∀ i : grid1.Coords, EltTy.bits .f32 = 32 ∨ (Rect.block (s := S50000x222) S5000x222.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x222.size a ≤ S50000x222.size a
  hwx2_0 : ∀ i : grid2.Coords, EltTy.bits .f32 = 32 ∨ (Rect.block (s := S50000x222) S5000x222.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x222.size a ≤ S1x222.size a
  hwx2_1 : ∀ i : grid2.Coords, EltTy.bits .f32 = 32 ∨ (Rect.block (s := S1x222) S1x222.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x222.size a ≤ S50000x222.size a
  hwx2_2 : ∀ i : grid2.Coords, EltTy.bits .f32 = 32 ∨ (Rect.block (s := S50000x222) S5000x222.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2000x222.size a ≤ S2000x222.size a
  hwx3_0 : ∀ i : grid3.Coords, EltTy.bits .f32 = 32 ∨ (Rect.block (s := S2000x222) S2000x222.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S222x512.size a ≤ S222x512.size a
  hwx3_1 : ∀ i : grid3.Coords, EltTy.bits .f32 = 32 ∨ (Rect.block (s := S222x512) S222x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S512x128.size a
  hwx3_3 : ∀ i : grid3.Coords, EltTy.bits .f32 = 32 ∨ (Rect.block (s := S512x128) S512x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S2000x1.size a ≤ S2000x1.size a
  hwx3_7 : ∀ i : grid3.Coords, EltTy.bits .f32 = 32 ∨ (Rect.block (s := S2000x1) S2000x1.size (cc3_transform_7 i) (hinb3_7 i)).WholeWords (EltTy.packing .f32)

variable [Facts₀]

def dot_S118x200_S200x222_S118x222_1_0_0_1_n_n : DotDims S118x200 S200x222 S118x222 where
  lhsContracting := [1]
  rhsContracting := [0]
  lhsNonContracting := [0]
  rhsNonContracting := [1]
  lhsBatch := []
  rhsBatch := []
  wf := dot_S118x200_S200x222_S118x222_1_0_0_1_n_n_wf
def dot_S16x10_S10x222_S16x222_1_0_0_1_n_n : DotDims S16x10 S10x222 S16x222 where
  lhsContracting := [1]
  rhsContracting := [0]
  lhsNonContracting := [0]
  rhsNonContracting := [1]
  lhsBatch := []
  rhsBatch := []
  wf := dot_S16x10_S10x222_S16x222_1_0_0_1_n_n_wf
def dot_S64x10_S10x222_S64x222_1_0_0_1_n_n : DotDims S64x10 S10x222 S64x222 where
  lhsContracting := [1]
  rhsContracting := [0]
  lhsNonContracting := [0]
  rhsNonContracting := [1]
  lhsBatch := []
  rhsBatch := []
  wf := dot_S64x10_S10x222_S64x222_1_0_0_1_n_n_wf
def dot_S50000x2_S2x222_S50000x222_1_0_0_1_n_n : DotDims S50000x2 S2x222 S50000x222 where
  lhsContracting := [1]
  rhsContracting := [0]
  lhsNonContracting := [0]
  rhsNonContracting := [1]
  lhsBatch := []
  rhsBatch := []
  wf := dot_S50000x2_S2x222_S50000x222_1_0_0_1_n_n_wf
def gather_S118x222_S50000x1_S50000x222_1_0_n_n_0_1_1222 : GatherDims S118x222 S50000x1 S50000x222 where
  offsetDims := [1]
  collapsedSliceDims := [0]
  operandBatchingDims := []
  startIndicesBatchingDims := []
  startIndexMap := [0]
  indexVectorDim := 1
  sliceSizes := ![1, 222]
  wf := gather_S118x222_S50000x1_S50000x222_1_0_n_n_0_1_1222_wf
def gather_S16x222_S50000x1_S50000x222_1_0_n_n_0_1_1222 : GatherDims S16x222 S50000x1 S50000x222 where
  offsetDims := [1]
  collapsedSliceDims := [0]
  operandBatchingDims := []
  startIndicesBatchingDims := []
  startIndexMap := [0]
  indexVectorDim := 1
  sliceSizes := ![1, 222]
  wf := gather_S16x222_S50000x1_S50000x222_1_0_n_n_0_1_1222_wf
def gather_S64x222_S50000x1_S50000x222_1_0_n_n_0_1_1222 : GatherDims S64x222 S50000x1 S50000x222 where
  offsetDims := [1]
  collapsedSliceDims := [0]
  operandBatchingDims := []
  startIndicesBatchingDims := []
  startIndexMap := [0]
  indexVectorDim := 1
  sliceSizes := ![1, 222]
  wf := gather_S64x222_S50000x1_S50000x222_1_0_n_n_0_1_1222_wf
def scatter_S50000_S410000x1_S410000_n_0_0_1 : ScatterDims S50000 S410000x1 S410000 where
  updateWindowDims := []
  insertedWindowDims := [0]
  scatterDimsToOperandDims := [0]
  indexVectorDim := 1
  wf := scatter_S50000_S410000x1_S410000_n_0_0_1_wf
def gather_S50000_S410000x1_S410000_n_0_n_n_0_1_1 : GatherDims S50000 S410000x1 S410000 where
  offsetDims := []
  collapsedSliceDims := [0]
  operandBatchingDims := []
  startIndicesBatchingDims := []
  startIndexMap := [0]
  indexVectorDim := 1
  sliceSizes := ![1]
  wf := gather_S50000_S410000x1_S410000_n_0_n_n_0_1_1_wf
def gather_S50000x222_S410000x1_S410000x222_1_0_n_n_0_1_1222 : GatherDims S50000x222 S410000x1 S410000x222 where
  offsetDims := [1]
  collapsedSliceDims := [0]
  operandBatchingDims := []
  startIndicesBatchingDims := []
  startIndexMap := [0]
  indexVectorDim := 1
  sliceSizes := ![1, 222]
  wf := gather_S50000x222_S410000x1_S410000x222_1_0_n_n_0_1_1222_wf
def scatter_S50000x222_S410000x1_S410000x222_1_0_0_1 : ScatterDims S50000x222 S410000x1 S410000x222 where
  updateWindowDims := [1]
  insertedWindowDims := [0]
  scatterDimsToOperandDims := [0]
  indexVectorDim := 1
  wf := scatter_S50000x222_S410000x1_S410000x222_1_0_0_1_wf
def dot_S5000x222_S222x222_S5000x222_1_0_0_1_n_n : DotDims S5000x222 S222x222 S5000x222 where
  lhsContracting := [1]
  rhsContracting := [0]
  lhsNonContracting := [0]
  rhsNonContracting := [1]
  lhsBatch := []
  rhsBatch := []
  wf := dot_S5000x222_S222x222_S5000x222_1_0_0_1_n_n_wf
def scatter_S2000x222_S50000x1_S50000x222_1_0_0_1 : ScatterDims S2000x222 S50000x1 S50000x222 where
  updateWindowDims := [1]
  insertedWindowDims := [0]
  scatterDimsToOperandDims := [0]
  indexVectorDim := 1
  wf := scatter_S2000x222_S50000x1_S50000x222_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def dot_S2000x222_S222x512_S2000x512_1_0_0_1_n_n : DotDims S2000x222 S222x512 S2000x512 where
  lhsContracting := [1]
  rhsContracting := [0]
  lhsNonContracting := [0]
  rhsNonContracting := [1]
  lhsBatch := []
  rhsBatch := []
  wf := dot_S2000x222_S222x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v78) S5000x222.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S1x222.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S222x222.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v80) S5000x222.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v93) S5000x222.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v94) S1x222.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S222x222.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v95) S5000x222.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v108) S5000x222.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v109) S1x222.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v110) S5000x222.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v122) S2000x222.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S222x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v123) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S512x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v124) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg19) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v125) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v126) S2000x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000 : Shape := ⟨1, ![50000]⟩
abbrev S50000x2 : Shape := ⟨2, ![50000, 2]⟩
abbrev S2x360000 : Shape := ⟨2, ![2, 360000]⟩
abbrev S118x200 : Shape := ⟨2, ![118, 200]⟩
abbrev S16x10 : Shape := ⟨2, ![16, 10]⟩
abbrev S64x10 : Shape := ⟨2, ![64, 10]⟩
abbrev S222x222 : Shape := ⟨2, ![222, 222]⟩
abbrev S222 : Shape := ⟨1, ![222]⟩
abbrev S222x512 : Shape := ⟨2, ![222, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S50000x200 : Shape := ⟨2, ![50000, 200]⟩
abbrev S50000x10 : Shape := ⟨2, ![50000, 10]⟩
abbrev S50000x222 : Shape := ⟨2, ![50000, 222]⟩
abbrev S1x360000 : Shape := ⟨2, ![1, 360000]⟩
abbrev S360000 : Shape := ⟨1, ![360000]⟩
abbrev S410000 : Shape := ⟨1, ![410000]⟩
abbrev S410000x1 : Shape := ⟨2, ![410000, 1]⟩
abbrev S410000x222 : Shape := ⟨2, ![410000, 222]⟩
abbrev S1x222 : Shape := ⟨2, ![1, 222]⟩
abbrev S2000x222 : Shape := ⟨2, ![2000, 222]⟩
abbrev S2000 : Shape := ⟨1, ![2000]⟩
abbrev S2000x1 : Shape := ⟨2, ![2000, 1]⟩
abbrev S2000x512 : Shape := ⟨2, ![2000, 512]⟩
abbrev S1x512 : Shape := ⟨2, ![1, 512]⟩
abbrev S2000x128 : Shape := ⟨2, ![2000, 128]⟩
abbrev S1x128 : Shape := ⟨2, ![1, 128]⟩
abbrev S1x1 : Shape := ⟨2, ![1, 1]⟩

abbrev nBuf : Space → Nat
  | .hbm => 327
  | .vmem => 0
  | .smem => 0
  | _ => 0

abbrev hbmTy0_0 (i : Nat) : BufTy := match i % 128 with
  | 0 => ⟨S50000, .i32⟩
  | 1 => ⟨S50000, .i32⟩
  | 2 => ⟨S50000, .i32⟩
  | 3 => ⟨S50000x2, .f32⟩
  | 4 => ⟨S2x360000, .i32⟩
  | 5 => ⟨S50000, .i32⟩
  | 6 => ⟨S118x200, .f32⟩
  | 7 => ⟨S16x10, .f32⟩
  | 8 => ⟨S64x10, .f32⟩
  | 9 => ⟨S222x222, .f32⟩
  | 10 => ⟨S222, .f32⟩
  | 11 => ⟨S222x222, .f32⟩
  | 12 => ⟨S222, .f32⟩
  | 13 => ⟨S222x222, .f32⟩
  | 14 => ⟨S222, .f32⟩
  | 15 => ⟨S222x512, .f32⟩
  | 16 => ⟨S512, .f32⟩
  | 17 => ⟨S512x128, .f32⟩
  | 18 => ⟨S128, .f32⟩
  | 19 => ⟨S128x1, .f32⟩
  | 20 => ⟨S1, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x200, .f32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x10, .f32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S50000x10, .f32⟩
  | 48 => ⟨S50000x222, .f32⟩
  | 49 => ⟨S50000, .i32⟩
  | 50 => ⟨S1x360000, .i32⟩
  | 51 => ⟨S360000, .i32⟩
  | 52 => ⟨S410000, .i32⟩
  | 53 => ⟨S1x360000, .i32⟩
  | 54 => ⟨S360000, .i32⟩
  | 55 => ⟨S410000, .i32⟩
  | 56 => ⟨S50000x222, .f32⟩
  | 57 => ⟨S_, .f32⟩
  | 58 => ⟨S50000, .f32⟩
  | 59 => ⟨S_, .i32⟩
  | 60 => ⟨S410000, .i32⟩
  | 61 => ⟨S410000, .i1⟩
  | 62 => ⟨S_, .i32⟩
  | 63 => ⟨S410000, .i32⟩
  | 64 => ⟨S410000, .i32⟩
  | 65 => ⟨S410000, .i32⟩
  | 66 => ⟨S410000x1, .i32⟩
  | 67 => ⟨S_, .f32⟩
  | 68 => ⟨S410000, .f32⟩
  | 69 => ⟨S50000, .f32⟩
  | 70 => ⟨S_, .f32⟩
  | 71 => ⟨S50000, .f32⟩
  | 72 => ⟨S50000, .f32⟩
  | 73 => ⟨S50000, .f32⟩
  | 74 => ⟨S_, .i32⟩
  | 75 => ⟨S410000, .i32⟩
  | 76 => ⟨S410000, .i1⟩
  | 77 => ⟨S_, .i32⟩
  | 78 => ⟨S410000, .i32⟩
  | 79 => ⟨S410000, .i32⟩
  | 80 => ⟨S410000, .i32⟩
  | 81 => ⟨S410000x1, .i32⟩
  | 82 => ⟨S410000, .f32⟩
  | 83 => ⟨S_, .i32⟩
  | 84 => ⟨S410000, .i32⟩
  | 85 => ⟨S410000, .i1⟩
  | 86 => ⟨S_, .i32⟩
  | 87 => ⟨S410000, .i32⟩
  | 88 => ⟨S410000, .i32⟩
  | 89 => ⟨S410000, .i32⟩
  | 90 => ⟨S410000x1, .i32⟩
  | 91 => ⟨S410000, .f32⟩
  | 92 => ⟨S410000, .f32⟩
  | 93 => ⟨S410000x1, .f32⟩
  | 94 => ⟨S_, .i32⟩
  | 95 => ⟨S410000, .i32⟩
  | 96 => ⟨S410000, .i1⟩
  | 97 => ⟨S_, .i32⟩
  | 98 => ⟨S410000, .i32⟩
  | 99 => ⟨S410000, .i32⟩
  | 100 => ⟨S410000, .i32⟩
  | 101 => ⟨S410000x1, .i32⟩
  | 102 => ⟨S410000x222, .f32⟩
  | 103 => ⟨S410000x222, .f32⟩
  | 104 => ⟨S410000x222, .f32⟩
  | 105 => ⟨S_, .f32⟩
  | 106 => ⟨S50000x222, .f32⟩
  | 107 => ⟨S410000x1, .i32⟩
  | 108 => ⟨S50000x222, .f32⟩
  | 109 => ⟨S1x222, .f32⟩
  | 110 => ⟨S50000x222, .f32⟩
  | 111 => ⟨S50000x222, .f32⟩
  | 112 => ⟨S_, .f32⟩
  | 113 => ⟨S50000x222, .f32⟩
  | 114 => ⟨S50000x222, .i1⟩
  | 115 => ⟨S_, .f32⟩
  | 116 => ⟨S50000x222, .f32⟩
  | 117 => ⟨S50000x222, .i1⟩
  | 118 => ⟨S_, .f32⟩
  | 119 => ⟨S_, .f32⟩
  | 120 => ⟨S50000x222, .f32⟩
  | 121 => ⟨S50000x222, .f32⟩
  | 122 => ⟨S50000x222, .f32⟩
  | 123 => ⟨S_, .f32⟩
  | 124 => ⟨S50000x222, .f32⟩
  | 125 => ⟨S50000x222, .f32⟩
  | 126 => ⟨S50000x222, .f32⟩
  | 127 => ⟨S50000x222, .f32⟩
  | _ => ⟨S50000, .i32⟩

abbrev hbmTy0_1 (i : Nat) : BufTy := match i % 128 with
  | 0 => ⟨S_, .f32⟩
  | 1 => ⟨S50000, .f32⟩
  | 2 => ⟨S_, .i32⟩
  | 3 => ⟨S410000, .i32⟩
  | 4 => ⟨S410000, .i1⟩
  | 5 => ⟨S_, .i32⟩
  | 6 => ⟨S410000, .i32⟩
  | 7 => ⟨S410000, .i32⟩
  | 8 => ⟨S410000, .i32⟩
  | 9 => ⟨S410000x1, .i32⟩
  | 10 => ⟨S_, .f32⟩
  | 11 => ⟨S410000, .f32⟩
  | 12 => ⟨S50000, .f32⟩
  | 13 => ⟨S_, .f32⟩
  | 14 => ⟨S50000, .f32⟩
  | 15 => ⟨S50000, .f32⟩
  | 16 => ⟨S50000, .f32⟩
  | 17 => ⟨S_, .i32⟩
  | 18 => ⟨S410000, .i32⟩
  | 19 => ⟨S410000, .i1⟩
  | 20 => ⟨S_, .i32⟩
  | 21 => ⟨S410000, .i32⟩
  | 22 => ⟨S410000, .i32⟩
  | 23 => ⟨S410000, .i32⟩
  | 24 => ⟨S410000x1, .i32⟩
  | 25 => ⟨S410000, .f32⟩
  | 26 => ⟨S_, .i32⟩
  | 27 => ⟨S410000, .i32⟩
  | 28 => ⟨S410000, .i1⟩
  | 29 => ⟨S_, .i32⟩
  | 30 => ⟨S410000, .i32⟩
  | 31 => ⟨S410000, .i32⟩
  | 32 => ⟨S410000, .i32⟩
  | 33 => ⟨S410000x1, .i32⟩
  | 34 => ⟨S410000, .f32⟩
  | 35 => ⟨S410000, .f32⟩
  | 36 => ⟨S410000x1, .f32⟩
  | 37 => ⟨S_, .i32⟩
  | 38 => ⟨S410000, .i32⟩
  | 39 => ⟨S410000, .i1⟩
  | 40 => ⟨S_, .i32⟩
  | 41 => ⟨S410000, .i32⟩
  | 42 => ⟨S410000, .i32⟩
  | 43 => ⟨S410000, .i32⟩
  | 44 => ⟨S410000x1, .i32⟩
  | 45 => ⟨S410000x222, .f32⟩
  | 46 => ⟨S410000x222, .f32⟩
  | 47 => ⟨S410000x222, .f32⟩
  | 48 => ⟨S_, .f32⟩
  | 49 => ⟨S50000x222, .f32⟩
  | 50 => ⟨S410000x1, .i32⟩
  | 51 => ⟨S50000x222, .f32⟩
  | 52 => ⟨S1x222, .f32⟩
  | 53 => ⟨S50000x222, .f32⟩
  | 54 => ⟨S50000x222, .f32⟩
  | 55 => ⟨S_, .f32⟩
  | 56 => ⟨S50000x222, .f32⟩
  | 57 => ⟨S50000x222, .i1⟩
  | 58 => ⟨S_, .f32⟩
  | 59 => ⟨S50000x222, .f32⟩
  | 60 => ⟨S50000x222, .i1⟩
  | 61 => ⟨S_, .f32⟩
  | 62 => ⟨S_, .f32⟩
  | 63 => ⟨S50000x222, .f32⟩
  | 64 => ⟨S50000x222, .f32⟩
  | 65 => ⟨S50000x222, .f32⟩
  | 66 => ⟨S_, .f32⟩
  | 67 => ⟨S50000x222, .f32⟩
  | 68 => ⟨S50000x222, .f32⟩
  | 69 => ⟨S50000x222, .f32⟩
  | 70 => ⟨S50000x222, .f32⟩
  | 71 => ⟨S_, .f32⟩
  | 72 => ⟨S50000, .f32⟩
  | 73 => ⟨S_, .i32⟩
  | 74 => ⟨S410000, .i32⟩
  | 75 => ⟨S410000, .i1⟩
  | 76 => ⟨S_, .i32⟩
  | 77 => ⟨S410000, .i32⟩
  | 78 => ⟨S410000, .i32⟩
  | 79 => ⟨S410000, .i32⟩
  | 80 => ⟨S410000x1, .i32⟩
  | 81 => ⟨S_, .f32⟩
  | 82 => ⟨S410000, .f32⟩
  | 83 => ⟨S50000, .f32⟩
  | 84 => ⟨S_, .f32⟩
  | 85 => ⟨S50000, .f32⟩
  | 86 => ⟨S50000, .f32⟩
  | 87 => ⟨S50000, .f32⟩
  | 88 => ⟨S_, .i32⟩
  | 89 => ⟨S410000, .i32⟩
  | 90 => ⟨S410000, .i1⟩
  | 91 => ⟨S_, .i32⟩
  | 92 => ⟨S410000, .i32⟩
  | 93 => ⟨S410000, .i32⟩
  | 94 => ⟨S410000, .i32⟩
  | 95 => ⟨S410000x1, .i32⟩
  | 96 => ⟨S410000, .f32⟩
  | 97 => ⟨S_, .i32⟩
  | 98 => ⟨S410000, .i32⟩
  | 99 => ⟨S410000, .i1⟩
  | 100 => ⟨S_, .i32⟩
  | 101 => ⟨S410000, .i32⟩
  | 102 => ⟨S410000, .i32⟩
  | 103 => ⟨S410000, .i32⟩
  | 104 => ⟨S410000x1, .i32⟩
  | 105 => ⟨S410000, .f32⟩
  | 106 => ⟨S410000, .f32⟩
  | 107 => ⟨S410000x1, .f32⟩
  | 108 => ⟨S_, .i32⟩
  | 109 => ⟨S410000, .i32⟩
  | 110 => ⟨S410000, .i1⟩
  | 111 => ⟨S_, .i32⟩
  | 112 => ⟨S410000, .i32⟩
  | 113 => ⟨S410000, .i32⟩
  | 114 => ⟨S410000, .i32⟩
  | 115 => ⟨S410000x1, .i32⟩
  | 116 => ⟨S410000x222, .f32⟩
  | 117 => ⟨S410000x222, .f32⟩
  | 118 => ⟨S410000x222, .f32⟩
  | 119 => ⟨S_, .f32⟩
  | 120 => ⟨S50000x222, .f32⟩
  | 121 => ⟨S410000x1, .i32⟩
  | 122 => ⟨S50000x222, .f32⟩
  | 123 => ⟨S1x222, .f32⟩
  | 124 => ⟨S50000x222, .f32⟩
  | 125 => ⟨S50000x222, .f32⟩
  | 126 => ⟨S_, .f32⟩
  | 127 => ⟨S50000x222, .f32⟩
  | _ => ⟨S50000, .i32⟩

abbrev hbmTy0_2 (i : Nat) : BufTy := match i % 128 with
  | 0 => ⟨S50000x222, .i1⟩
  | 1 => ⟨S_, .f32⟩
  | 2 => ⟨S50000x222, .f32⟩
  | 3 => ⟨S50000x222, .i1⟩
  | 4 => ⟨S_, .f32⟩
  | 5 => ⟨S_, .f32⟩
  | 6 => ⟨S50000x222, .f32⟩
  | 7 => ⟨S50000x222, .f32⟩
  | 8 => ⟨S50000x222, .f32⟩
  | 9 => ⟨S_, .f32⟩
  | 10 => ⟨S50000x222, .f32⟩
  | 11 => ⟨S50000x222, .f32⟩
  | 12 => ⟨S50000x222, .f32⟩
  | 13 => ⟨S_, .f32⟩
  | 14 => ⟨S2000x222, .f32⟩
  | 15 => ⟨S50000x1, .i32⟩
  | 16 => ⟨S2000x222, .f32⟩
  | 17 => ⟨S_, .f32⟩
  | 18 => ⟨S50000, .f32⟩
  | 19 => ⟨S_, .f32⟩
  | 20 => ⟨S2000, .f32⟩
  | 21 => ⟨S50000x1, .i32⟩
  | 22 => ⟨S2000, .f32⟩
  | 23 => ⟨S_, .f32⟩
  | 24 => ⟨S2000, .f32⟩
  | 25 => ⟨S2000, .f32⟩
  | 26 => ⟨S2000x1, .f32⟩
  | 27 => ⟨S2000x222, .f32⟩
  | 28 => ⟨S2000x222, .f32⟩
  | 29 => ⟨S2000x512, .f32⟩
  | 30 => ⟨S1x512, .f32⟩
  | 31 => ⟨S2000x512, .f32⟩
  | 32 => ⟨S2000x512, .f32⟩
  | 33 => ⟨S_, .f32⟩
  | 34 => ⟨S2000x512, .f32⟩
  | 35 => ⟨S2000x512, .i1⟩
  | 36 => ⟨S_, .f32⟩
  | 37 => ⟨S2000x512, .f32⟩
  | 38 => ⟨S2000x512, .i1⟩
  | 39 => ⟨S_, .f32⟩
  | 40 => ⟨S_, .f32⟩
  | 41 => ⟨S2000x512, .f32⟩
  | 42 => ⟨S2000x512, .f32⟩
  | 43 => ⟨S2000x512, .f32⟩
  | 44 => ⟨S_, .f32⟩
  | 45 => ⟨S2000x512, .f32⟩
  | 46 => ⟨S2000x512, .f32⟩
  | 47 => ⟨S2000x512, .f32⟩
  | 48 => ⟨S2000x128, .f32⟩
  | 49 => ⟨S1x128, .f32⟩
  | 50 => ⟨S2000x128, .f32⟩
  | 51 => ⟨S2000x128, .f32⟩
  | 52 => ⟨S_, .f32⟩
  | 53 => ⟨S2000x128, .f32⟩
  | 54 => ⟨S2000x128, .i1⟩
  | 55 => ⟨S_, .f32⟩
  | 56 => ⟨S2000x128, .f32⟩
  | 57 => ⟨S2000x128, .i1⟩
  | 58 => ⟨S_, .f32⟩
  | 59 => ⟨S_, .f32⟩
  | 60 => ⟨S2000x128, .f32⟩
  | 61 => ⟨S2000x128, .f32⟩
  | 62 => ⟨S2000x128, .f32⟩
  | 63 => ⟨S_, .f32⟩
  | 64 => ⟨S2000x128, .f32⟩
  | 65 => ⟨S2000x128, .f32⟩
  | 66 => ⟨S2000x128, .f32⟩
  | 67 => ⟨S2000x1, .f32⟩
  | 68 => ⟨S1x1, .f32⟩
  | 69 => ⟨S2000x1, .f32⟩
  | 70 => ⟨S2000x1, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_9 : Ref sig .tc := ⟨.hbm, 74, rfl⟩
abbrev main_v42 : Ref sig .tc := ⟨.hbm, 75, rfl⟩
abbrev main_v43 : Ref sig .tc := ⟨.hbm, 76, rfl⟩
abbrev main_c_10 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_13 : Ref sig .tc := ⟨.hbm, 94, rfl⟩
abbrev main_v58 : Ref sig .tc := ⟨.hbm, 95, rfl⟩
abbrev main_v59 : Ref sig .tc := ⟨.hbm, 96, rfl⟩
abbrev main_c_14 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_15 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call0_cst : Ref sig .tc := ⟨.hbm, 112, rfl⟩
abbrev main_call0_v0 : Ref sig .tc := ⟨.hbm, 113, rfl⟩
abbrev main_call0_v1 : Ref sig .tc := ⟨.hbm, 114, rfl⟩
abbrev main_call0_cst_0 : Ref sig .tc := ⟨.hbm, 115, rfl⟩
abbrev main_call0_v2 : Ref sig .tc := ⟨.hbm, 116, rfl⟩
abbrev main_call0_v3 : Ref sig .tc := ⟨.hbm, 117, rfl⟩
abbrev main_call0_cst_1 : Ref sig .tc := ⟨.hbm, 118, rfl⟩
abbrev main_call0_call0_v0 : Ref sig .tc := ⟨.hbm, 119, rfl⟩
abbrev main_call0_call0_v1 : Ref sig .tc := ⟨.hbm, 120, rfl⟩
abbrev main_call0_v4 : Ref sig .tc := ⟨.hbm, 121, rfl⟩
abbrev main_call0_v5 : Ref sig .tc := ⟨.hbm, 122, rfl⟩
abbrev main_call0_cst_2 : Ref sig .tc := ⟨.hbm, 123, rfl⟩
abbrev main_call0_v6 : Ref sig .tc := ⟨.hbm, 124, rfl⟩
abbrev main_call0_v7 : Ref sig .tc := ⟨.hbm, 125, rfl⟩
abbrev main_v73 : Ref sig .tc := ⟨.hbm, 126, rfl⟩
abbrev main_v74 : Ref sig .tc := ⟨.hbm, 127, rfl⟩
abbrev main_cst_16 : Ref sig .tc := ⟨.hbm, 128, rfl⟩
abbrev main_v75 : Ref sig .tc := ⟨.hbm, 129, rfl⟩
abbrev main_c_17 : Ref sig .tc := ⟨.hbm, 130, rfl⟩
abbrev main_v76 : Ref sig .tc := ⟨.hbm, 131, rfl⟩
abbrev main_v77 : Ref sig .tc := ⟨.hbm, 132, rfl⟩
abbrev main_c_18 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_19 : Ref sig .tc := ⟨.hbm, 138, rfl⟩
abbrev main_v82 : Ref sig .tc := ⟨.hbm, 139, rfl⟩
abbrev main_v83 : Ref sig .tc := ⟨.hbm, 140, rfl⟩
abbrev main_cst_20 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_c_21 : Ref sig .tc := ⟨.hbm, 145, rfl⟩
abbrev main_v87 : Ref sig .tc := ⟨.hbm, 146, rfl⟩
abbrev main_v88 : Ref sig .tc := ⟨.hbm, 147, rfl⟩
abbrev main_c_22 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_c_23 : Ref sig .tc := ⟨.hbm, 154, rfl⟩
abbrev main_v94 : Ref sig .tc := ⟨.hbm, 155, rfl⟩
abbrev main_v95 : Ref sig .tc := ⟨.hbm, 156, rfl⟩
abbrev main_c_24 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_c_25 : Ref sig .tc := ⟨.hbm, 165, rfl⟩
abbrev main_v103 : Ref sig .tc := ⟨.hbm, 166, rfl⟩
abbrev main_v104 : Ref sig .tc := ⟨.hbm, 167, rfl⟩
abbrev main_c_26 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_27 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_call1_cst : Ref sig .tc := ⟨.hbm, 183, rfl⟩
abbrev main_call1_v0 : Ref sig .tc := ⟨.hbm, 184, rfl⟩
abbrev main_call1_v1 : Ref sig .tc := ⟨.hbm, 185, rfl⟩
abbrev main_call1_cst_0 : Ref sig .tc := ⟨.hbm, 186, rfl⟩
abbrev main_call1_v2 : Ref sig .tc := ⟨.hbm, 187, rfl⟩
abbrev main_call1_v3 : Ref sig .tc := ⟨.hbm, 188, rfl⟩
abbrev main_call1_cst_1 : Ref sig .tc := ⟨.hbm, 189, rfl⟩
abbrev main_call1_call0_v0 : Ref sig .tc := ⟨.hbm, 190, rfl⟩
abbrev main_call1_call0_v1 : Ref sig .tc := ⟨.hbm, 191, rfl⟩
abbrev main_call1_v4 : Ref sig .tc := ⟨.hbm, 192, rfl⟩
abbrev main_call1_v5 : Ref sig .tc := ⟨.hbm, 193, rfl⟩
abbrev main_call1_cst_2 : Ref sig .tc := ⟨.hbm, 194, rfl⟩
abbrev main_call1_v6 : Ref sig .tc := ⟨.hbm, 195, rfl⟩
abbrev main_call1_v7 : Ref sig .tc := ⟨.hbm, 196, rfl⟩
abbrev main_v118 : Ref sig .tc := ⟨.hbm, 197, rfl⟩
abbrev main_v119 : Ref sig .tc := ⟨.hbm, 198, rfl⟩
abbrev main_cst_28 : Ref sig .tc := ⟨.hbm, 199, rfl⟩
abbrev main_v120 : Ref sig .tc := ⟨.hbm, 200, rfl⟩
abbrev main_c_29 : Ref sig .tc := ⟨.hbm, 201, rfl⟩
abbrev main_v121 : Ref sig .tc := ⟨.hbm, 202, rfl⟩
abbrev main_v122 : Ref sig .tc := ⟨.hbm, 203, rfl⟩
abbrev main_c_30 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_cst_31 : Ref sig .tc := ⟨.hbm, 209, rfl⟩
abbrev main_v127 : Ref sig .tc := ⟨.hbm, 210, rfl⟩
abbrev main_v128 : Ref sig .tc := ⟨.hbm, 211, rfl⟩
abbrev main_cst_32 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_c_33 : Ref sig .tc := ⟨.hbm, 216, rfl⟩
abbrev main_v132 : Ref sig .tc := ⟨.hbm, 217, rfl⟩
abbrev main_v133 : Ref sig .tc := ⟨.hbm, 218, rfl⟩
abbrev main_c_34 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_c_35 : Ref sig .tc := ⟨.hbm, 225, rfl⟩
abbrev main_v139 : Ref sig .tc := ⟨.hbm, 226, rfl⟩
abbrev main_v140 : Ref sig .tc := ⟨.hbm, 227, rfl⟩
abbrev main_c_36 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_c_37 : Ref sig .tc := ⟨.hbm, 236, rfl⟩
abbrev main_v148 : Ref sig .tc := ⟨.hbm, 237, rfl⟩
abbrev main_v149 : Ref sig .tc := ⟨.hbm, 238, rfl⟩
abbrev main_c_38 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_cst_39 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_call2_cst : Ref sig .tc := ⟨.hbm, 254, rfl⟩
abbrev main_call2_v0 : Ref sig .tc := ⟨.hbm, 255, rfl⟩
abbrev main_call2_v1 : Ref sig .tc := ⟨.hbm, 256, rfl⟩
abbrev main_call2_cst_0 : Ref sig .tc := ⟨.hbm, 257, rfl⟩
abbrev main_call2_v2 : Ref sig .tc := ⟨.hbm, 258, rfl⟩
abbrev main_call2_v3 : Ref sig .tc := ⟨.hbm, 259, rfl⟩
abbrev main_call2_cst_1 : Ref sig .tc := ⟨.hbm, 260, rfl⟩
abbrev main_call2_call0_v0 : Ref sig .tc := ⟨.hbm, 261, rfl⟩
abbrev main_call2_call0_v1 : Ref sig .tc := ⟨.hbm, 262, rfl⟩
abbrev main_call2_v4 : Ref sig .tc := ⟨.hbm, 263, rfl⟩
abbrev main_call2_v5 : Ref sig .tc := ⟨.hbm, 264, rfl⟩
abbrev main_call2_cst_2 : Ref sig .tc := ⟨.hbm, 265, rfl⟩
abbrev main_call2_v6 : Ref sig .tc := ⟨.hbm, 266, rfl⟩
abbrev main_call2_v7 : Ref sig .tc := ⟨.hbm, 267, rfl⟩
abbrev main_v163 : Ref sig .tc := ⟨.hbm, 268, rfl⟩
abbrev main_cst_40 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_cst_41 : Ref sig .tc := ⟨.hbm, 273, rfl⟩
abbrev main_v167 : Ref sig .tc := ⟨.hbm, 274, rfl⟩
abbrev main_cst_42 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_cst_43 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_call3_cst : Ref sig .tc := ⟨.hbm, 289, rfl⟩
abbrev main_call3_v0 : Ref sig .tc := ⟨.hbm, 290, rfl⟩
abbrev main_call3_v1 : Ref sig .tc := ⟨.hbm, 291, rfl⟩
abbrev main_call3_cst_0 : Ref sig .tc := ⟨.hbm, 292, rfl⟩
abbrev main_call3_v2 : Ref sig .tc := ⟨.hbm, 293, rfl⟩
abbrev main_call3_v3 : Ref sig .tc := ⟨.hbm, 294, rfl⟩
abbrev main_call3_cst_1 : Ref sig .tc := ⟨.hbm, 295, rfl⟩
abbrev main_call3_call0_v0 : Ref sig .tc := ⟨.hbm, 296, rfl⟩
abbrev main_call3_call0_v1 : Ref sig .tc := ⟨.hbm, 297, rfl⟩
abbrev main_call3_v4 : Ref sig .tc := ⟨.hbm, 298, rfl⟩
abbrev main_call3_v5 : Ref sig .tc := ⟨.hbm, 299, rfl⟩
abbrev main_call3_cst_2 : Ref sig .tc := ⟨.hbm, 300, rfl⟩
abbrev main_call3_v6 : Ref sig .tc := ⟨.hbm, 301, rfl⟩
abbrev main_call3_v7 : Ref sig .tc := ⟨.hbm, 302, rfl⟩
abbrev main_v180 : Ref sig .tc := ⟨.hbm, 303, rfl⟩
abbrev main_v181 : Ref sig .tc := ⟨.hbm, 304, rfl⟩
abbrev main_v182 : Ref sig .tc := ⟨.hbm, 305, rfl⟩
abbrev main_v183 : Ref sig .tc := ⟨.hbm, 306, rfl⟩
abbrev main_v184 : Ref sig .tc := ⟨.hbm, 307, rfl⟩
abbrev main_call4_cst : Ref sig .tc := ⟨.hbm, 308, rfl⟩
abbrev main_call4_v0 : Ref sig .tc := ⟨.hbm, 309, rfl⟩
abbrev main_call4_v1 : Ref sig .tc := ⟨.hbm, 310, rfl⟩
abbrev main_call4_cst_0 : Ref sig .tc := ⟨.hbm, 311, rfl⟩
abbrev main_call4_v2 : Ref sig .tc := ⟨.hbm, 312, rfl⟩
abbrev main_call4_v3 : Ref sig .tc := ⟨.hbm, 313, rfl⟩
abbrev main_call4_cst_1 : Ref sig .tc := ⟨.hbm, 314, rfl⟩
abbrev main_call4_call0_v0 : Ref sig .tc := ⟨.hbm, 315, rfl⟩
abbrev main_call4_call0_v1 : Ref sig .tc := ⟨.hbm, 316, rfl⟩
abbrev main_call4_v4 : Ref sig .tc := ⟨.hbm, 317, rfl⟩
abbrev main_call4_v5 : Ref sig .tc := ⟨.hbm, 318, rfl⟩
abbrev main_call4_cst_2 : Ref sig .tc := ⟨.hbm, 319, rfl⟩
abbrev main_call4_v6 : Ref sig .tc := ⟨.hbm, 320, rfl⟩
abbrev main_call4_v7 : Ref sig .tc := ⟨.hbm, 321, rfl⟩
abbrev main_v185 : Ref sig .tc := ⟨.hbm, 322, rfl⟩
abbrev main_v186 : Ref sig .tc := ⟨.hbm, 323, rfl⟩
abbrev main_v187 : Ref sig .tc := ⟨.hbm, 324, rfl⟩
abbrev main_v188 : Ref sig .tc := ⟨.hbm, 325, rfl⟩
abbrev main_v189 : Ref sig .tc := ⟨.hbm, 326, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  concatenates_S50000x200_S50000x10_S50000x10_S50000x2_S50000x222_d1 : Shape.Concatenates [S50000x200, S50000x10, S50000x10, S50000x2] S50000x222 1
  slices_S2x360000_S1x360000_0_0 : S2x360000.Slices ![0, 0] S1x360000
  shapeCasts_S1x360000_S360000 : S1x360000.ShapeCasts S360000
  concatenates_S360000_S50000_S410000_d0 : Shape.Concatenates [S360000, S50000] S410000 0
  slices_S2x360000_S1x360000_1_0 : S2x360000.Slices ![1, 0] S1x360000
  bcast_S_S410000 : S_.BroadcastsInDim S410000 (![] : Fin 0 → Fin S410000.rank)
  bcast_S410000_S410000x1_0 : S410000.BroadcastsInDim S410000x1 (![0] : Fin 1 → Fin S410000x1.rank)
  bcast_S410000x1_S410000x222_0_1 : S410000x1.BroadcastsInDim S410000x222 (![0, 1] : Fin 2 → Fin S410000x222.rank)
  bcast_S_S50000x222 : S_.BroadcastsInDim S50000x222 (![] : Fin 0 → Fin S50000x222.rank)
  bcast_S222_S1x222_1 : S222.BroadcastsInDim S1x222 (![1] : Fin 1 → Fin S1x222.rank)
  bcast_S1x222_S50000x222_0_1 : S1x222.BroadcastsInDim S50000x222 (![0, 1] : Fin 2 → Fin S50000x222.rank)
  bcast_S_S2000x222 : S_.BroadcastsInDim S2000x222 (![] : Fin 0 → Fin S2000x222.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x222_0_1 : S2000x1.BroadcastsInDim S2000x222 (![0, 1] : Fin 2 → Fin S2000x222.rank)
  bcast_S512_S1x512_1 : S512.BroadcastsInDim S1x512 (![1] : Fin 1 → Fin S1x512.rank)
  bcast_S1x512_S2000x512_0_1 : S1x512.BroadcastsInDim S2000x512 (![0, 1] : Fin 2 → Fin S2000x512.rank)
  bcast_S_S2000x512 : S_.BroadcastsInDim S2000x512 (![] : Fin 0 → Fin S2000x512.rank)
  bcast_S128_S1x128_1 : S128.BroadcastsInDim S1x128 (![1] : Fin 1 → Fin S1x128.rank)
  bcast_S1x128_S2000x128_0_1 : S1x128.BroadcastsInDim S2000x128 (![0, 1] : Fin 2 → Fin S2000x128.rank)
  bcast_S_S2000x128 : S_.BroadcastsInDim S2000x128 (![] : Fin 0 → Fin S2000x128.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  gather_S118x200_S50000x1_S50000x200_1_0_n_n_0_1_1200_wf : GatherDims.WF S118x200 S50000x1 S50000x200 [1] [0] [] [0] [] 1 ![1, 200]
  gather_S16x10_S50000x1_S50000x10_1_0_n_n_0_1_110_wf : GatherDims.WF S16x10 S50000x1 S50000x10 [1] [0] [] [0] [] 1 ![1, 10]
  gather_S64x10_S50000x1_S50000x10_1_0_n_n_0_1_110_wf : GatherDims.WF S64x10 S50000x1 S50000x10 [1] [0] [] [0] [] 1 ![1, 10]
  dot_S50000x222_S222x222_S50000x222_1_0_0_1_n_n_wf : DotDims.WF S50000x222 S222x222 S50000x222 [1] [0] [0] [1] [] []
  scatter_S50000_S410000x1_S410000_n_0_0_1_wf : ScatterDims.WF S50000 S410000x1 S410000 [] [0] [0] 1
  gather_S50000_S410000x1_S410000_n_0_n_n_0_1_1_wf : GatherDims.WF S50000 S410000x1 S410000 [] [0] [] [0] [] 1 ![1]
  gather_S50000x222_S410000x1_S410000x222_1_0_n_n_0_1_1222_wf : GatherDims.WF S50000x222 S410000x1 S410000x222 [1] [0] [] [0] [] 1 ![1, 222]
  scatter_S50000x222_S410000x1_S410000x222_1_0_0_1_wf : ScatterDims.WF S50000x222 S410000x1 S410000x222 [1] [0] [0] 1
  scatter_S2000x222_S50000x1_S50000x222_1_0_0_1_wf : ScatterDims.WF S2000x222 S50000x1 S50000x222 [1] [0] [0] 1
  scatter_S2000_S50000x1_S50000_n_0_0_1_wf : ScatterDims.WF S2000 S50000x1 S50000 [] [0] [0] 1
  dot_S2000x222_S222x512_S2000x512_1_0_0_1_n_n_wf : DotDims.WF S2000x222 S222x512 S2000x512 [1] [0] [0] [1] [] []
  dot_S2000x512_S512x128_S2000x128_1_0_0_1_n_n_wf : DotDims.WF S2000x512 S512x128 S2000x128 [1] [0] [0] [1] [] []
  dot_S2000x128_S128x1_S2000x1_1_0_0_1_n_n_wf : DotDims.WF S2000x128 S128x1 S2000x1 [1] [0] [0] [1] [] []

variable [Facts₀]

def gather_S118x200_S50000x1_S50000x200_1_0_n_n_0_1_1200 : GatherDims S118x200 S50000x1 S50000x200 where
  offsetDims := [1]
  collapsedSliceDims := [0]
  operandBatchingDims := []
  startIndicesBatchingDims := []
  startIndexMap := [0]
  indexVectorDim := 1
  sliceSizes := ![1, 200]
  wf := gather_S118x200_S50000x1_S50000x200_1_0_n_n_0_1_1200_wf
def gather_S16x10_S50000x1_S50000x10_1_0_n_n_0_1_110 : GatherDims S16x10 S50000x1 S50000x10 where
  offsetDims := [1]
  collapsedSliceDims := [0]
  operandBatchingDims := []
  startIndicesBatchingDims := []
  startIndexMap := [0]
  indexVectorDim := 1
  sliceSizes := ![1, 10]
  wf := gather_S16x10_S50000x1_S50000x10_1_0_n_n_0_1_110_wf
def gather_S64x10_S50000x1_S50000x10_1_0_n_n_0_1_110 : GatherDims S64x10 S50000x1 S50000x10 where
  offsetDims := [1]
  collapsedSliceDims := [0]
  operandBatchingDims := []
  startIndicesBatchingDims := []
  startIndexMap := [0]
  indexVectorDim := 1
  sliceSizes := ![1, 10]
  wf := gather_S64x10_S50000x1_S50000x10_1_0_n_n_0_1_110_wf
def dot_S50000x222_S222x222_S50000x222_1_0_0_1_n_n : DotDims S50000x222 S222x222 S50000x222 where
  lhsContracting := [1]
  rhsContracting := [0]
  lhsNonContracting := [0]
  rhsNonContracting := [1]
  lhsBatch := []
  rhsBatch := []
  wf := dot_S50000x222_S222x222_S50000x222_1_0_0_1_n_n_wf
def scatter_S50000_S410000x1_S410000_n_0_0_1 : ScatterDims S50000 S410000x1 S410000 where
  updateWindowDims := []
  insertedWindowDims := [0]
  scatterDimsToOperandDims := [0]
  indexVectorDim := 1
  wf := scatter_S50000_S410000x1_S410000_n_0_0_1_wf
def gather_S50000_S410000x1_S410000_n_0_n_n_0_1_1 : GatherDims S50000 S410000x1 S410000 where
  offsetDims := []
  collapsedSliceDims := [0]
  operandBatchingDims := []
  startIndicesBatchingDims := []
  startIndexMap := [0]
  indexVectorDim := 1
  sliceSizes := ![1]
  wf := gather_S50000_S410000x1_S410000_n_0_n_n_0_1_1_wf
def gather_S50000x222_S410000x1_S410000x222_1_0_n_n_0_1_1222 : GatherDims S50000x222 S410000x1 S410000x222 where
  offsetDims := [1]
  collapsedSliceDims := [0]
  operandBatchingDims := []
  startIndicesBatchingDims := []
  startIndexMap := [0]
  indexVectorDim := 1
  sliceSizes := ![1, 222]
  wf := gather_S50000x222_S410000x1_S410000x222_1_0_n_n_0_1_1222_wf
def scatter_S50000x222_S410000x1_S410000x222_1_0_0_1 : ScatterDims S50000x222 S410000x1 S410000x222 where
  updateWindowDims := [1]
  insertedWindowDims := [0]
  scatterDimsToOperandDims := [0]
  indexVectorDim := 1
  wf := scatter_S50000x222_S410000x1_S410000x222_1_0_0_1_wf
def scatter_S2000x222_S50000x1_S50000x222_1_0_0_1 : ScatterDims S2000x222 S50000x1 S50000x222 where
  updateWindowDims := [1]
  insertedWindowDims := [0]
  scatterDimsToOperandDims := [0]
  indexVectorDim := 1
  wf := scatter_S2000x222_S50000x1_S50000x222_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def dot_S2000x222_S222x512_S2000x512_1_0_0_1_n_n : DotDims S2000x222 S222x512 S2000x512 where
  lhsContracting := [1]
  rhsContracting := [0]
  lhsNonContracting := [0]
  rhsNonContracting := [1]
  lhsBatch := []
  rhsBatch := []
  wf := dot_S2000x222_S222x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

class Facts : Prop extends Facts₀ where

variable [Facts]
-- ==== Proof.KernelRun.lean ====
/-
  The tiled program's run, with its result named.

  The program is four kernel regions among four stretches of host operations.  Its run, segment by
  segment, ends with every unscoped buffer of a core at the contents the last boundary of the fold
  through the segments gives it (`W8`): a host stretch rewrites the buffers its operations write, a
  region rewrites its windows' arrays with what its write-backs leave.  The frame keeps of that final
  state only the argument arrays; here the result buffer is kept as well, still as the fold's value —
  reading that value as a function of the arguments is the next modules' work.
-/
import proofs.«140304_j41248865910880_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last
    boundary's contents and every argument array as launched. -/
theorem run : θ_run defs (onTc (τ := τ) (main (F := F))) ⟨m, fun _ => 0, ρ⟩ (fun r => ∀ c : Dev nD,
      r.2.mem ((c.tc : Thread nD τ).loc main_v126) = W8 m ρ c (Proc.devRef .tc main_v126) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v126 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c)⟩)

end Cert.KernelIdeal.KRun

end
-- ==== Proof.Chain.lean ====
/-
  The host chains the two programs share, and the pieces where they differ, as pure functions of the
  argument arrays at the ideal values.

  The network: node features are four blocks side by side (three embedding rows chosen by integer
  codes, and two angles); three graph-convolution layers each multiply by a weight matrix, aggregate
  over the edges (with self loops) under the symmetric degree normalisation, add a bias and apply
  ELU; the node features are averaged per graph; a three-layer dense head follows.

  Shared by both programs, operation for operation: the wrap of a negative index (`wrapNode`,
  `wrapEdge`), the edge endpoints with the self loops appended (`src`, `dst`), the normalisation
  `norm` = d^(-1/2)[src] · d^(-1/2)[dst] with d the in-degree clamped below by one, the aggregation
  `spmm` (gather rows by source, scale, add into the destination rows), and the mean pool `pool`.

  Different: the first layer's product (`h1Split`: each embedding table is multiplied by its slice of
  the weight rows first and the products' rows are chosen and added; `h1Whole`: the chosen rows are
  laid side by side and multiplied once), and ELU's spelling; `eluHost`, `layerHost`, `headHost`
  are the whole-array program's spellings.
-/
import proofs.«140304_j41248865910880_2_alg».proof.KernelIdeal
import proofs.«140304_j41248865910880_2_alg».proof.ReferenceIdeal
import Idealize.ShloMosaic.PureOps.Ideal

noncomputable section

namespace Cert.Chain

open Idealize.ShloMosaic Cert.KernelIdeal Cert.KernelIdeal.Facts₀

variable [Cert.KernelIdeal.Facts] [Cert.ReferenceIdeal.Facts]

/-- A float array of shape `S` at the ideal values. -/
abbrev Cf (S : Shape) : Type := FVec Ideal S .f32
/-- An integer array of shape `S`. -/
abbrev Ci (S : Shape) : Type := IVec S 32

/-- A node-indexed code wrapped into `[0, n)` the way array indexing wraps a negative index, as a column. -/
def wrapNode (n : BitVec 32) (i : Ci S50000) : Ci S50000x1 :=
  broadcastInDim S50000x1 ![0] bcast_S50000_S50000x1_0
    (select (cmpi .slt i (broadcastInDim S50000 ![] bcast_S_S50000 (constantI S_ 32 0#32)))
      (addi i (broadcastInDim S50000 ![] bcast_S_S50000 (constantI S_ 32 n))) i)

/-- An edge-indexed node number wrapped into `[0, 50000)`, as a column. -/
def wrapEdge (i : Ci S410000) : Ci S410000x1 :=
  broadcastInDim S410000x1 ![0] bcast_S410000_S410000x1_0
    (select (cmpi .slt i (broadcastInDim S410000 ![] bcast_S_S410000 (constantI S_ 32 0#32)))
      (addi i (broadcastInDim S410000 ![] bcast_S_S410000 (constantI S_ 32 50000#32))) i)

/-- Source node of every message: the edge list's first row, then one self loop per node. -/
def src (e : Ci S2x360000) : Ci S410000 :=
  concatenate S410000 0
    [⟨S360000, fun i => shapeCast S360000 (extractStridedSlice S1x360000 ![0, 0] e slices_S2x360000_S1x360000_0_0) shapeCasts_S1x360000_S360000 i⟩,
     ⟨S50000, iotaInDim S50000 32 0⟩] concatenates_S360000_S50000_S410000_d0

/-- Destination node of every message: the edge list's second row, then one self loop per node. -/
def dst (e : Ci S2x360000) : Ci S410000 :=
  concatenate S410000 0
    [⟨S360000, fun i => shapeCast S360000 (extractStridedSlice S1x360000 ![1, 0] e slices_S2x360000_S1x360000_1_0) shapeCasts_S1x360000_S360000 i⟩,
     ⟨S50000, iotaInDim S50000 32 0⟩] concatenates_S360000_S50000_S410000_d0

/-- d^(-1/2) per node, d the number of messages arriving (self loop included), at least one. -/
def dinv (e : Ci S2x360000) : Cf S50000 :=
  Host.rsqrt (maximumf
    (Host.scatterAdd scatter_S50000_S410000x1_S410000_n_0_0_1
      (broadcastInDim S50000 ![] bcast_S_S50000 (constant S_ .f32 0x00000000#32))
      (wrapEdge (dst e))
      (broadcastInDim S410000 ![] bcast_S_S410000 (constant S_ .f32 0x3F800000#32)))
    (broadcastInDim S50000 ![] bcast_S_S50000 (constant S_ .f32 0x3F800000#32)))

/-- The weight of every message: d^(-1/2) at its source times d^(-1/2) at its destination. -/
def norm (e : Ci S2x360000) : Cf S410000 :=
  mulf (Host.gather gather_S50000_S410000x1_S410000_n_0_n_n_0_1_1 (dinv e) (wrapEdge (src e)))
    (Host.gather gather_S50000_S410000x1_S410000_n_0_n_n_0_1_1 (dinv e) (wrapEdge (dst e)))

/-- One aggregation: every message carries its source's row scaled by the message's weight, and the
    messages arriving at a node are added. -/
def spmm (e : Ci S2x360000) (h : Cf S50000x222) : Cf S50000x222 :=
  Host.scatterAdd scatter_S50000x222_S410000x1_S410000x222_1_0_0_1
    (broadcastInDim S50000x222 ![] bcast_S_S50000x222 (constant S_ .f32 0x00000000#32))
    (broadcastInDim S410000x1 ![0] bcast_S410000_S410000x1_0 (dst e))
    (mulf (Host.gather gather_S50000x222_S410000x1_S410000x222_1_0_n_n_0_1_1222 h (wrapEdge (src e)))
      (broadcastInDim S410000x222 ![0, 1] bcast_S410000x1_S410000x222_0_1
        (broadcastInDim S410000x1 ![0] bcast_S410000_S410000x1_0 (norm e))))

/-- The mean of the node rows of every graph (a graph with no node divides by one). -/
def pool (b : Ci S50000) (x : Cf S50000x222) : Cf S2000x222 :=
  Host.divf
    (Host.scatterAdd scatter_S2000x222_S50000x1_S50000x222_1_0_0_1
      (broadcastInDim S2000x222 ![] bcast_S_S2000x222 (constant S_ .f32 0x00000000#32))
      (broadcastInDim S50000x1 ![0] bcast_S50000_S50000x1_0 b) x)
    (broadcastInDim S2000x222 ![0, 1] bcast_S2000x1_S2000x222_0_1
      (broadcastInDim S2000x1 ![0] bcast_S2000_S2000x1_0
        (maximumf
          (Host.scatterAdd scatter_S2000_S50000x1_S50000_n_0_0_1
            (broadcastInDim S2000 ![] bcast_S_S2000 (constant S_ .f32 0x00000000#32))
            (broadcastInDim S50000x1 ![0] bcast_S50000_S50000x1_0 b)
            (broadcastInDim S50000 ![] bcast_S_S50000 (constant S_ .f32 0x3F800000#32)))
          (broadcastInDim S2000 ![] bcast_S_S2000 (constant S_ .f32 0x3F800000#32)))))

/-- The first layer's product, table by table: each table times its slice of the weight rows, the
    products' rows chosen by the codes and added, plus the angles times the last two weight rows. -/
def h1Split (a0 a1 a2 : Ci S50000) (a3 : Cf S50000x2) (a6 : Cf S118x200) (a7 : Cf S16x10) (a8 : Cf S64x10)
    (a9 : Cf S222x222) : Cf S50000x222 :=
  addf (addf (addf
      (Host.gather gather_S118x222_S50000x1_S50000x222_1_0_n_n_0_1_1222
        (Host.dotGeneral dot_S118x200_S200x222_S118x222_1_0_0_1_n_n none a6
          (extractStridedSlice S200x222 ![0, 0] a9 slices_S222x222_S200x222_0_0)) (wrapNode 118#32 a0))
      (Host.gather gather_S16x222_S50000x1_S50000x222_1_0_n_n_0_1_1222
        (Host.dotGeneral dot_S16x10_S10x222_S16x222_1_0_0_1_n_n none a7
          (extractStridedSlice S10x222 ![200, 0] a9 slices_S222x222_S10x222_200_0)) (wrapNode 16#32 a1)))
      (Host.gather gather_S64x222_S50000x1_S50000x222_1_0_n_n_0_1_1222
        (Host.dotGeneral dot_S64x10_S10x222_S64x222_1_0_0_1_n_n none a8
          (extractStridedSlice S10x222 ![210, 0] a9 slices_S222x222_S10x222_210_0)) (wrapNode 64#32 a2)))
    (Host.dotGeneral dot_S50000x2_S2x222_S50000x222_1_0_0_1_n_n none a3
      (extractStridedSlice S2x222 ![220, 0] a9 slices_S222x222_S2x222_220_0))

/-- The first layer's product, all at once: the chosen rows side by side, times the whole weight matrix. -/
def h1Whole (a0 a1 a2 : Ci S50000) (a3 : Cf S50000x2) (a6 : Cf S118x200) (a7 : Cf S16x10) (a8 : Cf S64x10)
    (a9 : Cf S222x222) : Cf S50000x222 :=
  Host.dotGeneral Cert.ReferenceIdeal.dot_S50000x222_S222x222_S50000x222_1_0_0_1_n_n none
    (concatenate S50000x222 1
      [⟨Cert.ReferenceIdeal.S50000x200, Host.gather Cert.ReferenceIdeal.gather_S118x200_S50000x1_S50000x200_1_0_n_n_0_1_1200 a6 (wrapNode 118#32 a0)⟩,
       ⟨Cert.ReferenceIdeal.S50000x10, Host.gather Cert.ReferenceIdeal.gather_S16x10_S50000x1_S50000x10_1_0_n_n_0_1_110 a7 (wrapNode 16#32 a1)⟩,
       ⟨Cert.ReferenceIdeal.S50000x10, Host.gather Cert.ReferenceIdeal.gather_S64x10_S50000x1_S50000x10_1_0_n_n_0_1_110 a8 (wrapNode 64#32 a2)⟩,
       ⟨S50000x2, a3⟩]
      Cert.ReferenceIdeal.Facts₀.concatenates_S50000x200_S50000x10_S50000x10_S50000x2_S50000x222_d1) a9

/-- ELU as the whole-array program spells it: x where 0 < x, else 1 · expm1 (x, or 0 where 0 < x). -/
def eluHost (S : Shape) (hb : S_.BroadcastsInDim S ![]) (x : Cf S) : Cf S :=
  select (cmpf .ogt x (broadcastInDim S ![] hb (constant S_ .f32 0x00000000#32))) x
    (mulf (broadcastInDim S ![] hb (constant S_ .f32 0x3F800000#32))
      (Host.expm1 (select (cmpf .ogt x (broadcastInDim S ![] hb (constant S_ .f32 0x00000000#32)))
        (broadcastInDim S ![] hb (id (constant S_ .f32 0x00000000#32))) x)))

/-- A bias vector as a row, repeated down the node rows. -/
def biasRows (b : Cf S222) : Cf S50000x222 :=
  broadcastInDim S50000x222 ![0, 1] Cert.ReferenceIdeal.Facts₀.bcast_S1x222_S50000x222_0_1
    (broadcastInDim S1x222 ![1] Cert.ReferenceIdeal.Facts₀.bcast_S222_S1x222_1 b)

/-- ELU of an aggregate plus its bias. -/
def actHost (b : Cf S222) (agg : Cf S50000x222) : Cf S50000x222 :=
  eluHost S50000x222 bcast_S_S50000x222 (addf agg (biasRows b))

/-- The step between two aggregations in the whole-array program: bias, ELU, times the next weights. -/
def layerHost (b : Cf S222) (W : Cf S222x222) (agg : Cf S50000x222) : Cf S50000x222 :=
  Host.dotGeneral Cert.ReferenceIdeal.dot_S50000x222_S222x222_S50000x222_1_0_0_1_n_n none (actHost b agg) W

/-- The dense head of the whole-array program: Linear, ELU, Linear, ELU, Linear. -/
def headHost (g : Cf S2000x222) (w1 : Cf S222x512) (b1 : Cf S512) (w2 : Cf S512x128) (b2 : Cf S128)
    (w3 : Cf S128x1) (b3 : Cf S1) : Cf S2000x1 :=
  addf (Host.dotGeneral Cert.ReferenceIdeal.dot_S2000x128_S128x1_S2000x1_1_0_0_1_n_n none
      (eluHost S2000x128 Cert.ReferenceIdeal.Facts₀.bcast_S_S2000x128
        (addf (Host.dotGeneral Cert.ReferenceIdeal.dot_S2000x512_S512x128_S2000x128_1_0_0_1_n_n none
            (eluHost S2000x512 Cert.ReferenceIdeal.Facts₀.bcast_S_S2000x512
              (addf (Host.dotGeneral Cert.ReferenceIdeal.dot_S2000x222_S222x512_S2000x512_1_0_0_1_n_n none g w1)
                (broadcastInDim S2000x512 ![0, 1] Cert.ReferenceIdeal.Facts₀.bcast_S1x512_S2000x512_0_1
                  (broadcastInDim S1x512 ![1] Cert.ReferenceIdeal.Facts₀.bcast_S512_S1x512_1 b1)))) w2)
          (broadcastInDim S2000x128 ![0, 1] Cert.ReferenceIdeal.Facts₀.bcast_S1x128_S2000x128_0_1
            (broadcastInDim S1x128 ![1] Cert.ReferenceIdeal.Facts₀.bcast_S128_S1x128_1 b2)))) w3)
    (broadcastInDim S2000x1 ![0, 1] Cert.ReferenceIdeal.Facts₀.bcast_S1x1_S2000x1_0_1
      (broadcastInDim S1x1 ![1] Cert.ReferenceIdeal.Facts₀.bcast_S1_S1x1_1 b3))

/-- What the whole-array program returns, as one function of its twenty-one arguments. -/
def wholeValue (a0 a1 a2 : Ci S50000) (a3 : Cf S50000x2) (a4 : Ci S2x360000) (a5 : Ci S50000)
    (a6 : Cf S118x200) (a7 : Cf S16x10) (a8 : Cf S64x10)
    (a9 : Cf S222x222) (a10 : Cf S222) (a11 : Cf S222x222) (a12 : Cf S222) (a13 : Cf S222x222) (a14 : Cf S222)
    (a15 : Cf S222x512) (a16 : Cf S512) (a17 : Cf S512x128) (a18 : Cf S128) (a19 : Cf S128x1) (a20 : Cf S1) :
    Cf S2000x1 :=
  headHost (pool a5 (actHost a14 (spmm a4 (layerHost a12 a13 (spmm a4 (layerHost a10 a11
    (spmm a4 (h1Whole a0 a1 a2 a3 a6 a7 a8 a9)))))))) a15 a16 a17 a18 a19 a20

end Cert.Chain

end
-- ==== Proof.LibRows.lean ====
/-
  Row blocks of a two-axis array at the ideal values.

  A kernel that walks an `N × C` array in blocks of `B` rows computes, at each block, the same
  function of the block's rows that a whole-array program computes of all rows at once, provided
  every operation is local to a row: a matrix product against a fixed right factor, the addition
  of a bias row, a pointwise operation.  This module states that locality once:

  * `rows off h A` is the block of `B` rows of `A` starting at row `off`;
  * `PlainSum d`: the contraction of the dot `d` is the plain matrix product
    `∑ j, f (p, j) · g (j, c)`;
  * `rows_dot`: the rows of a whole-array product are the product of the rows;
  * `rows_bias`: the rows of a bias row broadcast down the array are the bias row broadcast down
    the block;
  * `rows_silu`: `x · (1 / (1 + e^(-x)))` spelt with divide, add, exponential and negate is
    `x · logistic x`, pointwise, hence also on rows;
  * `dot_assoc`: over finite entries `(A · U) · V = A · (U · V)`.
-/
import Idealize.ShloMosaic.Lib.ValueIdx
import Idealize.ShloMosaic.Lib.Pipeline.Value
import Idealize.ShloMosaic.PureOps.Ideal.Laws

noncomputable section

namespace RowBlocks

open Idealize.ShloMosaic Idealize.ShloMosaic.ValueIdx

/-- Rows `off … off + B - 1` of an `N × C` array, as a `B × C` array. -/
def rows {α : Type} {N B C : ℕ} (off : ℕ) (h : off + B ≤ N) (A : (⟨2, ![N, C]⟩ : Shape).Idx → α) :
    (⟨2, ![B, C]⟩ : Shape).Idx → α :=
  fun y => A (ix2 (n0 := N) (n1 := C) ⟨off + (y 0).val, by have := idx2_lt0 y; omega⟩ (y 1))

theorem rows_apply {α : Type} {N B C : ℕ} (off : ℕ) (h : off + B ≤ N) (A : (⟨2, ![N, C]⟩ : Shape).Idx → α)
    (p : Fin B) (q : Fin C) :
    rows off h A (ix2 p q) = A (ix2 ⟨off + p.val, by have := p.isLt; omega⟩ q) := rfl

/-- The contraction of `d`, a dot of an `m × k` by a `k × n` array, is the plain matrix product. -/
def PlainSum {m k n : ℕ} (d : DotDims ⟨2, ![m, k]⟩ ⟨2, ![k, n]⟩ ⟨2, ![m, n]⟩) : Prop :=
  ∀ (f : (⟨2, ![m, k]⟩ : Shape).Idx → EReal) (g : (⟨2, ![k, n]⟩ : Shape).Idx → EReal) (p : Fin m) (c : Fin n),
    (∑ q : d.contr.Idx, f (d.lhsIdx (ix2 p c) q) * g (d.rhsIdx (ix2 p c) q)) = ∑ j : Fin k, f (ix2 p j) * g (ix2 j c)

/-- A dot with one contracted axis, the left factor's second against the right factor's first, and no
    batch axis, is a plain matrix product: its operand indices at output `(p, c)` and contraction
    index `j` are `(p, j)` and `(j, c)`. -/
theorem plainSum_of {m k n : ℕ} (d : DotDims ⟨2, ![m, k]⟩ ⟨2, ![k, n]⟩ ⟨2, ![m, n]⟩) (hr : d.contr.rank = 1)
    (hs : d.contr.size ⟨0, by omega⟩ = k)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val) :
    PlainSum d := by
  intro f g p c
  rw [← Equiv.sum_comp (contrEquiv1 d k hr hs).symm]
  refine Finset.sum_congr rfl fun j _ => ?_
  have hj := contrEquiv1_symm_val d k hr hs j
  have el : d.lhsIdx (ix2 p c) ((contrEquiv1 d k hr hs).symm j) = ix2 p j := funext fun a => Fin.ext (by
    match a with
    | ⟨0, _⟩ => exact hl0 _ _
    | ⟨1, _⟩ => exact (hl1 _ _).trans hj)
  have er : d.rhsIdx (ix2 p c) ((contrEquiv1 d k hr hs).symm j) = ix2 j c := funext fun a => Fin.ext (by
    match a with
    | ⟨0, _⟩ => exact (hr0 _ _).trans hj
    | ⟨1, _⟩ => exact hr1 _ _)
  rw [el, er]

/-- The host's product read at an index. -/
theorem dotGeneral_ix2 {m k n : ℕ} (d : DotDims ⟨2, ![m, k]⟩ ⟨2, ![k, n]⟩ ⟨2, ![m, n]⟩) (hd : PlainSum d)
    {φ₁ φ₂ : FTy} (prec : Option ContractPrecision) (A : FVec Ideal ⟨2, ![m, k]⟩ φ₁) (W : FVec Ideal ⟨2, ![k, n]⟩ φ₂)
    (p : Fin m) (c : Fin n) :
    Host.dotGeneral d prec A W (ix2 p c) = ∑ j : Fin k, A (ix2 p j) * W (ix2 j c) := by
  simp only [Host.dotGeneral]
  rw [Ideal.dotGeneral_apply]
  exact hd A W p c

/-- The matrix unit's product into a zero accumulator read at an index. -/
theorem matmul_zero_ix2 {m k n : ℕ} (d : DotDims ⟨2, ![m, k]⟩ ⟨2, ![k, n]⟩ ⟨2, ![m, n]⟩) (hd : PlainSum d)
    {φ₁ φ₂ : FTy} (prec : Option ContractPrecision) (A : FVec Ideal ⟨2, ![m, k]⟩ φ₁) (W : FVec Ideal ⟨2, ![k, n]⟩ φ₂)
    (p : Fin m) (c : Fin n) :
    matmul d prec A W (constant ⟨2, ![m, n]⟩ .f32 0x00000000#32) (ix2 p c) = ∑ j : Fin k, A (ix2 p j) * W (ix2 j c) := by
  simp only [matmul]
  rw [Ideal.matmul_constant_zero_apply]
  exact hd A W p c

/-- THE ROWS OF A PRODUCT are the product of the rows: the whole-array product of `A` by `W`, read on a
    block of rows, is the matrix unit's product of that block of `A` by `W` (both operands passed
    through a change of float format, which is the identity at the ideal values). -/
theorem rows_dot {N B K M : ℕ} (dB : DotDims ⟨2, ![N, K]⟩ ⟨2, ![K, M]⟩ ⟨2, ![N, M]⟩)
    (dS : DotDims ⟨2, ![B, K]⟩ ⟨2, ![K, M]⟩ ⟨2, ![B, M]⟩) (hB : PlainSum dB) (hS : PlainSum dS)
    (off : ℕ) (h : off + B ≤ N) (p p' : Option ContractPrecision)
    (A : FVec Ideal ⟨2, ![N, K]⟩ .f32) (W : FVec Ideal ⟨2, ![K, M]⟩ .f32)
    (h1 : FTy.bf16.bits < FTy.f32.bits) :
    rows off h (Host.dotGeneral dB p A W)
      = matmul dS p' (truncf .bf16 (rows off h A) h1) (truncf .bf16 W h1) (constant ⟨2, ![B, M]⟩ .f32 0x00000000#32) := by
  funext y
  obtain ⟨r, c, rfl⟩ : ∃ (r : Fin B) (c : Fin M), y = ix2 r c := ⟨y 0, y 1, eq_ix2 y⟩
  rw [rows_apply, dotGeneral_ix2 dB hB, matmul_zero_ix2 dS hS]
  rfl

/-- THE ROWS OF A BIAS: a bias row of 128 entries, made a `1 × 128` array and broadcast down the whole
    array, read on a block of rows, is the bias row broadcast down the block. -/
theorem rows_bias {α : Type} {N B : ℕ} (off : ℕ) (h : off + B ≤ N) (b : (⟨1, ![128]⟩ : Shape).Idx → α)
    (hb1 : (⟨1, ![128]⟩ : Shape).BroadcastsInDim ⟨2, ![1, 128]⟩ ![1])
    (hb2 : (⟨2, ![1, 128]⟩ : Shape).BroadcastsInDim ⟨2, ![N, 128]⟩ ![0, 1])
    (hsc : (⟨1, ![128]⟩ : Shape).ShapeCasts ⟨2, ![1, 128]⟩)
    (hbt : (⟨2, ![1, 128]⟩ : Shape).Broadcasts ⟨2, ![B, 128]⟩) :
    rows off h (broadcastInDim ⟨2, ![N, 128]⟩ ![0, 1] hb2 (broadcastInDim ⟨2, ![1, 128]⟩ ![1] hb1 b))
      = broadcastTo ⟨2, ![B, 128]⟩ (shapeCast ⟨2, ![1, 128]⟩ b hsc) hbt := by
  funext y
  obtain ⟨r, c, rfl⟩ : ∃ (r : Fin B) (c : Fin 128), y = ix2 r c := ⟨y 0, y 1, eq_ix2 y⟩
  rw [rows_apply]
  rw [broadcastInDim_apply _ hb2 _ _ (ix2 (⟨0, Nat.one_pos⟩ : Fin 1) c) (fun a => match a with
    | ⟨0, _⟩ => by show 0 = if (1 : Nat) = 1 then 0 else _; rw [if_pos rfl]
    | ⟨1, _⟩ => by show c.val = if (128 : Nat) = 1 then 0 else c.val; rw [if_neg (by decide)])]
  rw [broadcastInDim_apply _ hb1 _ _ (ix1 c) (fun a => match a with
    | ⟨0, _⟩ => by show c.val = if (128 : Nat) = 1 then 0 else c.val; rw [if_neg (by decide)])]
  rw [broadcastTo_apply _ hbt _ (ix2 (⟨0, Nat.one_pos⟩ : Fin 1) c) (fun a => match a with
    | ⟨0, _⟩ => by show 0 = if (1 : Nat) = 1 then 0 else _; rw [if_pos rfl]
    | ⟨1, _⟩ => by show c.val = if (128 : Nat) = 1 then 0 else c.val; rw [if_neg (by decide)])]
  rw [shapeCast_addUnit_apply ![128] b hsc]
  exact congrArg b (funext fun a => match a with | ⟨0, _⟩ => rfl)

/-- The bit pattern of `1.0` denotes `1`. -/
theorem ofBits_one : Ideal.ofBits .f32 0x3F800000#32 = 1 := by
  simp [Ideal.ofBits, Ideal.ieee, -EReal.coe_mul]; norm_num

/-- `x · (1 / (1 + e^(-x)))`, spelt with the host's divide, add, exponential and negate over splats of
    `1.0`, is `x · logistic x` pointwise. -/
theorem silu_eq {s : Shape} (X : FVec Ideal s .f32) (hb : (⟨0, ![]⟩ : Shape).BroadcastsInDim s ![]) :
    mulf X (Host.divf (broadcastInDim s ![] hb (constant ⟨0, ![]⟩ .f32 0x3F800000#32))
        (addf (broadcastInDim s ![] hb (constant ⟨0, ![]⟩ .f32 0x3F800000#32)) (Host.exp (Host.negf X))))
      = mulf X (logistic X) := by
  funext i
  show X i * Ideal.div (Ideal.ofBits .f32 0x3F800000#32) (Ideal.ofBits .f32 0x3F800000#32 + Ideal.exp (-(X i)))
    = X i * Ideal.logistic (X i)
  rw [ofBits_one]
  rfl

/-- Pointwise operations commute with taking rows (by definition). -/
theorem rows_mulf {N B C : ℕ} (off : ℕ) (h : off + B ≤ N) (X Y : FVec Ideal ⟨2, ![N, C]⟩ .f32) :
    rows off h (mulf X Y) = mulf (rows off h X) (rows off h Y) := rfl
theorem rows_addf {N B C : ℕ} (off : ℕ) (h : off + B ≤ N) (X Y : FVec Ideal ⟨2, ![N, C]⟩ .f32) :
    rows off h (addf X Y) = addf (rows off h X) (rows off h Y) := rfl
theorem rows_logistic {N B C : ℕ} (off : ℕ) (h : off + B ≤ N) (X : FVec Ideal ⟨2, ![N, C]⟩ .f32) :
    rows off h (logistic X) = logistic (rows off h X) := rfl

/-! ## The plain matrix product as a function, and its associativity over finite entries -/

/-- The plain matrix product `(A · W) (p, c) = ∑ j, A (p, j) · W (j, c)` on the extended reals. -/
def mm {m k n : ℕ} (A : (⟨2, ![m, k]⟩ : Shape).Idx → EReal) (W : (⟨2, ![k, n]⟩ : Shape).Idx → EReal) :
    (⟨2, ![m, n]⟩ : Shape).Idx → EReal :=
  fun i => ∑ j : Fin k, A (ix2 (i 0) j) * W (ix2 j (i 1))

/-- The host's product IS the plain matrix product. -/
theorem dot_eq_mm {m k n : ℕ} (d : DotDims ⟨2, ![m, k]⟩ ⟨2, ![k, n]⟩ ⟨2, ![m, n]⟩) (hd : PlainSum d)
    {φ₁ φ₂ : FTy} (prec : Option ContractPrecision) (A : FVec Ideal ⟨2, ![m, k]⟩ φ₁) (W : FVec Ideal ⟨2, ![k, n]⟩ φ₂) :
    Host.dotGeneral d prec A W = mm A W := by
  funext y
  obtain ⟨r, c, rfl⟩ : ∃ (r : Fin m) (c : Fin n), y = ix2 r c := ⟨y 0, y 1, eq_ix2 y⟩
  rw [dotGeneral_ix2 d hd]
  rfl

/-- The rows of a plain matrix product are the matrix unit's product of the rows. -/
theorem rows_mm {N B K M : ℕ} (dS : DotDims ⟨2, ![B, K]⟩ ⟨2, ![K, M]⟩ ⟨2, ![B, M]⟩) (hS : PlainSum dS)
    (off : ℕ) (h : off + B ≤ N) (p' : Option ContractPrecision)
    (A : FVec Ideal ⟨2, ![N, K]⟩ .f32) (W : FVec Ideal ⟨2, ![K, M]⟩ .f32)
    (h1 : FTy.bf16.bits < FTy.f32.bits) :
    rows off h (mm A W)
      = matmul dS p' (truncf .bf16 (rows off h A) h1) (truncf .bf16 W h1) (constant ⟨2, ![B, M]⟩ .f32 0x00000000#32) := by
  funext y
  obtain ⟨r, c, rfl⟩ : ∃ (r : Fin B) (c : Fin M), y = ix2 r c := ⟨y 0, y 1, eq_ix2 y⟩
  rw [rows_apply, matmul_zero_ix2 dS hS]
  rfl

/-- A finite sum of reals, coerced termwise. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Over FINITE entries the plain matrix product is associative (on the extended reals it is not in general:
    distributing a product over a sum fails at the infinities). -/
theorem mm_assoc {m k l n : ℕ} (A : (⟨2, ![m, k]⟩ : Shape).Idx → EReal) (U : (⟨2, ![k, l]⟩ : Shape).Idx → EReal)
    (V : (⟨2, ![l, n]⟩ : Shape).Idx → EReal) (hA : ∀ i, ∃ r : ℝ, A i = (r : EReal)) (hU : ∀ i, ∃ r : ℝ, U i = (r : EReal))
    (hV : ∀ i, ∃ r : ℝ, V i = (r : EReal)) :
    mm (mm A U) V = mm A (mm U V) := by
  choose a ha using hA
  choose u hu using hU
  choose v hv using hV
  funext i
  show (∑ j : Fin l, (∑ q : Fin k, A (ix2 (i 0) q) * U (ix2 q j)) * V (ix2 j (i 1)))
    = ∑ q : Fin k, A (ix2 (i 0) q) * (∑ j : Fin l, U (ix2 q j) * V (ix2 j (i 1)))
  simp only [ha, hu, hv, ← EReal.coe_mul, coe_sum]
  refine congrArg _ ?_
  simp only [Finset.sum_mul, Finset.mul_sum]
  rw [Finset.sum_comm]
  exact Finset.sum_congr rfl fun q _ => Finset.sum_congr rfl fun j _ => mul_assoc _ _ _

end RowBlocks

end
-- ==== Proof.EluForms.lean ====
/-
  ELU, and the two ways the programs spell it.

  ELU is the function `elu x = x` where `0 < x` and `e^x - 1` elsewhere, on the extended reals
  (`elu ⊤ = ⊤`, `elu ⊥ = -1`).  One program writes it as "choose, by the sign of `x`, between `x`
  and `e^x - 1`".  The other guards the exponential: it chooses between `x` and
  `1 · expm1 (x where x ≤ 0, and 0 where 0 < x)`; where `0 < x` the guarded branch is not taken, and
  where it is taken the guard lets `x` through, so the two agree at every extended real.
-/
import proofs.«140304_j41248865910880_2_alg».proof.Proof.Chain
import proofs.«140304_j41248865910880_2_alg».proof.Proof.LibRows
import Idealize.ShloMosaic.Lib.IdealHost

noncomputable section

namespace Cert.Bodies

open Idealize.ShloMosaic Idealize.ShloMosaic.ValueIdx Cert.KernelIdeal

/-- ELU on the extended reals: the identity on the positive half line, `e^x - 1` elsewhere. -/
def elu (x : EReal) : EReal := if 0 < x then x else Ideal.exp x - 1

/-- A choice on the comparison "`y` is greater than `z`" is the `if` on `z < y`. -/
theorem select_ogt {α : Type} (y z : EReal) (a b : α) :
    Scalar.select (FloatOps.cmpf (F := Ideal) (φ := .f32) .ogt y z) a b = if z < y then a else b := by
  show (if BitVec.ofBool (decide (z < y)) = 1#1 then a else b) = _
  by_cases h : z < y <;> simp [h]

/-- The direct spelling at a point: choose between `y` and `e^y - 1.0` by the sign of `y`. -/
theorem elu_direct (y : EReal) :
    Scalar.select (FloatOps.cmpf (F := Ideal) (φ := .f32) .ogt y (Ideal.ofBits .f32 0x00000000#32)) y
      (Ideal.exp y - Ideal.ofBits .f32 0x3F800000#32) = elu y := by
  rw [select_ogt, Ideal.ofBits_zero_f32, RowBlocks.ofBits_one]
  rfl

/-- The guarded spelling at a point: the exponential's argument is replaced by `0` where the branch
    that holds it is not taken, and the result is multiplied by `1.0`. -/
theorem elu_guarded (y : EReal) :
    Scalar.select (FloatOps.cmpf (F := Ideal) (φ := .f32) .ogt y (Ideal.ofBits .f32 0x00000000#32)) y
      (Ideal.ofBits .f32 0x3F800000#32 *
        (Ideal.exp (Scalar.select (FloatOps.cmpf (F := Ideal) (φ := .f32) .ogt y (Ideal.ofBits .f32 0x00000000#32))
          (Ideal.ofBits .f32 0x00000000#32) y) - 1)) = elu y := by
  rw [select_ogt, select_ogt, Ideal.ofBits_zero_f32, RowBlocks.ofBits_one, one_mul]
  unfold elu
  by_cases h : 0 < y
  · rw [if_pos h, if_pos h]
  · rw [if_neg h, if_neg h, if_neg h]

/-- The whole-array program's ELU at an index. -/
theorem eluHost_apply (S : Shape) (hb : S_.BroadcastsInDim S ![]) (x : Cert.Chain.Cf S) (i : S.Idx) :
    Cert.Chain.eluHost S hb x i = elu (x i) :=
  elu_guarded (x i)

end Cert.Bodies

end
-- ==== Proof.Bodies.lean ====
/-
  The tiled program's block bodies and dense head, and the whole-array program's layer step and
  dense head, read entry by entry.

  Every one of them is built from three pieces: adding a bias row to every row of an array, ELU
  entry by entry, and a plain matrix product `(A · W) (p, c) = ∑ j, A (p, j) · W (j, c)`.  A block
  body works on a block of rows and rounds its product's operands to a narrower float format first;
  on the extended reals that rounding is the identity, and a product accumulated from zero is the
  plain product.  So at an entry a block body and the whole-array step are the same expression in
  the entries of their operands: `elu (x (p, q) + b q)`, or `∑ j, elu (x (p, j) + b j) · W (j, q)`.
  The dense head is three such steps in a row, the last without ELU, and the two programs' heads are
  equal as whole arrays.
-/
import proofs.«140304_j41248865910880_2_alg».proof.Proof.EluForms
import proofs.«140304_j41248865910880_2_alg».proof.Proof.Gen.KernelIdeal.Skeleton
import proofs.«140304_j41248865910880_2_alg».proof.Proof.Gen.ReferenceIdeal
import Idealize.ShloMosaic.Lib.ValueLayout

noncomputable section

namespace Cert.Bodies

open Idealize.ShloMosaic Idealize.ShloMosaic.ValueIdx Cert.KernelIdeal Cert.KernelIdeal.Facts₀

/-! ## A dot with the dimension numbers of a plain matrix product -/

/-- A dot of an `m × k` by a `k × n` array that contracts the left factor's second axis against the
    right factor's first, with no batch axis, is the plain matrix product. -/
theorem plainSum_std {m k n : ℕ} (d : DotDims ⟨2, ![m, k]⟩ ⟨2, ![k, n]⟩ ⟨2, ![m, n]⟩)
    (h1 : d.lhsContracting = [1]) (h2 : d.rhsContracting = [0]) (h3 : d.lhsNonContracting = [0])
    (h4 : d.rhsNonContracting = [1]) (h5 : d.lhsBatch = []) (h6 : d.rhsBatch = []) : RowBlocks.PlainSum d := by
  obtain ⟨lc, rc, ln, rn, lb, rb, wf⟩ := d
  dsimp only at h1 h2 h3 h4 h5 h6
  subst h1 h2 h3 h4 h5 h6
  refine RowBlocks.plainSum_of _ rfl rfl (fun i q => ?_) (fun i q => ?_) (fun i q => ?_) (fun i q => ?_)
  · unfold DotDims.lhsIdx
    rw [dif_neg (show ¬(0 : Fin 2) ∈ ([] : List (Fin 2)) by decide), dif_pos (show (0 : Fin 2) ∈ [(0 : Fin 2)] by decide)]
    rfl
  · exact DotDims.lhsIdx_val_of_single _ rfl i q
  · exact DotDims.rhsIdx_val_of_single _ rfl i q
  · unfold DotDims.rhsIdx
    rw [dif_neg (show ¬(1 : Fin 2) ∈ ([] : List (Fin 2)) by decide), dif_pos (show (1 : Fin 2) ∈ [(1 : Fin 2)] by decide)]
    rfl

/-! ## The pieces at an entry -/

/-- ELU in the direct spelling, over a whole array. -/
def eluDirect {S : Shape} (y : FVec Ideal S .f32) : FVec Ideal S .f32 :=
  select (cmpf .ogt y (broadcast S (Scalar.ofBits .f32 0x00000000#32 : Ideal .f32))) y
    (subf (exp y) (broadcast S (Scalar.ofBits .f32 0x3F800000#32 : Ideal .f32)))

theorem eluDirect_apply {S : Shape} (y : FVec Ideal S .f32) (i : S.Idx) : eluDirect y i = elu (y i) :=
  elu_direct (y i)

/-- The two spellings of ELU are the same function of the array. -/
theorem eluDirect_eq_eluHost {S : Shape} (hb : S_.BroadcastsInDim S ![]) (y : FVec Ideal S .f32) :
    eluDirect y = Cert.Chain.eluHost S hb y :=
  funext fun i => (eluDirect_apply y i).trans (eluHost_apply S hb y i).symm

/-- A one-row array repeated down `m` rows reads, at `(p, q)`, the row's entry `q`. -/
theorem rowDown_apply {m n : ℕ} (x1 : FVec Ideal ⟨2, ![1, n]⟩ .f32)
    (h1 : (⟨2, ![1, n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x1 h1) hb (ix2 p q) = x1 (ix2 0 q) := by
  rw [broadcastTo_1b_ab_apply, shapeCast_self]

/-- An array plus a one-row array repeated down its rows, at an entry. -/
theorem addRow_apply {m n : ℕ} (x0 : FVec Ideal ⟨2, ![m, n]⟩ .f32) (x1 : FVec Ideal ⟨2, ![1, n]⟩ .f32)
    (h0 : (⟨2, ![m, n]⟩ : Shape).ShapeCasts ⟨2, ![m, n]⟩)
    (h1 : (⟨2, ![1, n]⟩ : Shape).ShapeCasts ⟨2, ![1, n]⟩) (hb : (⟨2, ![1, n]⟩ : Shape).Broadcasts ⟨2, ![m, n]⟩)
    (p : Fin m) (q : Fin n) :
    addf (shapeCast ⟨2, ![m, n]⟩ x0 h0) (broadcastTo ⟨2, ![m, n]⟩ (shapeCast ⟨2, ![1, n]⟩ x1 h1) hb) (ix2 p q)
      = x0 (ix2 p q) + x1 (ix2 0 q) := by
  rw [addf_apply, rowDown_apply, shapeCast_self]

/-- A product accumulated from zero, its operands first rounded to a narrower float format, is the
    plain matrix product of the operands. -/
theorem roundedProduct_apply {m k n : ℕ} (d : DotDims ⟨2, ![m, k]⟩ ⟨2, ![k, n]⟩ ⟨2, ![m, n]⟩) (hd : RowBlocks.PlainSum d)
    (A : FVec Ideal ⟨2, ![m, k]⟩ .f32) (W : FVec Ideal ⟨2, ![k, n]⟩ .f32) (hlt : FTy.bf16.bits < FTy.f32.bits)
    (p : Fin m) (q : Fin n) :
    matmul d none (truncf .bf16 A hlt) (truncf .bf16 W hlt) (constant ⟨2, ![m, n]⟩ .f32 0x00000000#32) (ix2 p q)
      = ∑ j : Fin k, A (ix2 p j) * W (ix2 j q) :=
  RowBlocks.matmul_zero_ix2 d hd none _ _ p q

/-! ## The block bodies -/

theorem plainSum_block : RowBlocks.PlainSum dot_S5000x222_S222x222_S5000x222_1_0_0_1_n_n :=
  plainSum_std _ rfl rfl rfl rfl rfl rfl

/-- The last layer's block body: bias row, then ELU. -/
theorem k2_pay1_apply (x0 : Vec Ideal S5000x222 .f32) (x1 : Vec Ideal S1x222 .f32) (p : Fin 5000) (q : Fin 222) :
    Cert.KernelIdeal.Gen.k2_pay1 (F := Ideal) x0 x1 (ix2 p q) = elu (x0 (ix2 p q) + x1 (ix2 0 q)) := by
  show eluDirect (addf (shapeCast S5000x222 x0 shapeCasts_S5000x222_S5000x222)
    (broadcastTo S5000x222 (shapeCast S1x222 x1 shapeCasts_S1x222_S1x222) broadcasts_S1x222_S5000x222)) (ix2 p q) = _
  rw [eluDirect_apply, addRow_apply]

/-- A middle layer's block body: bias row, ELU, times the next layer's weights. -/
theorem k0_pay1_apply (x0 : Vec Ideal S5000x222 .f32) (x1 : Vec Ideal S1x222 .f32) (x2 : Vec Ideal S222x222 .f32)
    (p : Fin 5000) (q : Fin 222) :
    Cert.KernelIdeal.Gen.k0_pay1 (F := Ideal) x0 x1 x2 (ix2 p q)
      = ∑ j : Fin 222, elu (x0 (ix2 p j) + x1 (ix2 0 j)) * x2 (ix2 j q) := by
  show matmul dot_S5000x222_S222x222_S5000x222_1_0_0_1_n_n none
    (truncf .bf16 (eluDirect (addf (shapeCast S5000x222 x0 shapeCasts_S5000x222_S5000x222)
      (broadcastTo S5000x222 (shapeCast S1x222 x1 shapeCasts_S1x222_S1x222) broadcasts_S1x222_S5000x222))) bitsLt_bf16_f32)
    (truncf .bf16 x2 bitsLt_bf16_f32) (constant S5000x222 .f32 0x00000000#32) (ix2 p q) = _
  rw [roundedProduct_apply _ plainSum_block]
  refine Finset.sum_congr rfl fun j _ => ?_
  rw [eluDirect_apply, addRow_apply]

/-- The other middle layer's block body is the same function. -/
theorem k1_pay1_apply (x0 : Vec Ideal S5000x222 .f32) (x1 : Vec Ideal S1x222 .f32) (x2 : Vec Ideal S222x222 .f32)
    (p : Fin 5000) (q : Fin 222) :
    Cert.KernelIdeal.Gen.k1_pay1 (F := Ideal) x0 x1 x2 (ix2 p q)
      = ∑ j : Fin 222, elu (x0 (ix2 p j) + x1 (ix2 0 j)) * x2 (ix2 j q) :=
  k0_pay1_apply x0 x1 x2 p q

/-! ## The whole-array program's layer step -/

variable [Cert.KernelIdeal.Facts] [Cert.ReferenceIdeal.Facts]

/-- A vector made a one-row array and repeated down `m` rows by two broadcasts reads, at `(p, q)`, its
    entry `q`. -/
theorem biasDown_apply {α : Type} {m n : ℕ} (b : (⟨1, ![n]⟩ : Shape).Idx → α)
    (hb1 : (⟨1, ![n]⟩ : Shape).BroadcastsInDim ⟨2, ![1, n]⟩ ![1])
    (hb2 : (⟨2, ![1, n]⟩ : Shape).BroadcastsInDim ⟨2, ![m, n]⟩ ![0, 1]) (p : Fin m) (q : Fin n) :
    broadcastInDim ⟨2, ![m, n]⟩ ![0, 1] hb2 (broadcastInDim ⟨2, ![1, n]⟩ ![1] hb1 b) (ix2 p q) = b (ix1 q) := by
  rw [broadcastInDim_apply _ hb2 _ _ (ix2 (0 : Fin 1) q) (fun a => match a with
    | ⟨0, _⟩ => by show 0 = if (1 : Nat) = 1 then 0 else _; rw [if_pos rfl]
    | ⟨1, _⟩ => by
        show q.val = if n = 1 then 0 else q.val
        split
        · have := q.isLt; omega
        · rfl)]
  rw [broadcastInDim_apply _ hb1 _ _ (ix1 q) (fun a => match a with
    | ⟨0, _⟩ => by
        show q.val = if n = 1 then 0 else q.val
        split
        · have := q.isLt; omega
        · rfl)]

/-- A vector reshaped to one row, read back. -/
theorem row_apply222 (b : Cert.Chain.Cf S222) (j : Fin 222) :
    (fun i => shapeCast S1x222 b shapeCasts_S222_S1x222 i) (ix2 0 j) = b (ix1 j) :=
  shapeCast_a_1a_apply b shapeCasts_S222_S1x222 0 j

theorem plainSum_layer :
    RowBlocks.PlainSum Cert.ReferenceIdeal.dot_S50000x222_S222x222_S50000x222_1_0_0_1_n_n :=
  plainSum_std _ rfl rfl rfl rfl rfl rfl

/-- ELU of an aggregate plus its bias, at an entry. -/
theorem actHost_apply (b : Cert.Chain.Cf S222) (agg : Cert.Chain.Cf S50000x222) (n : Fin 50000) (q : Fin 222) :
    Cert.Chain.actHost b agg (ix2 n q) = elu (agg (ix2 n q) + b (ix1 q)) := by
  unfold Cert.Chain.actHost Cert.Chain.biasRows
  rw [eluHost_apply, addf_apply, biasDown_apply]

/-- The step between two aggregations, at an entry. -/
theorem layerHost_apply (b : Cert.Chain.Cf S222) (W : Cert.Chain.Cf S222x222) (agg : Cert.Chain.Cf S50000x222)
    (n : Fin 50000) (q : Fin 222) :
    Cert.Chain.layerHost b W agg (ix2 n q) = ∑ j : Fin 222, elu (agg (ix2 n j) + b (ix1 j)) * W (ix2 j q) := by
  unfold Cert.Chain.layerHost
  rw [RowBlocks.dotGeneral_ix2 _ plainSum_layer]
  refine Finset.sum_congr rfl fun j _ => ?_
  rw [actHost_apply]

/-! ## The dense head -/

/-- A vector reshaped to one row and repeated down `m` rows reads, at `(p, q)`, its entry `q`. -/
theorem biasRowDown_apply {m n : ℕ} (b : FVec Ideal ⟨1, ![n]⟩ .f32)
    (hsc : (⟨1, ![n]⟩ : Shape).ShapeCasts ⟨2, ![1, n]⟩)
    (h1 : (⟨2, ![1, n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ (fun i => shapeCast ⟨2, ![1, n]⟩ b hsc i) h1) hb (ix2 p q)
      = b (ix1 q) := by
  rw [rowDown_apply]
  exact shapeCast_a_1a_apply b hsc 0 q

/-- One dense step, `A · W` plus the bias `b` on every row, is the same array in both programs'
    spellings: the product rounded and accumulated from zero against the host's product, the bias
    reshaped and repeated against the bias broadcast twice. -/
theorem denseStep_eq {m k n : ℕ} (dK dR : DotDims ⟨2, ![m, k]⟩ ⟨2, ![k, n]⟩ ⟨2, ![m, n]⟩)
    (hK : RowBlocks.PlainSum dK) (hR : RowBlocks.PlainSum dR)
    (A : FVec Ideal ⟨2, ![m, k]⟩ .f32) (W : FVec Ideal ⟨2, ![k, n]⟩ .f32) (b : FVec Ideal ⟨1, ![n]⟩ .f32)
    (hlt : FTy.bf16.bits < FTy.f32.bits) (hsc : (⟨1, ![n]⟩ : Shape).ShapeCasts ⟨2, ![1, n]⟩)
    (h1 : (⟨2, ![1, n]⟩ : Shape).ShapeCasts ⟨2, ![1, n]⟩) (hb : (⟨2, ![1, n]⟩ : Shape).Broadcasts ⟨2, ![m, n]⟩)
    (hb1 : (⟨1, ![n]⟩ : Shape).BroadcastsInDim ⟨2, ![1, n]⟩ ![1])
    (hb2 : (⟨2, ![1, n]⟩ : Shape).BroadcastsInDim ⟨2, ![m, n]⟩ ![0, 1]) :
    addf (matmul dK none (truncf .bf16 A hlt) (truncf .bf16 W hlt) (constant ⟨2, ![m, n]⟩ .f32 0x00000000#32))
        (broadcastTo ⟨2, ![m, n]⟩ (shapeCast ⟨2, ![1, n]⟩ (fun i => shapeCast ⟨2, ![1, n]⟩ b hsc i) h1) hb)
      = addf (Host.dotGeneral dR none A W)
        (broadcastInDim ⟨2, ![m, n]⟩ ![0, 1] hb2 (broadcastInDim ⟨2, ![1, n]⟩ ![1] hb1 b)) := by
  funext i
  obtain ⟨p, q, rfl⟩ : ∃ (p : Fin m) (q : Fin n), i = ix2 p q := ⟨i 0, i 1, eq_ix2 i⟩
  rw [addf_apply, addf_apply, roundedProduct_apply dK hK, RowBlocks.dotGeneral_ix2 dR hR, biasRowDown_apply,
    biasDown_apply]

/-- The tiled program's dense head, computed on the whole pooled array as one block, is the
    whole-array program's dense head. -/
theorem head_eq (g : Vec Ideal S2000x222 .f32) (w1 : Vec Ideal S222x512 .f32) (b1 : Cert.Chain.Cf S512)
    (w2 : Vec Ideal S512x128 .f32) (b2 : Cert.Chain.Cf S128) (w3 : Vec Ideal S128x1 .f32) (b3 : Cert.Chain.Cf S1) :
    Cert.KernelIdeal.Gen.k3_pay1 (F := Ideal) g w1 (fun i => shapeCast S1x512 b1 shapeCasts_S512_S1x512 i) w2
        (fun i => shapeCast S1x128 b2 shapeCasts_S128_S1x128 i) w3 (fun i => shapeCast S1x1 b3 shapeCasts_S1_S1x1 i)
      = Cert.Chain.headHost g w1 b1 w2 b2 w3 b3 := by
  unfold Cert.Chain.headHost
  show addf (matmul dot_S2000x128_S128x1_S2000x1_1_0_0_1_n_n none
      (truncf .bf16 (eluDirect
        (addf (matmul dot_S2000x512_S512x128_S2000x128_1_0_0_1_n_n none
            (truncf .bf16 (eluDirect
              (addf (matmul dot_S2000x222_S222x512_S2000x512_1_0_0_1_n_n none
                  (truncf .bf16 (shapeCast S2000x222 g shapeCasts_S2000x222_S2000x222) bitsLt_bf16_f32)
                  (truncf .bf16 w1 bitsLt_bf16_f32) (constant S2000x512 .f32 0x00000000#32))
                (broadcastTo S2000x512 (shapeCast S1x512 (fun i => shapeCast S1x512 b1 shapeCasts_S512_S1x512 i)
                  shapeCasts_S1x512_S1x512) broadcasts_S1x512_S2000x512))) bitsLt_bf16_f32)
            (truncf .bf16 w2 bitsLt_bf16_f32) (constant S2000x128 .f32 0x00000000#32))
          (broadcastTo S2000x128 (shapeCast S1x128 (fun i => shapeCast S1x128 b2 shapeCasts_S128_S1x128 i)
            shapeCasts_S1x128_S1x128) broadcasts_S1x128_S2000x128))) bitsLt_bf16_f32)
      (truncf .bf16 w3 bitsLt_bf16_f32) (constant S2000x1 .f32 0x00000000#32))
    (broadcastTo S2000x1 (shapeCast S1x1 (fun i => shapeCast S1x1 b3 shapeCasts_S1_S1x1 i) shapeCasts_S1x1_S1x1)
      broadcasts_S1x1_S2000x1) = _
  rw [shapeCast_self,
    denseStep_eq dot_S2000x222_S222x512_S2000x512_1_0_0_1_n_n
      Cert.ReferenceIdeal.dot_S2000x222_S222x512_S2000x512_1_0_0_1_n_n
      (plainSum_std _ rfl rfl rfl rfl rfl rfl) (plainSum_std _ rfl rfl rfl rfl rfl rfl) g w1 b1 _ _ _ _
      Cert.ReferenceIdeal.Facts₀.bcast_S512_S1x512_1 Cert.ReferenceIdeal.Facts₀.bcast_S1x512_S2000x512_0_1,
    eluDirect_eq_eluHost Cert.ReferenceIdeal.Facts₀.bcast_S_S2000x512,
    denseStep_eq dot_S2000x512_S512x128_S2000x128_1_0_0_1_n_n
      Cert.ReferenceIdeal.dot_S2000x512_S512x128_S2000x128_1_0_0_1_n_n
      (plainSum_std _ rfl rfl rfl rfl rfl rfl) (plainSum_std _ rfl rfl rfl rfl rfl rfl) _ w2 b2 _ _ _ _
      Cert.ReferenceIdeal.Facts₀.bcast_S128_S1x128_1 Cert.ReferenceIdeal.Facts₀.bcast_S1x128_S2000x128_0_1,
    eluDirect_eq_eluHost Cert.ReferenceIdeal.Facts₀.bcast_S_S2000x128,
    denseStep_eq dot_S2000x128_S128x1_S2000x1_1_0_0_1_n_n
      Cert.ReferenceIdeal.dot_S2000x128_S128x1_S2000x1_1_0_0_1_n_n
      (plainSum_std _ rfl rfl rfl rfl rfl rfl) (plainSum_std _ rfl rfl rfl rfl rfl rfl) _ w3 b3 _ _ _ _
      Cert.ReferenceIdeal.Facts₀.bcast_S1_S1x1_1 Cert.ReferenceIdeal.Facts₀.bcast_S1x1_S2000x1_0_1]

end Cert.Bodies

end
-- ==== Proof.Blocks0.lean ====
/-
  The first fused region: bias, ELU and the next weight matrix, ten blocks of 5000 node rows.

  At grid point `t` the body loads rows `5000 t … 5000 t + 4999` of the aggregate, the bias as one row
  and the whole 222 × 222 weight matrix, and stores ELU(aggregate + bias) times the weights into the
  same rows of the output.  Row `p` of that block is, entry by entry, row `5000 t + p` of the
  whole-array step "add the bias to every row, apply ELU, multiply by the weights": both are the
  sum over the 222 features `j` of ELU(aggregate[row, j] + bias[j]) · weights[j, q].  The ten blocks
  tile the 50000 rows, so the array the region leaves is that whole-array step's value.
-/
import proofs.«140304_j41248865910880_2_alg».proof.Proof.Gen.KernelIdeal.Frame
import proofs.«140304_j41248865910880_2_alg».proof.Proof.Gen.ReferenceIdeal
import proofs.«140304_j41248865910880_2_alg».proof.Proof.Chain
import proofs.«140304_j41248865910880_2_alg».proof.Proof.Bodies
import Idealize.ShloMosaic.Lib.Pipeline.Value
import Idealize.ShloMosaic.Lib.ValueIdx

set_option maxRecDepth 16384

noncomputable section

namespace Cert.KernelIdeal.Blocks0

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the aggregate's block moves with the output block along
    the node axis; the bias row and the weight matrix stay whole at block zero. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some grid point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- An index of the node array is in point `t`'s output block iff each coordinate is in the block's range. -/
theorem mem_blk (t : Fin cfg0.N) (i : S50000x222.Idx) :
    i ∈ ((cfg0.win 3).blk t).view.set ↔ ∀ a : Fin 2, win0_3.index t a * S5000x222.size a ≤ (i a).val ∧ (i a).val < win0_3.index t a * S5000x222.size a + S5000x222.size a := by
  show i ∈ ((View.whole main_v80).slice (win0_3.rect t)).set ↔ _
  rw [View.set_slice_whole, Rect.mem_set_unit]
  exact Iff.rfl

/-- The ten blocks of 5000 rows tile the 50000 rows: row `r` is in block `r / 5000`. -/
theorem cover (i : S50000x222.Idx) :
    ∃ t : Fin cfg0.N, (cfg0.win 3).flush t = true ∧ i ∈ ((cfg0.win 3).blk t).view.set := by
  have hi0 : (i 0).val < 50000 := (i 0).isLt
  have hi1 : (i 1).val < 222 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 222 ≤ (i 1).val ∧ (i 1).val < win0_3.index t (1 : Fin 2) * 222 + 222; omega

/-- What grid point `t` writes back is block `t` of (ELU of the aggregate plus the bias) times the
    weights: a row of a matrix product depends on that row of the left factor only, so row `p` of the
    block's product is row `5000 t + p` of the whole product. -/
theorem flushed_eq (c : Dev nD) (b : Cert.Chain.Cf S222)
    (hb : V c main_v79 = fun i => shapeCast S1x222 b Facts₀.shapeCasts_S222_S1x222 i) (t : Fin cfg0.N) :
    (dat0 V c).flushed 3 t
      = ((cfg0.win 3).blk t).view.read (Elt Ideal) (Cert.Chain.layerHost b (V c main_arg11) (V c main_v78)) := by
  show (cfg0.win 3).cut (grid0.coords t) ((dat0 V c).after 3 t) = _
  rw [after0_3]
  unfold out0_3
  rw [View.canon_unit_zero hz]
  simp only [View.ld_unit_zero (S := S5000x222) hz, View.ld_unit_zero (S := S1x222) hz, View.ld_unit_zero (S := S222x222) hz]
  obtain ⟨e0, e1, e2, e3, e4, e5, e6, e7⟩ := idx_facts t
  funext y
  obtain ⟨p, q, rfl⟩ : ∃ (p : Fin 5000) (q : Fin 222), y = ix2 p q := ⟨y 0, y 1, eq_ix2 y⟩
  have hp : p.val < 5000 := p.isLt
  have hq : q.val < 222 := q.isLt
  show k0_pay1 (F := Ideal) (iblk0 V c 0 t) (iblk0 V c 1 t) (iblk0 V c 2 t) (ix2 p q)
      = Cert.Chain.layerHost b (V c main_arg11) (V c main_v78) (((cfg0.win 3).blk t).view.emb (ix2 p q))
  refine (Cert.Bodies.k0_pay1_apply (iblk0 V c 0 t) (iblk0 V c 1 t) (iblk0 V c 2 t) p q).trans ?_
  have hemb : ((cfg0.win 3).blk t).view.emb (ix2 p q)
      = ix2 (n0 := 50000) (n1 := 222) ⟨win0_3.index t (0 : Fin 2) * 5000 + p.val, by omega⟩ q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 222 + 1 * q.val = q.val; omega
  rw [hemb, Cert.Bodies.layerHost_apply]
  refine Finset.sum_congr rfl fun j _ => ?_
  have hj : j.val < 222 := j.isLt
  have h0 : iblk0 V c 0 t (ix2 p j)
      = V c main_v78 (ix2 (n0 := 50000) (n1 := 222) ⟨win0_3.index t (0 : Fin 2) * 5000 + p.val, by omega⟩ j) := by
    show V c main_v78 (((cfg0.win 0).blk t).view.emb (ix2 p j)) = _
    refine congrArg _ ?_
    funext a; apply Fin.ext
    match a with
    | ⟨0, _⟩ => show win0_0.index t (0 : Fin 2) * 5000 + 1 * p.val = win0_3.index t (0 : Fin 2) * 5000 + p.val; omega
    | ⟨1, _⟩ => show win0_0.index t (1 : Fin 2) * 222 + 1 * j.val = j.val; omega
  have h1 : iblk0 V c 1 t (ix2 (0 : Fin 1) j) = b (ix1 j) := by
    show V c main_v79 (((cfg0.win 1).blk t).view.emb (ix2 (0 : Fin 1) j)) = _
    rw [hb]
    have he : ((cfg0.win 1).blk t).view.emb (ix2 (0 : Fin 1) j) = ix2 (n0 := 1) (n1 := 222) (0 : Fin 1) j := by
      funext a; apply Fin.ext
      match a with
      | ⟨0, _⟩ => show win0_1.index t (0 : Fin 2) * 1 + 1 * (0 : Fin 1).val = (0 : Fin 1).val; simp only [Fin.val_zero]; omega
      | ⟨1, _⟩ => show win0_1.index t (1 : Fin 2) * 222 + 1 * j.val = j.val; omega
    rw [he]
    exact Cert.Bodies.row_apply222 b j
  have h2 : iblk0 V c 2 t (ix2 j q) = V c main_arg11 (ix2 j q) := by
    show V c main_arg11 (((cfg0.win 2).blk t).view.emb (ix2 j q)) = _
    refine congrArg _ ?_
    funext a; apply Fin.ext
    match a with
    | ⟨0, _⟩ => show win0_2.index t (0 : Fin 2) * 222 + 1 * j.val = j.val; omega
    | ⟨1, _⟩ => show win0_2.index t (1 : Fin 2) * 222 + 1 * q.val = q.val; omega
  rw [h0, h1, h2]

/-- The node array after the region: bias, ELU and the weight matrix applied to the aggregate, whole. -/
theorem final (c : Dev nD) (b : Cert.Chain.Cf S222)
    (hb : V c main_v79 = fun i => shapeCast S1x222 b Facts₀.shapeCasts_S222_S1x222 i) :
    (dat0 V c).arrAt 3 cfg0.N = Cert.Chain.layerHost b (V c main_arg11) (V c main_v78) :=
  (dat0 V c).arrAt_eq_of_cover 3 (Cert.Chain.layerHost b (V c main_arg11) (V c main_v78)) (fun t _ => flushed_eq V c b hb t) cover

end Cert.KernelIdeal.Blocks0

end
-- ==== Proof.Blocks1.lean ====
/-
  The second fused region: bias, ELU and the next weight matrix, ten blocks of 5000 node rows.

  At grid point `t` the body loads rows `5000 t … 5000 t + 4999` of the aggregate, the bias as one row
  and the whole 222 × 222 weight matrix, and stores ELU(aggregate + bias) times the weights into the
  same rows of the output.  Row `p` of that block is, entry by entry, row `5000 t + p` of the
  whole-array step "add the bias to every row, apply ELU, multiply by the weights": both are the
  sum over the 222 features `j` of ELU(aggregate[row, j] + bias[j]) · weights[j, q].  The ten blocks
  tile the 50000 rows, so the array the region leaves is that whole-array step's value.
-/
import proofs.«140304_j41248865910880_2_alg».proof.Proof.Gen.KernelIdeal.Frame
import proofs.«140304_j41248865910880_2_alg».proof.Proof.Gen.ReferenceIdeal
import proofs.«140304_j41248865910880_2_alg».proof.Proof.Chain
import proofs.«140304_j41248865910880_2_alg».proof.Proof.Bodies
import Idealize.ShloMosaic.Lib.Pipeline.Value
import Idealize.ShloMosaic.Lib.ValueIdx

set_option maxRecDepth 16384

noncomputable section

namespace Cert.KernelIdeal.Blocks1

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the aggregate's block moves with the output block along
    the node axis; the bias row and the weight matrix stay whole at block zero. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every one of the ten row blocks is some grid point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- An index of the node array is in point `t`'s output block iff each coordinate is in the block's range. -/
theorem mem_blk (t : Fin cfg1.N) (i : S50000x222.Idx) :
    i ∈ ((cfg1.win 3).blk t).view.set ↔ ∀ a : Fin 2, win1_3.index t a * S5000x222.size a ≤ (i a).val ∧ (i a).val < win1_3.index t a * S5000x222.size a + S5000x222.size a := by
  show i ∈ ((View.whole main_v95).slice (win1_3.rect t)).set ↔ _
  rw [View.set_slice_whole, Rect.mem_set_unit]
  exact Iff.rfl

/-- The ten blocks of 5000 rows tile the 50000 rows: row `r` is in block `r / 5000`. -/
theorem cover (i : S50000x222.Idx) :
    ∃ t : Fin cfg1.N, (cfg1.win 3).flush t = true ∧ i ∈ ((cfg1.win 3).blk t).view.set := by
  have hi0 : (i 0).val < 50000 := (i 0).isLt
  have hi1 : (i 1).val < 222 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 222 ≤ (i 1).val ∧ (i 1).val < win1_3.index t (1 : Fin 2) * 222 + 222; omega

/-- What grid point `t` writes back is block `t` of (ELU of the aggregate plus the bias) times the
    weights: a row of a matrix product depends on that row of the left factor only, so row `p` of the
    block's product is row `5000 t + p` of the whole product. -/
theorem flushed_eq (c : Dev nD) (b : Cert.Chain.Cf S222)
    (hb : V c main_v94 = fun i => shapeCast S1x222 b Facts₀.shapeCasts_S222_S1x222 i) (t : Fin cfg1.N) :
    (dat1 V c).flushed 3 t
      = ((cfg1.win 3).blk t).view.read (Elt Ideal) (Cert.Chain.layerHost b (V c main_arg13) (V c main_v93)) := by
  show (cfg1.win 3).cut (grid1.coords t) ((dat1 V c).after 3 t) = _
  rw [after1_3]
  unfold out1_3
  rw [View.canon_unit_zero hz]
  simp only [View.ld_unit_zero (S := S5000x222) hz, View.ld_unit_zero (S := S1x222) hz, View.ld_unit_zero (S := S222x222) hz]
  obtain ⟨e0, e1, e2, e3, e4, e5, e6, e7⟩ := idx_facts t
  funext y
  obtain ⟨p, q, rfl⟩ : ∃ (p : Fin 5000) (q : Fin 222), y = ix2 p q := ⟨y 0, y 1, eq_ix2 y⟩
  have hp : p.val < 5000 := p.isLt
  have hq : q.val < 222 := q.isLt
  show k1_pay1 (F := Ideal) (iblk1 V c 0 t) (iblk1 V c 1 t) (iblk1 V c 2 t) (ix2 p q)
      = Cert.Chain.layerHost b (V c main_arg13) (V c main_v93) (((cfg1.win 3).blk t).view.emb (ix2 p q))
  refine (Cert.Bodies.k1_pay1_apply (iblk1 V c 0 t) (iblk1 V c 1 t) (iblk1 V c 2 t) p q).trans ?_
  have hemb : ((cfg1.win 3).blk t).view.emb (ix2 p q)
      = ix2 (n0 := 50000) (n1 := 222) ⟨win1_3.index t (0 : Fin 2) * 5000 + p.val, by omega⟩ q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 222 + 1 * q.val = q.val; omega
  rw [hemb, Cert.Bodies.layerHost_apply]
  refine Finset.sum_congr rfl fun j _ => ?_
  have hj : j.val < 222 := j.isLt
  have h0 : iblk1 V c 0 t (ix2 p j)
      = V c main_v93 (ix2 (n0 := 50000) (n1 := 222) ⟨win1_3.index t (0 : Fin 2) * 5000 + p.val, by omega⟩ j) := by
    show V c main_v93 (((cfg1.win 0).blk t).view.emb (ix2 p j)) = _
    refine congrArg _ ?_
    funext a; apply Fin.ext
    match a with
    | ⟨0, _⟩ => show win1_0.index t (0 : Fin 2) * 5000 + 1 * p.val = win1_3.index t (0 : Fin 2) * 5000 + p.val; omega
    | ⟨1, _⟩ => show win1_0.index t (1 : Fin 2) * 222 + 1 * j.val = j.val; omega
  have h1 : iblk1 V c 1 t (ix2 (0 : Fin 1) j) = b (ix1 j) := by
    show V c main_v94 (((cfg1.win 1).blk t).view.emb (ix2 (0 : Fin 1) j)) = _
    rw [hb]
    have he : ((cfg1.win 1).blk t).view.emb (ix2 (0 : Fin 1) j) = ix2 (n0 := 1) (n1 := 222) (0 : Fin 1) j := by
      funext a; apply Fin.ext
      match a with
      | ⟨0, _⟩ => show win1_1.index t (0 : Fin 2) * 1 + 1 * (0 : Fin 1).val = (0 : Fin 1).val; simp only [Fin.val_zero]; omega
      | ⟨1, _⟩ => show win1_1.index t (1 : Fin 2) * 222 + 1 * j.val = j.val; omega
    rw [he]
    exact Cert.Bodies.row_apply222 b j
  have h2 : iblk1 V c 2 t (ix2 j q) = V c main_arg13 (ix2 j q) := by
    show V c main_arg13 (((cfg1.win 2).blk t).view.emb (ix2 j q)) = _
    refine congrArg _ ?_
    funext a; apply Fin.ext
    match a with
    | ⟨0, _⟩ => show win1_2.index t (0 : Fin 2) * 222 + 1 * j.val = j.val; omega
    | ⟨1, _⟩ => show win1_2.index t (1 : Fin 2) * 222 + 1 * q.val = q.val; omega
  rw [h0, h1, h2]

/-- The node array after the region: bias, ELU and the weight matrix applied to the aggregate, whole. -/
theorem final (c : Dev nD) (b : Cert.Chain.Cf S222)
    (hb : V c main_v94 = fun i => shapeCast S1x222 b Facts₀.shapeCasts_S222_S1x222 i) :
    (dat1 V c).arrAt 3 cfg1.N = Cert.Chain.layerHost b (V c main_arg13) (V c main_v93) :=
  (dat1 V c).arrAt_eq_of_cover 3 (Cert.Chain.layerHost b (V c main_arg13) (V c main_v93)) (fun t _ => flushed_eq V c b hb t) cover

end Cert.KernelIdeal.Blocks1

end
-- ==== Proof.Blocks2.lean ====
/-
  The last layer's bias and ELU, ten blocks of 5000 node rows.

  At grid point `t` the body loads rows `5000 t … 5000 t + 4999` of the aggregate and the bias as one
  row, and stores ELU(aggregate + bias) into the same rows of the output: entry `(p, q)` of the block
  is entry `(5000 t + p, q)` of the whole-array "add the bias to every row, apply ELU".  The ten blocks
  tile the 50000 rows.
-/
import proofs.«140304_j41248865910880_2_alg».proof.Proof.Gen.KernelIdeal.Frame
import proofs.«140304_j41248865910880_2_alg».proof.Proof.Gen.ReferenceIdeal
import proofs.«140304_j41248865910880_2_alg».proof.Proof.Chain
import proofs.«140304_j41248865910880_2_alg».proof.Proof.Bodies
import Idealize.ShloMosaic.Lib.Pipeline.Value
import Idealize.ShloMosaic.Lib.ValueIdx

set_option maxRecDepth 16384

noncomputable section

namespace Cert.KernelIdeal.Blocks2

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the input block moves with the output block along the
    node axis; the bias row and the feature axis stay at block zero. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some grid point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- An index of the node array is in point `t`'s output block iff each coordinate is in the block's range. -/
theorem mem_blk (t : Fin cfg2.N) (i : S50000x222.Idx) :
    i ∈ ((cfg2.win 2).blk t).view.set ↔ ∀ a : Fin 2, win2_2.index t a * S5000x222.size a ≤ (i a).val ∧ (i a).val < win2_2.index t a * S5000x222.size a + S5000x222.size a := by
  show i ∈ ((View.whole main_v110).slice (win2_2.rect t)).set ↔ _
  rw [View.set_slice_whole, Rect.mem_set_unit]
  exact Iff.rfl

/-- The ten blocks of 5000 rows tile the 50000 rows: row `r` is in block `r / 5000`. -/
theorem cover (i : S50000x222.Idx) :
    ∃ t : Fin cfg2.N, (cfg2.win 2).flush t = true ∧ i ∈ ((cfg2.win 2).blk t).view.set := by
  have hi0 : (i 0).val < 50000 := (i 0).isLt
  have hi1 : (i 1).val < 222 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 222 ≤ (i 1).val ∧ (i 1).val < win2_2.index t (1 : Fin 2) * 222 + 222; omega

/-- What grid point `t` writes back is block `t` of ELU of the aggregate plus the bias: row `p` of the
    block is row `5000 t + p` of the array, and the bias row is the same at every point. -/
theorem flushed_eq (c : Dev nD) (b : Cert.Chain.Cf S222)
    (hb : V c main_v109 = fun i => shapeCast S1x222 b Facts₀.shapeCasts_S222_S1x222 i) (t : Fin cfg2.N) :
    (dat2 V c).flushed 2 t = ((cfg2.win 2).blk t).view.read (Elt Ideal) (Cert.Chain.actHost b (V c main_v108)) := by
  show (cfg2.win 2).cut (grid2.coords t) ((dat2 V c).after 2 t) = _
  rw [after2_2]
  unfold out2_2
  rw [View.canon_unit_zero hz]
  simp only [View.ld_unit_zero (S := S5000x222) hz, View.ld_unit_zero (S := S1x222) hz]
  obtain ⟨e0, e1, e2, e3, e4, e5⟩ := idx_facts t
  funext y
  obtain ⟨p, q, rfl⟩ : ∃ (p : Fin 5000) (q : Fin 222), y = ix2 p q := ⟨y 0, y 1, eq_ix2 y⟩
  have hp : p.val < 5000 := p.isLt
  have hq : q.val < 222 := q.isLt
  show k2_pay1 (F := Ideal) (iblk2 V c 0 t) (iblk2 V c 1 t) (ix2 p q)
      = Cert.Chain.actHost b (V c main_v108) (((cfg2.win 2).blk t).view.emb (ix2 p q))
  refine (Cert.Bodies.k2_pay1_apply (iblk2 V c 0 t) (iblk2 V c 1 t) p q).trans ?_
  have hemb : ((cfg2.win 2).blk t).view.emb (ix2 p q)
      = ix2 (n0 := 50000) (n1 := 222) ⟨win2_2.index t (0 : Fin 2) * 5000 + p.val, by omega⟩ q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 222 + 1 * q.val = q.val; omega
  rw [hemb, Cert.Bodies.actHost_apply]
  have h0 : iblk2 V c 0 t (ix2 p q)
      = V c main_v108 (ix2 (n0 := 50000) (n1 := 222) ⟨win2_2.index t (0 : Fin 2) * 5000 + p.val, by omega⟩ q) := by
    show V c main_v108 (((cfg2.win 0).blk t).view.emb (ix2 p q)) = _
    refine congrArg _ ?_
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 222 + 1 * q.val = q.val; omega
  have h1 : iblk2 V c 1 t (ix2 (0 : Fin 1) q) = b (ix1 q) := by
    show V c main_v109 (((cfg2.win 1).blk t).view.emb (ix2 (0 : Fin 1) q)) = _
    rw [hb]
    have he : ((cfg2.win 1).blk t).view.emb (ix2 (0 : Fin 1) q) = ix2 (n0 := 1) (n1 := 222) (0 : Fin 1) q := by
      funext a; apply Fin.ext
      match a with
      | ⟨0, _⟩ => show win2_1.index t (0 : Fin 2) * 1 + 1 * (0 : Fin 1).val = (0 : Fin 1).val; simp only [Fin.val_zero]; omega
      | ⟨1, _⟩ => show win2_1.index t (1 : Fin 2) * 222 + 1 * q.val = q.val; omega
    rw [he]
    exact Cert.Bodies.row_apply222 b q
  rw [h0, h1]

/-- The node array after the region: ELU of the aggregate plus the bias, whole. -/
theorem final (c : Dev nD) (b : Cert.Chain.Cf S222)
    (hb : V c main_v109 = fun i => shapeCast S1x222 b Facts₀.shapeCasts_S222_S1x222 i) :
    (dat2 V c).arrAt 2 cfg2.N = Cert.Chain.actHost b (V c main_v108) :=
  (dat2 V c).arrAt_eq_of_cover 2 (Cert.Chain.actHost b (V c main_v108)) (fun t _ => flushed_eq V c b hb t) cover

end Cert.KernelIdeal.Blocks2

end
-- ==== Proof.Blocks3.lean ====
/-
  The dense head, one block.

  The grid has a single point and every window's block is its whole array, so what the body stores
  is its arithmetic of the whole arrays: three matrix products, each followed by a bias row added to
  every row, the first two also by ELU — the whole-array head of the pooled rows.
-/
import proofs.«140304_j41248865910880_2_alg».proof.Proof.Gen.KernelIdeal.Frame
import proofs.«140304_j41248865910880_2_alg».proof.Proof.Gen.ReferenceIdeal
import proofs.«140304_j41248865910880_2_alg».proof.Proof.Chain
import proofs.«140304_j41248865910880_2_alg».proof.Proof.Bodies
import Idealize.ShloMosaic.Lib.Pipeline.Value
import Idealize.ShloMosaic.Lib.ValueIdx

set_option maxRecDepth 16384

noncomputable section

namespace Cert.KernelIdeal.Blocks3

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The grid has one point, and every window's one block is at block index zero on both axes. -/
theorem idx_facts : ∀ t : Fin cfg3.N,
    win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0 :=
  (by decide +kernel : ∀ t : Fin grid3.N, _)

/-- Window 0 has one block, the whole array. -/
theorem whole0 (c : Dev nD) (t : Fin cfg3.N) : iblk3 V c 0 t = V c main_v122 := by
  obtain ⟨e0, e1, e2, e3, e4, e5, e6, e7, e8, e9, e10, e11, e12, e13, e14, e15⟩ := idx_facts t
  funext y
  show V c main_v122 (((cfg3.win 0).blk t).view.emb y) = V c main_v122 y
  refine congrArg _ ?_
  funext a; apply Fin.ext
  match a with
  | ⟨0, _⟩ => show win3_0.index t (0 : Fin 2) * 2000 + 1 * (y 0).val = (y 0).val; omega
  | ⟨1, _⟩ => show win3_0.index t (1 : Fin 2) * 222 + 1 * (y 1).val = (y 1).val; omega

/-- Window 1 has one block, the whole array. -/
theorem whole1 (c : Dev nD) (t : Fin cfg3.N) : iblk3 V c 1 t = V c main_arg15 := by
  obtain ⟨e0, e1, e2, e3, e4, e5, e6, e7, e8, e9, e10, e11, e12, e13, e14, e15⟩ := idx_facts t
  funext y
  show V c main_arg15 (((cfg3.win 1).blk t).view.emb y) = V c main_arg15 y
  refine congrArg _ ?_
  funext a; apply Fin.ext
  match a with
  | ⟨0, _⟩ => show win3_1.index t (0 : Fin 2) * 222 + 1 * (y 0).val = (y 0).val; omega
  | ⟨1, _⟩ => show win3_1.index t (1 : Fin 2) * 512 + 1 * (y 1).val = (y 1).val; omega

/-- Window 2 has one block, the whole array. -/
theorem whole2 (c : Dev nD) (t : Fin cfg3.N) : iblk3 V c 2 t = V c main_v123 := by
  obtain ⟨e0, e1, e2, e3, e4, e5, e6, e7, e8, e9, e10, e11, e12, e13, e14, e15⟩ := idx_facts t
  funext y
  show V c main_v123 (((cfg3.win 2).blk t).view.emb y) = V c main_v123 y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 512 + 1 * (y 1).val = (y 1).val; omega

/-- Window 3 has one block, the whole array. -/
theorem whole3 (c : Dev nD) (t : Fin cfg3.N) : iblk3 V c 3 t = V c main_arg17 := by
  obtain ⟨e0, e1, e2, e3, e4, e5, e6, e7, e8, e9, e10, e11, e12, e13, e14, e15⟩ := idx_facts t
  funext y
  show V c main_arg17 (((cfg3.win 3).blk t).view.emb y) = V c main_arg17 y
  refine congrArg _ ?_
  funext a; apply Fin.ext
  match a with
  | ⟨0, _⟩ => show win3_3.index t (0 : Fin 2) * 512 + 1 * (y 0).val = (y 0).val; omega
  | ⟨1, _⟩ => show win3_3.index t (1 : Fin 2) * 128 + 1 * (y 1).val = (y 1).val; omega

/-- Window 4 has one block, the whole array. -/
theorem whole4 (c : Dev nD) (t : Fin cfg3.N) : iblk3 V c 4 t = V c main_v124 := by
  obtain ⟨e0, e1, e2, e3, e4, e5, e6, e7, e8, e9, e10, e11, e12, e13, e14, e15⟩ := idx_facts t
  funext y
  show V c main_v124 (((cfg3.win 4).blk t).view.emb y) = V c main_v124 y
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5 has one block, the whole array. -/
theorem whole5 (c : Dev nD) (t : Fin cfg3.N) : iblk3 V c 5 t = V c main_arg19 := by
  obtain ⟨e0, e1, e2, e3, e4, e5, e6, e7, e8, e9, e10, e11, e12, e13, e14, e15⟩ := idx_facts t
  funext y
  show V c main_arg19 (((cfg3.win 5).blk t).view.emb y) = V c main_arg19 y
  refine congrArg _ ?_
  funext a; apply Fin.ext
  match a with
  | ⟨0, _⟩ => show win3_5.index t (0 : Fin 2) * 128 + 1 * (y 0).val = (y 0).val; omega
  | ⟨1, _⟩ => show win3_5.index t (1 : Fin 2) * 1 + 1 * (y 1).val = (y 1).val; omega

/-- Window 6 has one block, the whole array. -/
theorem whole6 (c : Dev nD) (t : Fin cfg3.N) : iblk3 V c 6 t = V c main_v125 := by
  obtain ⟨e0, e1, e2, e3, e4, e5, e6, e7, e8, e9, e10, e11, e12, e13, e14, e15⟩ := idx_facts t
  funext y
  show V c main_v125 (((cfg3.win 6).blk t).view.emb y) = V c main_v125 y
  refine congrArg _ ?_
  funext a; apply Fin.ext
  match a with
  | ⟨0, _⟩ => show win3_6.index t (0 : Fin 2) * 1 + 1 * (y 0).val = (y 0).val; omega
  | ⟨1, _⟩ => show win3_6.index t (1 : Fin 2) * 1 + 1 * (y 1).val = (y 1).val; omega

/-- An index of the result is in point `t`'s output block iff each coordinate is in the block's range. -/
theorem mem_blk (t : Fin cfg3.N) (i : S2000x1.Idx) :
    i ∈ ((cfg3.win 7).blk t).view.set ↔ ∀ a : Fin 2, win3_7.index t a * S2000x1.size a ≤ (i a).val ∧ (i a).val < win3_7.index t a * S2000x1.size a + S2000x1.size a := by
  show i ∈ ((View.whole main_v126).slice (win3_7.rect t)).set ↔ _
  rw [View.set_slice_whole, Rect.mem_set_unit]
  exact Iff.rfl

/-- Every index of the result is in the one point's block. -/
theorem cover (i : S2000x1.Idx) :
    ∃ t : Fin cfg3.N, (cfg3.win 7).flush t = true ∧ i ∈ ((cfg3.win 7).blk t).view.set := by
  have hi0 : (i 0).val < 2000 := (i 0).isLt
  have hi1 : (i 1).val < 1 := (i 1).isLt
  obtain ⟨t⟩ : Nonempty (Fin cfg3.N) := ⟨⟨0, by decide⟩⟩
  obtain ⟨e0, e1, e2, e3, e4, e5, e6, e7, e8, e9, e10, e11, e12, e13, e14, e15⟩ := idx_facts t
  refine ⟨t, flush3_7 t, ?_⟩
  rw [mem_blk]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 1 ≤ (i 1).val ∧ (i 1).val < win3_7.index t (1 : Fin 2) * 1 + 1; omega

/-- What the one grid point writes back is the dense head of the pooled rows, whole. -/
theorem flushed_eq (c : Dev nD) (b1 : Cert.Chain.Cf S512) (b2 : Cert.Chain.Cf S128) (b3 : Cert.Chain.Cf S1)
    (h1 : V c main_v123 = fun i => shapeCast S1x512 b1 Facts₀.shapeCasts_S512_S1x512 i)
    (h2 : V c main_v124 = fun i => shapeCast S1x128 b2 Facts₀.shapeCasts_S128_S1x128 i)
    (h3 : V c main_v125 = fun i => shapeCast S1x1 b3 Facts₀.shapeCasts_S1_S1x1 i) (t : Fin cfg3.N) :
    (dat3 V c).flushed 7 t = ((cfg3.win 7).blk t).view.read (Elt Ideal)
      (Cert.Chain.headHost (V c main_v122) (V c main_arg15) b1 (V c main_arg17) b2 (V c main_arg19) b3) := by
  show (cfg3.win 7).cut (grid3.coords t) ((dat3 V c).after 7 t) = _
  rw [after3_7]
  unfold out3_7
  rw [View.canon_unit_zero hz]
  simp only [View.ld_unit_zero (S := S2000x222) hz, View.ld_unit_zero (S := S222x512) hz, View.ld_unit_zero (S := S1x512) hz,
    View.ld_unit_zero (S := S512x128) hz, View.ld_unit_zero (S := S1x128) hz, View.ld_unit_zero (S := S128x1) hz,
    View.ld_unit_zero (S := S1x1) hz]
  rw [whole0 V c t, whole1 V c t, whole2 V c t, whole3 V c t, whole4 V c t, whole5 V c t, whole6 V c t, h1, h2, h3]
  obtain ⟨e0, e1, e2, e3, e4, e5, e6, e7, e8, e9, e10, e11, e12, e13, e14, e15⟩ := idx_facts t
  funext y
  show k3_pay1 (F := Ideal) (V c main_v122) (V c main_arg15) _ (V c main_arg17) _ (V c main_arg19) _ y
      = Cert.Chain.headHost (V c main_v122) (V c main_arg15) b1 (V c main_arg17) b2 (V c main_arg19) b3 (((cfg3.win 7).blk t).view.emb y)
  have he : ((cfg3.win 7).blk t).view.emb y = y := by
    funext a; apply Fin.ext
    match a with
    | ⟨0, _⟩ => show win3_7.index t (0 : Fin 2) * 2000 + 1 * (y 0).val = (y 0).val; omega
    | ⟨1, _⟩ => show win3_7.index t (1 : Fin 2) * 1 + 1 * (y 1).val = (y 1).val; omega
  rw [he]
  exact congrFun (Cert.Bodies.head_eq (V c main_v122) (V c main_arg15) b1 (V c main_arg17) b2 (V c main_arg19) b3) y

/-- The result array after the region: the dense head of the pooled rows. -/
theorem final (c : Dev nD) (b1 : Cert.Chain.Cf S512) (b2 : Cert.Chain.Cf S128) (b3 : Cert.Chain.Cf S1)
    (h1 : V c main_v123 = fun i => shapeCast S1x512 b1 Facts₀.shapeCasts_S512_S1x512 i)
    (h2 : V c main_v124 = fun i => shapeCast S1x128 b2 Facts₀.shapeCasts_S128_S1x128 i)
    (h3 : V c main_v125 = fun i => shapeCast S1x1 b3 Facts₀.shapeCasts_S1_S1x1 i) :
    (dat3 V c).arrAt 7 cfg3.N
      = Cert.Chain.headHost (V c main_v122) (V c main_arg15) b1 (V c main_arg17) b2 (V c main_arg19) b3 :=
  (dat3 V c).arrAt_eq_of_cover 7 _ (fun t _ => flushed_eq V c b1 b2 b3 h1 h2 h3 t) cover

end Cert.KernelIdeal.Blocks3

end
-- ==== Proof.KernelFold.lean ====
/-
  The tiled program's result as a function of its arguments.

  Between the launch and the return a core's buffers pass eight boundaries: after each stretch of
  host operations, and after each of the four kernel regions.  A stretch rewrites the buffers its
  operations write, each to its operation's value of buffers written earlier; a region rewrites its
  output array to what its blocks leave and keeps every other buffer.  Walking the boundaries in
  order: the first stretch leaves the edge endpoints, the message weights, the first layer's product
  (spelt table by table) aggregated once, and the first bias as a row; each of the two fused regions
  leaves bias, ELU and the next weight matrix applied to the aggregate it was given, and the stretch
  after it aggregates again with the SAME endpoints and weights, which no region touches; the third
  region leaves bias and ELU; the last stretch pools per graph; the last region is the dense head.
  Composed, that is the whole-array program's value with the first layer spelt table by table.
-/
import proofs.«140304_j41248865910880_2_alg».proof.Proof.Gen.KernelIdeal.Frame
import proofs.«140304_j41248865910880_2_alg».proof.Proof.Gen.ReferenceIdeal
import proofs.«140304_j41248865910880_2_alg».proof.Proof.Chain
import proofs.«140304_j41248865910880_2_alg».proof.Proof.Blocks0
import proofs.«140304_j41248865910880_2_alg».proof.Proof.Blocks1
import proofs.«140304_j41248865910880_2_alg».proof.Proof.Blocks2
import proofs.«140304_j41248865910880_2_alg».proof.Proof.Blocks3
import Idealize.ShloMosaic.Lib.StableHlo.Run
import Idealize.ShloMosaic.PureOps.Ideal

set_option maxRecDepth 16384

noncomputable section

namespace Cert.KernelIdeal.KFold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The argument arrays at every boundary: nothing writes them -/

theorem w1_arg5 (c : Dev nD) : W1 m ρ c (Proc.devRef .tc main_arg5) = m ((c : Thread nD τ).loc main_arg5) := by
  show StableHlo.after hostOps0 (W0 m ρ c) (Proc.devRef .tc main_arg5) = _
  after_results_simp
  all_goals rfl
theorem w2_arg5 (c : Dev nD) : W2 m ρ c (Proc.devRef .tc main_arg5) = m ((c : Thread nD τ).loc main_arg5) :=
  (W2_of_ne m ρ c main_arg5 (by decide)).trans (w1_arg5 m ρ c)
theorem w3_arg5 (c : Dev nD) : W3 m ρ c (Proc.devRef .tc main_arg5) = m ((c : Thread nD τ).loc main_arg5) := by
  show StableHlo.after hostOps1 (W2 m ρ c) (Proc.devRef .tc main_arg5) = _
  after_results_simp
  exact w2_arg5 m ρ c
theorem w4_arg5 (c : Dev nD) : W4 m ρ c (Proc.devRef .tc main_arg5) = m ((c : Thread nD τ).loc main_arg5) :=
  (W4_of_ne m ρ c main_arg5 (by decide)).trans (w3_arg5 m ρ c)
theorem w5_arg5 (c : Dev nD) : W5 m ρ c (Proc.devRef .tc main_arg5) = m ((c : Thread nD τ).loc main_arg5) := by
  show StableHlo.after hostOps2 (W4 m ρ c) (Proc.devRef .tc main_arg5) = _
  after_results_simp
  exact w4_arg5 m ρ c
theorem w6_arg5 (c : Dev nD) : W6 m ρ c (Proc.devRef .tc main_arg5) = m ((c : Thread nD τ).loc main_arg5) :=
  (W6_of_ne m ρ c main_arg5 (by decide)).trans (w5_arg5 m ρ c)
theorem w1_arg11 (c : Dev nD) : W1 m ρ c (Proc.devRef .tc main_arg11) = m ((c : Thread nD τ).loc main_arg11) := by
  show StableHlo.after hostOps0 (W0 m ρ c) (Proc.devRef .tc main_arg11) = _
  after_results_simp
  all_goals rfl
theorem w1_arg12 (c : Dev nD) : W1 m ρ c (Proc.devRef .tc main_arg12) = m ((c : Thread nD τ).loc main_arg12) := by
  show StableHlo.after hostOps0 (W0 m ρ c) (Proc.devRef .tc main_arg12) = _
  after_results_simp
  all_goals rfl
theorem w2_arg12 (c : Dev nD) : W2 m ρ c (Proc.devRef .tc main_arg12) = m ((c : Thread nD τ).loc main_arg12) :=
  (W2_of_ne m ρ c main_arg12 (by decide)).trans (w1_arg12 m ρ c)
theorem w1_arg13 (c : Dev nD) : W1 m ρ c (Proc.devRef .tc main_arg13) = m ((c : Thread nD τ).loc main_arg13) := by
  show StableHlo.after hostOps0 (W0 m ρ c) (Proc.devRef .tc main_arg13) = _
  after_results_simp
  all_goals rfl
theorem w2_arg13 (c : Dev nD) : W2 m ρ c (Proc.devRef .tc main_arg13) = m ((c : Thread nD τ).loc main_arg13) :=
  (W2_of_ne m ρ c main_arg13 (by decide)).trans (w1_arg13 m ρ c)
theorem w3_arg13 (c : Dev nD) : W3 m ρ c (Proc.devRef .tc main_arg13) = m ((c : Thread nD τ).loc main_arg13) := by
  show StableHlo.after hostOps1 (W2 m ρ c) (Proc.devRef .tc main_arg13) = _
  after_results_simp
  exact w2_arg13 m ρ c
theorem w1_arg14 (c : Dev nD) : W1 m ρ c (Proc.devRef .tc main_arg14) = m ((c : Thread nD τ).loc main_arg14) := by
  show StableHlo.after hostOps0 (W0 m ρ c) (Proc.devRef .tc main_arg14) = _
  after_results_simp
  all_goals rfl
theorem w2_arg14 (c : Dev nD) : W2 m ρ c (Proc.devRef .tc main_arg14) = m ((c : Thread nD τ).loc main_arg14) :=
  (W2_of_ne m ρ c main_arg14 (by decide)).trans (w1_arg14 m ρ c)
theorem w3_arg14 (c : Dev nD) : W3 m ρ c (Proc.devRef .tc main_arg14) = m ((c : Thread nD τ).loc main_arg14) := by
  show StableHlo.after hostOps1 (W2 m ρ c) (Proc.devRef .tc main_arg14) = _
  after_results_simp
  exact w2_arg14 m ρ c
theorem w4_arg14 (c : Dev nD) : W4 m ρ c (Proc.devRef .tc main_arg14) = m ((c : Thread nD τ).loc main_arg14) :=
  (W4_of_ne m ρ c main_arg14 (by decide)).trans (w3_arg14 m ρ c)
theorem w1_arg15 (c : Dev nD) : W1 m ρ c (Proc.devRef .tc main_arg15) = m ((c : Thread nD τ).loc main_arg15) := by
  show StableHlo.after hostOps0 (W0 m ρ c) (Proc.devRef .tc main_arg15) = _
  after_results_simp
  all_goals rfl
theorem w2_arg15 (c : Dev nD) : W2 m ρ c (Proc.devRef .tc main_arg15) = m ((c : Thread nD τ).loc main_arg15) :=
  (W2_of_ne m ρ c main_arg15 (by decide)).trans (w1_arg15 m ρ c)
theorem w3_arg15 (c : Dev nD) : W3 m ρ c (Proc.devRef .tc main_arg15) = m ((c : Thread nD τ).loc main_arg15) := by
  show StableHlo.after hostOps1 (W2 m ρ c) (Proc.devRef .tc main_arg15) = _
  after_results_simp
  exact w2_arg15 m ρ c
theorem w4_arg15 (c : Dev nD) : W4 m ρ c (Proc.devRef .tc main_arg15) = m ((c : Thread nD τ).loc main_arg15) :=
  (W4_of_ne m ρ c main_arg15 (by decide)).trans (w3_arg15 m ρ c)
theorem w5_arg15 (c : Dev nD) : W5 m ρ c (Proc.devRef .tc main_arg15) = m ((c : Thread nD τ).loc main_arg15) := by
  show StableHlo.after hostOps2 (W4 m ρ c) (Proc.devRef .tc main_arg15) = _
  after_results_simp
  exact w4_arg15 m ρ c
theorem w6_arg15 (c : Dev nD) : W6 m ρ c (Proc.devRef .tc main_arg15) = m ((c : Thread nD τ).loc main_arg15) :=
  (W6_of_ne m ρ c main_arg15 (by decide)).trans (w5_arg15 m ρ c)
theorem w7_arg15 (c : Dev nD) : W7 m ρ c (Proc.devRef .tc main_arg15) = m ((c : Thread nD τ).loc main_arg15) := by
  show StableHlo.after hostOps3 (W6 m ρ c) (Proc.devRef .tc main_arg15) = _
  after_results_simp
  exact w6_arg15 m ρ c
theorem w1_arg16 (c : Dev nD) : W1 m ρ c (Proc.devRef .tc main_arg16) = m ((c : Thread nD τ).loc main_arg16) := by
  show StableHlo.after hostOps0 (W0 m ρ c) (Proc.devRef .tc main_arg16) = _
  after_results_simp
  all_goals rfl
theorem w2_arg16 (c : Dev nD) : W2 m ρ c (Proc.devRef .tc main_arg16) = m ((c : Thread nD τ).loc main_arg16) :=
  (W2_of_ne m ρ c main_arg16 (by decide)).trans (w1_arg16 m ρ c)
theorem w3_arg16 (c : Dev nD) : W3 m ρ c (Proc.devRef .tc main_arg16) = m ((c : Thread nD τ).loc main_arg16) := by
  show StableHlo.after hostOps1 (W2 m ρ c) (Proc.devRef .tc main_arg16) = _
  after_results_simp
  exact w2_arg16 m ρ c
theorem w4_arg16 (c : Dev nD) : W4 m ρ c (Proc.devRef .tc main_arg16) = m ((c : Thread nD τ).loc main_arg16) :=
  (W4_of_ne m ρ c main_arg16 (by decide)).trans (w3_arg16 m ρ c)
theorem w5_arg16 (c : Dev nD) : W5 m ρ c (Proc.devRef .tc main_arg16) = m ((c : Thread nD τ).loc main_arg16) := by
  show StableHlo.after hostOps2 (W4 m ρ c) (Proc.devRef .tc main_arg16) = _
  after_results_simp
  exact w4_arg16 m ρ c
theorem w6_arg16 (c : Dev nD) : W6 m ρ c (Proc.devRef .tc main_arg16) = m ((c : Thread nD τ).loc main_arg16) :=
  (W6_of_ne m ρ c main_arg16 (by decide)).trans (w5_arg16 m ρ c)
theorem w1_arg17 (c : Dev nD) : W1 m ρ c (Proc.devRef .tc main_arg17) = m ((c : Thread nD τ).loc main_arg17) := by
  show StableHlo.after hostOps0 (W0 m ρ c) (Proc.devRef .tc main_arg17) = _
  after_results_simp
  all_goals rfl
theorem w2_arg17 (c : Dev nD) : W2 m ρ c (Proc.devRef .tc main_arg17) = m ((c : Thread nD τ).loc main_arg17) :=
  (W2_of_ne m ρ c main_arg17 (by decide)).trans (w1_arg17 m ρ c)
theorem w3_arg17 (c : Dev nD) : W3 m ρ c (Proc.devRef .tc main_arg17) = m ((c : Thread nD τ).loc main_arg17) := by
  show StableHlo.after hostOps1 (W2 m ρ c) (Proc.devRef .tc main_arg17) = _
  after_results_simp
  exact w2_arg17 m ρ c
theorem w4_arg17 (c : Dev nD) : W4 m ρ c (Proc.devRef .tc main_arg17) = m ((c : Thread nD τ).loc main_arg17) :=
  (W4_of_ne m ρ c main_arg17 (by decide)).trans (w3_arg17 m ρ c)
theorem w5_arg17 (c : Dev nD) : W5 m ρ c (Proc.devRef .tc main_arg17) = m ((c : Thread nD τ).loc main_arg17) := by
  show StableHlo.after hostOps2 (W4 m ρ c) (Proc.devRef .tc main_arg17) = _
  after_results_simp
  exact w4_arg17 m ρ c
theorem w6_arg17 (c : Dev nD) : W6 m ρ c (Proc.devRef .tc main_arg17) = m ((c : Thread nD τ).loc main_arg17) :=
  (W6_of_ne m ρ c main_arg17 (by decide)).trans (w5_arg17 m ρ c)
theorem w7_arg17 (c : Dev nD) : W7 m ρ c (Proc.devRef .tc main_arg17) = m ((c : Thread nD τ).loc main_arg17) := by
  show StableHlo.after hostOps3 (W6 m ρ c) (Proc.devRef .tc main_arg17) = _
  after_results_simp
  exact w6_arg17 m ρ c
theorem w1_arg18 (c : Dev nD) : W1 m ρ c (Proc.devRef .tc main_arg18) = m ((c : Thread nD τ).loc main_arg18) := by
  show StableHlo.after hostOps0 (W0 m ρ c) (Proc.devRef .tc main_arg18) = _
  after_results_simp
  all_goals rfl
theorem w2_arg18 (c : Dev nD) : W2 m ρ c (Proc.devRef .tc main_arg18) = m ((c : Thread nD τ).loc main_arg18) :=
  (W2_of_ne m ρ c main_arg18 (by decide)).trans (w1_arg18 m ρ c)
theorem w3_arg18 (c : Dev nD) : W3 m ρ c (Proc.devRef .tc main_arg18) = m ((c : Thread nD τ).loc main_arg18) := by
  show StableHlo.after hostOps1 (W2 m ρ c) (Proc.devRef .tc main_arg18) = _
  after_results_simp
  exact w2_arg18 m ρ c
theorem w4_arg18 (c : Dev nD) : W4 m ρ c (Proc.devRef .tc main_arg18) = m ((c : Thread nD τ).loc main_arg18) :=
  (W4_of_ne m ρ c main_arg18 (by decide)).trans (w3_arg18 m ρ c)
theorem w5_arg18 (c : Dev nD) : W5 m ρ c (Proc.devRef .tc main_arg18) = m ((c : Thread nD τ).loc main_arg18) := by
  show StableHlo.after hostOps2 (W4 m ρ c) (Proc.devRef .tc main_arg18) = _
  after_results_simp
  exact w4_arg18 m ρ c
theorem w6_arg18 (c : Dev nD) : W6 m ρ c (Proc.devRef .tc main_arg18) = m ((c : Thread nD τ).loc main_arg18) :=
  (W6_of_ne m ρ c main_arg18 (by decide)).trans (w5_arg18 m ρ c)
theorem w1_arg19 (c : Dev nD) : W1 m ρ c (Proc.devRef .tc main_arg19) = m ((c : Thread nD τ).loc main_arg19) := by
  show StableHlo.after hostOps0 (W0 m ρ c) (Proc.devRef .tc main_arg19) = _
  after_results_simp
  all_goals rfl
theorem w2_arg19 (c : Dev nD) : W2 m ρ c (Proc.devRef .tc main_arg19) = m ((c : Thread nD τ).loc main_arg19) :=
  (W2_of_ne m ρ c main_arg19 (by decide)).trans (w1_arg19 m ρ c)
theorem w3_arg19 (c : Dev nD) : W3 m ρ c (Proc.devRef .tc main_arg19) = m ((c : Thread nD τ).loc main_arg19) := by
  show StableHlo.after hostOps1 (W2 m ρ c) (Proc.devRef .tc main_arg19) = _
  after_results_simp
  exact w2_arg19 m ρ c
theorem w4_arg19 (c : Dev nD) : W4 m ρ c (Proc.devRef .tc main_arg19) = m ((c : Thread nD τ).loc main_arg19) :=
  (W4_of_ne m ρ c main_arg19 (by decide)).trans (w3_arg19 m ρ c)
theorem w5_arg19 (c : Dev nD) : W5 m ρ c (Proc.devRef .tc main_arg19) = m ((c : Thread nD τ).loc main_arg19) := by
  show StableHlo.after hostOps2 (W4 m ρ c) (Proc.devRef .tc main_arg19) = _
  after_results_simp
  exact w4_arg19 m ρ c
theorem w6_arg19 (c : Dev nD) : W6 m ρ c (Proc.devRef .tc main_arg19) = m ((c : Thread nD τ).loc main_arg19) :=
  (W6_of_ne m ρ c main_arg19 (by decide)).trans (w5_arg19 m ρ c)
theorem w7_arg19 (c : Dev nD) : W7 m ρ c (Proc.devRef .tc main_arg19) = m ((c : Thread nD τ).loc main_arg19) := by
  show StableHlo.after hostOps3 (W6 m ρ c) (Proc.devRef .tc main_arg19) = _
  after_results_simp
  exact w6_arg19 m ρ c
theorem w1_arg20 (c : Dev nD) : W1 m ρ c (Proc.devRef .tc main_arg20) = m ((c : Thread nD τ).loc main_arg20) := by
  show StableHlo.after hostOps0 (W0 m ρ c) (Proc.devRef .tc main_arg20) = _
  after_results_simp
  all_goals rfl
theorem w2_arg20 (c : Dev nD) : W2 m ρ c (Proc.devRef .tc main_arg20) = m ((c : Thread nD τ).loc main_arg20) :=
  (W2_of_ne m ρ c main_arg20 (by decide)).trans (w1_arg20 m ρ c)
theorem w3_arg20 (c : Dev nD) : W3 m ρ c (Proc.devRef .tc main_arg20) = m ((c : Thread nD τ).loc main_arg20) := by
  show StableHlo.after hostOps1 (W2 m ρ c) (Proc.devRef .tc main_arg20) = _
  after_results_simp
  exact w2_arg20 m ρ c
theorem w4_arg20 (c : Dev nD) : W4 m ρ c (Proc.devRef .tc main_arg20) = m ((c : Thread nD τ).loc main_arg20) :=
  (W4_of_ne m ρ c main_arg20 (by decide)).trans (w3_arg20 m ρ c)
theorem w5_arg20 (c : Dev nD) : W5 m ρ c (Proc.devRef .tc main_arg20) = m ((c : Thread nD τ).loc main_arg20) := by
  show StableHlo.after hostOps2 (W4 m ρ c) (Proc.devRef .tc main_arg20) = _
  after_results_simp
  exact w4_arg20 m ρ c
theorem w6_arg20 (c : Dev nD) : W6 m ρ c (Proc.devRef .tc main_arg20) = m ((c : Thread nD τ).loc main_arg20) :=
  (W6_of_ne m ρ c main_arg20 (by decide)).trans (w5_arg20 m ρ c)

/-! ## After the first stretch -/

set_option maxHeartbeats 4000000 in
theorem w1_v78 (c : Dev nD) :
    W1 m ρ c (Proc.devRef .tc main_v78) = Cert.Chain.spmm (m ((c : Thread nD τ).loc main_arg4)) (Cert.Chain.h1Split (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))) := by
  show StableHlo.after hostOps0 (W0 m ρ c) (Proc.devRef .tc main_v78) = _
  after_results_simp
  rfl

set_option maxHeartbeats 4000000 in
theorem w1_v79 (c : Dev nD) :
    W1 m ρ c (Proc.devRef .tc main_v79) = fun i => shapeCast S1x222 (m ((c : Thread nD τ).loc main_arg10)) Facts₀.shapeCasts_S222_S1x222 i := by
  show StableHlo.after hostOps0 (W0 m ρ c) (Proc.devRef .tc main_v79) = _
  after_results_simp
  all_goals rfl

set_option maxHeartbeats 4000000 in
theorem w1_v35 (c : Dev nD) : W1 m ρ c (Proc.devRef .tc main_v35) = Cert.Chain.src (m ((c : Thread nD τ).loc main_arg4)) := by
  show StableHlo.after hostOps0 (W0 m ρ c) (Proc.devRef .tc main_v35) = _
  after_results_simp
  all_goals rfl

set_option maxHeartbeats 4000000 in
theorem w1_v38 (c : Dev nD) : W1 m ρ c (Proc.devRef .tc main_v38) = Cert.Chain.dst (m ((c : Thread nD τ).loc main_arg4)) := by
  show StableHlo.after hostOps0 (W0 m ρ c) (Proc.devRef .tc main_v38) = _
  after_results_simp
  all_goals rfl

set_option maxHeartbeats 4000000 in
theorem w1_v65 (c : Dev nD) : W1 m ρ c (Proc.devRef .tc main_v65) = Cert.Chain.norm (m ((c : Thread nD τ).loc main_arg4)) := by
  show StableHlo.after hostOps0 (W0 m ρ c) (Proc.devRef .tc main_v65) = _
  after_results_simp
  all_goals rfl

/-! ## After the first fused region -/

theorem w2_v35 (c : Dev nD) : W2 m ρ c (Proc.devRef .tc main_v35) = Cert.Chain.src (m ((c : Thread nD τ).loc main_arg4)) :=
  (W2_of_ne m ρ c main_v35 (by decide)).trans (w1_v35 m ρ c)
theorem w2_v38 (c : Dev nD) : W2 m ρ c (Proc.devRef .tc main_v38) = Cert.Chain.dst (m ((c : Thread nD τ).loc main_arg4)) :=
  (W2_of_ne m ρ c main_v38 (by decide)).trans (w1_v38 m ρ c)
theorem w2_v65 (c : Dev nD) : W2 m ρ c (Proc.devRef .tc main_v65) = Cert.Chain.norm (m ((c : Thread nD τ).loc main_arg4)) :=
  (W2_of_ne m ρ c main_v65 (by decide)).trans (w1_v65 m ρ c)

theorem w2_v80 (c : Dev nD) :
    W2 m ρ c (Proc.devRef .tc main_v80) = Cert.Chain.layerHost (m ((c : Thread nD τ).loc main_arg10)) (m ((c : Thread nD τ).loc main_arg11)) (Cert.Chain.spmm (m ((c : Thread nD τ).loc main_arg4)) (Cert.Chain.h1Split (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)))) := by
  refine (W2_arr m ρ c 3).trans ?_
  rw [Blocks0.final (V1 m ρ) c (m ((c : Thread nD τ).loc main_arg10)) (w1_v79 m ρ c)]
  show Cert.Chain.layerHost _ (W1 m ρ c (Proc.devRef .tc main_arg11)) (W1 m ρ c (Proc.devRef .tc main_v78)) = _
  rw [w1_arg11 m ρ c, w1_v78 m ρ c]

/-! ## After the second stretch -/

theorem w3_v35 (c : Dev nD) : W3 m ρ c (Proc.devRef .tc main_v35) = Cert.Chain.src (m ((c : Thread nD τ).loc main_arg4)) := by
  show StableHlo.after hostOps1 (W2 m ρ c) (Proc.devRef .tc main_v35) = _
  after_results_simp
  exact w2_v35 m ρ c
theorem w3_v38 (c : Dev nD) : W3 m ρ c (Proc.devRef .tc main_v38) = Cert.Chain.dst (m ((c : Thread nD τ).loc main_arg4)) := by
  show StableHlo.after hostOps1 (W2 m ρ c) (Proc.devRef .tc main_v38) = _
  after_results_simp
  exact w2_v38 m ρ c
theorem w3_v65 (c : Dev nD) : W3 m ρ c (Proc.devRef .tc main_v65) = Cert.Chain.norm (m ((c : Thread nD τ).loc main_arg4)) := by
  show StableHlo.after hostOps1 (W2 m ρ c) (Proc.devRef .tc main_v65) = _
  after_results_simp
  exact w2_v65 m ρ c

theorem w3_v93 (c : Dev nD) :
    W3 m ρ c (Proc.devRef .tc main_v93) = Cert.Chain.spmm (m ((c : Thread nD τ).loc main_arg4)) (W2 m ρ c (Proc.devRef .tc main_v80)) := by
  show StableHlo.after hostOps1 (W2 m ρ c) (Proc.devRef .tc main_v93) = _
  after_results_simp
  rw [w2_v35 m ρ c, w2_v38 m ρ c, w2_v65 m ρ c]
  rfl

theorem w3_v94 (c : Dev nD) :
    W3 m ρ c (Proc.devRef .tc main_v94) = fun i => shapeCast S1x222 (m ((c : Thread nD τ).loc main_arg12)) Facts₀.shapeCasts_S222_S1x222 i := by
  show StableHlo.after hostOps1 (W2 m ρ c) (Proc.devRef .tc main_v94) = _
  after_results_simp
  rw [w2_arg12 m ρ c]
  rfl

/-! ## After the second fused region -/

theorem w4_v35 (c : Dev nD) : W4 m ρ c (Proc.devRef .tc main_v35) = Cert.Chain.src (m ((c : Thread nD τ).loc main_arg4)) :=
  (W4_of_ne m ρ c main_v35 (by decide)).trans (w3_v35 m ρ c)
theorem w4_v38 (c : Dev nD) : W4 m ρ c (Proc.devRef .tc main_v38) = Cert.Chain.dst (m ((c : Thread nD τ).loc main_arg4)) :=
  (W4_of_ne m ρ c main_v38 (by decide)).trans (w3_v38 m ρ c)
theorem w4_v65 (c : Dev nD) : W4 m ρ c (Proc.devRef .tc main_v65) = Cert.Chain.norm (m ((c : Thread nD τ).loc main_arg4)) :=
  (W4_of_ne m ρ c main_v65 (by decide)).trans (w3_v65 m ρ c)

theorem w4_v95 (c : Dev nD) :
    W4 m ρ c (Proc.devRef .tc main_v95) = Cert.Chain.layerHost (m ((c : Thread nD τ).loc main_arg12)) (m ((c : Thread nD τ).loc main_arg13)) (W3 m ρ c (Proc.devRef .tc main_v93)) := by
  refine (W4_arr m ρ c 3).trans ?_
  rw [Blocks1.final (V3 m ρ) c (m ((c : Thread nD τ).loc main_arg12)) (w3_v94 m ρ c)]
  show Cert.Chain.layerHost _ (W3 m ρ c (Proc.devRef .tc main_arg13)) (W3 m ρ c (Proc.devRef .tc main_v93)) = _
  rw [w3_arg13 m ρ c]

/-! ## After the third stretch -/

theorem w5_v108 (c : Dev nD) :
    W5 m ρ c (Proc.devRef .tc main_v108) = Cert.Chain.spmm (m ((c : Thread nD τ).loc main_arg4)) (W4 m ρ c (Proc.devRef .tc main_v95)) := by
  show StableHlo.after hostOps2 (W4 m ρ c) (Proc.devRef .tc main_v108) = _
  after_results_simp
  rw [w4_v35 m ρ c, w4_v38 m ρ c, w4_v65 m ρ c]
  rfl

theorem w5_v109 (c : Dev nD) :
    W5 m ρ c (Proc.devRef .tc main_v109) = fun i => shapeCast S1x222 (m ((c : Thread nD τ).loc main_arg14)) Facts₀.shapeCasts_S222_S1x222 i := by
  show StableHlo.after hostOps2 (W4 m ρ c) (Proc.devRef .tc main_v109) = _
  after_results_simp
  rw [w4_arg14 m ρ c]
  rfl

/-! ## After the bias-and-ELU region -/

theorem w6_v110 (c : Dev nD) :
    W6 m ρ c (Proc.devRef .tc main_v110) = Cert.Chain.actHost (m ((c : Thread nD τ).loc main_arg14)) (W5 m ρ c (Proc.devRef .tc main_v108)) := by
  refine (W6_arr m ρ c 2).trans ?_
  rw [Blocks2.final (V5 m ρ) c (m ((c : Thread nD τ).loc main_arg14)) (w5_v109 m ρ c)]

/-! ## After the last stretch -/

theorem w7_v122 (c : Dev nD) :
    W7 m ρ c (Proc.devRef .tc main_v122) = Cert.Chain.pool (m ((c : Thread nD τ).loc main_arg5)) (W6 m ρ c (Proc.devRef .tc main_v110)) := by
  show StableHlo.after hostOps3 (W6 m ρ c) (Proc.devRef .tc main_v122) = _
  after_results_simp
  rw [w6_arg5 m ρ c]
  rfl

theorem w7_v123 (c : Dev nD) :
    W7 m ρ c (Proc.devRef .tc main_v123) = fun i => shapeCast S1x512 (m ((c : Thread nD τ).loc main_arg16)) Facts₀.shapeCasts_S512_S1x512 i := by
  show StableHlo.after hostOps3 (W6 m ρ c) (Proc.devRef .tc main_v123) = _
  after_results_simp
  rw [w6_arg16 m ρ c]
  rfl
theorem w7_v124 (c : Dev nD) :
    W7 m ρ c (Proc.devRef .tc main_v124) = fun i => shapeCast S1x128 (m ((c : Thread nD τ).loc main_arg18)) Facts₀.shapeCasts_S128_S1x128 i := by
  show StableHlo.after hostOps3 (W6 m ρ c) (Proc.devRef .tc main_v124) = _
  after_results_simp
  rw [w6_arg18 m ρ c]
  rfl
theorem w7_v125 (c : Dev nD) :
    W7 m ρ c (Proc.devRef .tc main_v125) = fun i => shapeCast S1x1 (m ((c : Thread nD τ).loc main_arg20)) Facts₀.shapeCasts_S1_S1x1 i := by
  show StableHlo.after hostOps3 (W6 m ρ c) (Proc.devRef .tc main_v125) = _
  after_results_simp
  rw [w6_arg20 m ρ c]
  rfl

/-! ## After the dense head: the result -/

theorem w8_v126 (c : Dev nD) :
    W8 m ρ c (Proc.devRef .tc main_v126)
      = Cert.Chain.headHost (W7 m ρ c (Proc.devRef .tc main_v122)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W8_arr m ρ c 7).trans ?_
  rw [Blocks3.final (V7 m ρ) c (m ((c : Thread nD τ).loc main_arg16)) (m ((c : Thread nD τ).loc main_arg18)) (m ((c : Thread nD τ).loc main_arg20)) (w7_v123 m ρ c) (w7_v124 m ρ c) (w7_v125 m ρ c)]
  show Cert.Chain.headHost _ (W7 m ρ c (Proc.devRef .tc main_arg15)) _ (W7 m ρ c (Proc.devRef .tc main_arg17)) _ (W7 m ρ c (Proc.devRef .tc main_arg19)) _ = _
  rw [w7_arg15 m ρ c, w7_arg17 m ρ c, w7_arg19 m ρ c]

/-- The result buffer at the last boundary: the whole-array program's value of the arguments, its
    first layer spelt table by table. -/
theorem result (c : Dev nD) :
    W8 m ρ c (Proc.devRef .tc main_v126)
      = Cert.Chain.headHost (Cert.Chain.pool (m ((c : Thread nD τ).loc main_arg5)) (Cert.Chain.actHost (m ((c : Thread nD τ).loc main_arg14)) (Cert.Chain.spmm (m ((c : Thread nD τ).loc main_arg4))
          (Cert.Chain.layerHost (m ((c : Thread nD τ).loc main_arg12)) (m ((c : Thread nD τ).loc main_arg13)) (Cert.Chain.spmm (m ((c : Thread nD τ).loc main_arg4))
            (Cert.Chain.layerHost (m ((c : Thread nD τ).loc main_arg10)) (m ((c : Thread nD τ).loc main_arg11)) (Cert.Chain.spmm (m ((c : Thread nD τ).loc main_arg4)) (Cert.Chain.h1Split (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9))))))))))
          (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [w8_v126 m ρ c, w7_v122 m ρ c, w6_v110 m ρ c, w5_v108 m ρ c, w4_v95 m ρ c, w3_v93 m ρ c, w2_v80 m ρ c]

end Cert.KernelIdeal.KFold

end
-- ==== Proof.RefOps.lean ====
import proofs.«140304_j41248865910880_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Statements 1 … 36 of the program (a call's statements in its place): 36 operations. -/
abbrev q0 : List (HloOp τ sig (Elt F)) :=
  [ StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 118#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg6 main_v5 main_v6 ((fun x i => Host.gather gather_S118x200_S50000x1_S50000x200_1_0_n_n_0_1_1200 x i) : (⟨S118x200, .f32⟩ : BufTy).Contents (Elt F) → (⟨S50000x1, .i32⟩ : BufTy).Contents (Elt F) → (⟨S50000x200, .f32⟩ : BufTy).Contents (Elt F)),
    StableHlo.nullary main_c_1 (constantI S_ 32 0#32),
    StableHlo.unary main_c_1 main_v7 (broadcastInDim S50000 ![] bcast_S_S50000 : (⟨S_, .i32⟩ : BufTy).Contents (Elt F) → (⟨S50000, .i32⟩ : BufTy).Contents (Elt F)),
    StableHlo.binary main_arg1 main_v7 main_v8 (cmpi .slt : (⟨S50000, .i32⟩ : BufTy).Contents (Elt F) → (⟨S50000, .i32⟩ : BufTy).Contents (Elt F) → (⟨S50000, .i1⟩ : BufTy).Contents (Elt F)),
    StableHlo.nullary main_c_2 (constantI S_ 32 16#32),
    StableHlo.unary main_c_2 main_v9 (broadcastInDim S50000 ![] bcast_S_S50000 : (⟨S_, .i32⟩ : BufTy).Contents (Elt F) → (⟨S50000, .i32⟩ : BufTy).Contents (Elt F)),
    StableHlo.binary main_arg1 main_v9 main_v10 (addi : (⟨S50000, .i32⟩ : BufTy).Contents (Elt F) → (⟨S50000, .i32⟩ : BufTy).Contents (Elt F) → (⟨S50000, .i32⟩ : BufTy).Contents (Elt F)),
    StableHlo.ternary main_v8 main_v10 main_arg1 main_v11 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v11 main_v12 (broadcastInDim S50000x1 ![0] bcast_S50000_S50000x1_0 : (⟨S50000, .i32⟩ : BufTy).Contents (Elt F) → (⟨S50000x1, .i32⟩ : BufTy).Contents (Elt F)),
    StableHlo.binary main_arg7 main_v12 main_v13 ((fun x i => Host.gather gather_S16x10_S50000x1_S50000x10_1_0_n_n_0_1_110 x i) : (⟨S16x10, .f32⟩ : BufTy).Contents (Elt F) → (⟨S50000x1, .i32⟩ : BufTy).Contents (Elt F) → (⟨S50000x10, .f32⟩ : BufTy).Contents (Elt F)),
    StableHlo.nullary main_c_3 (constantI S_ 32 0#32),
    StableHlo.unary main_c_3 main_v14 (broadcastInDim S50000 ![] bcast_S_S50000 : (⟨S_, .i32⟩ : BufTy).Contents (Elt F) → (⟨S50000, .i32⟩ : BufTy).Contents (Elt F)),
    StableHlo.binary main_arg2 main_v14 main_v15 (cmpi .slt : (⟨S50000, .i32⟩ : BufTy).Contents (Elt F) → (⟨S50000, .i32⟩ : BufTy).Contents (Elt F) → (⟨S50000, .i1⟩ : BufTy).Contents (Elt F)),
    StableHlo.nullary main_c_4 (constantI S_ 32 64#32),
    StableHlo.unary main_c_4 main_v16 (broadcastInDim S50000 ![] bcast_S_S50000 : (⟨S_, .i32⟩ : BufTy).Contents (Elt F) → (⟨S50000, .i32⟩ : BufTy).Contents (Elt F)),
    StableHlo.binary main_arg2 main_v16 main_v17 (addi : (⟨S50000, .i32⟩ : BufTy).Contents (Elt F) → (⟨S50000, .i32⟩ : BufTy).Contents (Elt F) → (⟨S50000, .i32⟩ : BufTy).Contents (Elt F)),
    StableHlo.ternary main_v15 main_v17 main_arg2 main_v18 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v18 main_v19 (broadcastInDim S50000x1 ![0] bcast_S50000_S50000x1_0 : (⟨S50000, .i32⟩ : BufTy).Contents (Elt F) → (⟨S50000x1, .i32⟩ : BufTy).Contents (Elt F)),
    StableHlo.binary main_arg8 main_v19 main_v20 ((fun x i => Host.gather gather_S64x10_S50000x1_S50000x10_1_0_n_n_0_1_110 x i) : (⟨S64x10, .f32⟩ : BufTy).Contents (Elt F) → (⟨S50000x1, .i32⟩ : BufTy).Contents (Elt F) → (⟨S50000x10, .f32⟩ : BufTy).Contents (Elt F)),
    StableHlo.nary ![main_v6, main_v13, main_v20, main_arg3] main_v21 (fun u => concatenate S50000x222 1 [⟨S50000x200, u 0⟩, ⟨S50000x10, u 1⟩, ⟨S50000x10, u 2⟩, ⟨S50000x2, u 3⟩] concatenates_S50000x200_S50000x10_S50000x10_S50000x2_S50000x222_d1),
    StableHlo.nullary main_v22 (iotaInDim S50000 32 0),
    StableHlo.unary main_arg4 main_v23 ((extractStridedSlice S1x360000 ![0, 0] · slices_S2x360000_S1x360000_0_0) : (⟨S2x360000, .i32⟩ : BufTy).Contents (Elt F) → (⟨S1x360000, .i32⟩ : BufTy).Contents (Elt F)),
    StableHlo.reshape main_v23 main_v24 rfl shapeCasts_S1x360000_S360000,
    StableHlo.binary main_v24 main_v22 main_v25 ((fun a b => concatenate S410000 0 [⟨S360000, a⟩, ⟨S50000, b⟩] concatenates_S360000_S50000_S410000_d0) : (⟨S360000, .i32⟩ : BufTy).Contents (Elt F) → (⟨S50000, .i32⟩ : BufTy).Contents (Elt F) → (⟨S410000, .i32⟩ : BufTy).Contents (Elt F)),
    StableHlo.unary main_arg4 main_v26 ((extractStridedSlice S1x360000 ![1, 0] · slices_S2x360000_S1x360000_1_0) : (⟨S2x360000, .i32⟩ : BufTy).Contents (Elt F) → (⟨S1x360000, .i32⟩ : BufTy).Contents (Elt F)),
    StableHlo.reshape main_v26 main_v27 rfl shapeCasts_S1x360000_S360000,
    StableHlo.binary main_v27 main_v22 main_v28 ((fun a b => concatenate S410000 0 [⟨S360000, a⟩, ⟨S50000, b⟩] concatenates_S360000_S50000_S410000_d0) : (⟨S360000, .i32⟩ : BufTy).Contents (Elt F) → (⟨S50000, .i32⟩ : BufTy).Contents (Elt F) → (⟨S410000, .i32⟩ : BufTy).Contents (Elt F)),
    StableHlo.binary main_v21 main_arg9 main_v29 ((fun l r => Host.dotGeneral dot_S50000x222_S222x222_S50000x222_1_0_0_1_n_n none l r) : (⟨S50000x222, .f32⟩ : BufTy).Contents (Elt F) → (⟨S222x222, .f32⟩ : BufTy).Contents (Elt F) → (⟨S50000x222, .f32⟩ : BufTy).Contents (Elt F)) ]
/-- The references those operations write, in order. -/
abbrev q0_W : List (Ref sig .tc) :=
  [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_v21, main_v22, main_v23, main_v24, main_v25, main_v26, main_v27, main_v28, main_v29]

/-- Statements 37 … 60 of the program (a call's statements in its place): 24 operations. -/
abbrev q1 : List (HloOp τ sig (Elt F)) :=
  [ StableHlo.nullary main_cst (constant S_ .f32 0x00000000#32),
    StableHlo.unary main_cst main_v30 (broadcastInDim S50000 ![] bcast_S_S50000 : (⟨S_, .f32⟩ : BufTy).Contents (Elt F) → (⟨S50000, .f32⟩ : BufTy).Contents (Elt F)),
    StableHlo.nullary main_c_5 (constantI S_ 32 0#32),
    StableHlo.unary main_c_5 main_v31 (broadcastInDim S410000 ![] bcast_S_S410000 : (⟨S_, .i32⟩ : BufTy).Contents (Elt F) → (⟨S410000, .i32⟩ : BufTy).Contents (Elt F)),
    StableHlo.binary main_v28 main_v31 main_v32 (cmpi .slt : (⟨S410000, .i32⟩ : BufTy).Contents (Elt F) → (⟨S410000, .i32⟩ : BufTy).Contents (Elt F) → (⟨S410000, .i1⟩ : BufTy).Contents (Elt F)),
    StableHlo.nullary main_c_6 (constantI S_ 32 50000#32),
    StableHlo.unary main_c_6 main_v33 (broadcastInDim S410000 ![] bcast_S_S410000 : (⟨S_, .i32⟩ : BufTy).Contents (Elt F) → (⟨S410000, .i32⟩ : BufTy).Contents (Elt F)),
    StableHlo.binary main_v28 main_v33 main_v34 (addi : (⟨S410000, .i32⟩ : BufTy).Contents (Elt F) → (⟨S410000, .i32⟩ : BufTy).Contents (Elt F) → (⟨S410000, .i32⟩ : BufTy).Contents (Elt F)),
    StableHlo.ternary main_v32 main_v34 main_v28 main_v35 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v35 main_v36 (broadcastInDim S410000x1 ![0] bcast_S410000_S410000x1_0 : (⟨S410000, .i32⟩ : BufTy).Contents (Elt F) → (⟨S410000x1, .i32⟩ : BufTy).Contents (Elt F)),
    StableHlo.nullary main_cst_7 (constant S_ .f32 0x3F800000#32),
    StableHlo.unary main_cst_7 main_v37 (broadcastInDim S410000 ![] bcast_S_S410000 : (⟨S_, .f32⟩ : BufTy).Contents (Elt F) → (⟨S410000, .f32⟩ : BufTy).Contents (Elt F)),
    StableHlo.ternary main_v30 main_v36 main_v37 main_v38 ((fun x i u => Host.scatterAdd scatter_S50000_S410000x1_S410000_n_0_0_1 x i u) : (⟨S50000, .f32⟩ : BufTy).Contents (Elt F) → (⟨S410000x1, .i32⟩ : BufTy).Contents (Elt F) → (⟨S410000, .f32⟩ : BufTy).Contents (Elt F) → (⟨S50000, .f32⟩ : BufTy).Contents (Elt F)),
    StableHlo.nullary main_cst_8 (constant S_ .f32 0x3F800000#32),
    StableHlo.unary main_cst_8 main_v39 (broadcastInDim S50000 ![] bcast_S_S50000 : (⟨S_, .f32⟩ : BufTy).Contents (Elt F) → (⟨S50000, .f32⟩ : BufTy).Contents (Elt F)),
    StableHlo.binary main_v38 main_v39 main_v40 (maximumf : (⟨S50000, .f32⟩ : BufTy).Contents (Elt F) → (⟨S50000, .f32⟩ : BufTy).Contents (Elt F) → (⟨S50000, .f32⟩ : BufTy).Contents (Elt F)),
    StableHlo.unary main_v40 main_v41 (Host.rsqrt : (⟨S50000, .f32⟩ : BufTy).Contents (Elt F) → (⟨S50000, .f32⟩ : BufTy).Contents (Elt F)),
    StableHlo.nullary main_c_9 (constantI S_ 32 0#32),
    StableHlo.unary main_c_9 main_v42 (broadcastInDim S410000 ![] bcast_S_S410000 : (⟨S_, .i32⟩ : BufTy).Contents (Elt F) → (⟨S410000, .i32⟩ : BufTy).Contents (Elt F)),
    StableHlo.binary main_v25 main_v42 main_v43 (cmpi .slt : (⟨S410000, .i32⟩ : BufTy).Contents (Elt F) → (⟨S410000, .i32⟩ : BufTy).Contents (Elt F) → (⟨S410000, .i1⟩ : BufTy).Contents (Elt F)),
    StableHlo.nullary main_c_10 (constantI S_ 32 50000#32),
    StableHlo.unary main_c_10 main_v44 (broadcastInDim S410000 ![] bcast_S_S410000 : (⟨S_, .i32⟩ : BufTy).Contents (Elt F) → (⟨S410000, .i32⟩ : BufTy).Contents (Elt F)),
    StableHlo.binary main_v25 main_v44 main_v45 (addi : (⟨S410000, .i32⟩ : BufTy).Contents (Elt F) → (⟨S410000, .i32⟩ : BufTy).Contents (Elt F) → (⟨S410000, .i32⟩ : BufTy).Contents (Elt F)),
    StableHlo.ternary main_v43 main_v45 main_v25 main_v46 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)) ]
/-- The references those operations write, in order. -/
abbrev q1_W : List (Ref sig .tc) :=
  [main_cst, main_v30, main_c_5, main_v31, main_v32, main_c_6, main_v33, main_v34, main_v35, main_v36, main_cst_7, main_v37, main_v38, main_cst_8, main_v39, main_v40, main_v41, main_c_9, main_v42, main_v43, main_c_10, main_v44, main_v45, main_v46]

/-- Statements 61 … 88 of the program (a call's statements in its place): 28 operations. -/
abbrev q2 : List (HloOp τ sig (Elt F)) :=
  [ StableHlo.unary main_v46 main_v47 (broadcastInDim S410000x1 ![0] bcast_S410000_S410000x1_0 : (⟨S410000, .i32⟩ : BufTy).Contents (Elt F) → (⟨S410000x1, .i32⟩ : BufTy).Contents (Elt F)),
    StableHlo.binary main_v41 main_v47 main_v48 ((fun x i => Host.gather gather_S50000_S410000x1_S410000_n_0_n_n_0_1_1 x i) : (⟨S50000, .f32⟩ : BufTy).Contents (Elt F) → (⟨S410000x1, .i32⟩ : BufTy).Contents (Elt F) → (⟨S410000, .f32⟩ : BufTy).Contents (Elt F)),
    StableHlo.nullary main_c_11 (constantI S_ 32 0#32),
    StableHlo.unary main_c_11 main_v49 (broadcastInDim S410000 ![] bcast_S_S410000 : (⟨S_, .i32⟩ : BufTy).Contents (Elt F) → (⟨S410000, .i32⟩ : BufTy).Contents (Elt F)),
    StableHlo.binary main_v28 main_v49 main_v50 (cmpi .slt : (⟨S410000, .i32⟩ : BufTy).Contents (Elt F) → (⟨S410000, .i32⟩ : BufTy).Contents (Elt F) → (⟨S410000, .i1⟩ : BufTy).Contents (Elt F)),
    StableHlo.nullary main_c_12 (constantI S_ 32 50000#32),
    StableHlo.unary main_c_12 main_v51 (broadcastInDim S410000 ![] bcast_S_S410000 : (⟨S_, .i32⟩ : BufTy).Contents (Elt F) → (⟨S410000, .i32⟩ : BufTy).Contents (Elt F)),
    StableHlo.binary main_v28 main_v51 main_v52 (addi : (⟨S410000, .i32⟩ : BufTy).Contents (Elt F) → (⟨S410000, .i32⟩ : BufTy).Contents (Elt F) → (⟨S410000, .i32⟩ : BufTy).Contents (Elt F)),
    StableHlo.ternary main_v50 main_v52 main_v28 main_v53 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v53 main_v54 (broadcastInDim S410000x1 ![0] bcast_S410000_S410000x1_0 : (⟨S410000, .i32⟩ : BufTy).Contents (Elt F) → (⟨S410000x1, .i32⟩ : BufTy).Contents (Elt F)),
    StableHlo.binary main_v41 main_v54 main_v55 ((fun x i => Host.gather gather_S50000_S410000x1_S410000_n_0_n_n_0_1_1 x i) : (⟨S50000, .f32⟩ : BufTy).Contents (Elt F) → (⟨S410000x1, .i32⟩ : BufTy).Contents (Elt F) → (⟨S410000, .f32⟩ : BufTy).Contents (Elt F)),
    StableHlo.binary main_v48 main_v55 main_v56 (mulf : (⟨S410000, .f32⟩ : BufTy).Contents (Elt F) → (⟨S410000, .f32⟩ : BufTy).Contents (Elt F) → (⟨S410000, .f32⟩ : BufTy).Contents (Elt F)),
    StableHlo.unary main_v56 main_v57 (broadcastInDim S410000x1 ![0] bcast_S410000_S410000x1_0 : (⟨S410000, .f32⟩ : BufTy).Contents (Elt F) → (⟨S410000x1, .f32⟩ : BufTy).Contents (Elt F)),
    StableHlo.nullary main_c_13 (constantI S_ 32 0#32),
    StableHlo.unary main_c_13 main_v58 (broadcastInDim S410000 ![] bcast_S_S410000 : (⟨S_, .i32⟩ : BufTy).Contents (Elt F) → (⟨S410000, .i32⟩ : BufTy).Contents (Elt F)),
    StableHlo.binary main_v25 main_v58 main_v59 (cmpi .slt : (⟨S410000, .i32⟩ : BufTy).Contents (Elt F) → (⟨S410000, .i32⟩ : BufTy).Contents (Elt F) → (⟨S410000, .i1⟩ : BufTy).Contents (Elt F)),
    StableHlo.nullary main_c_14 (constantI S_ 32 50000#32),
    StableHlo.unary main_c_14 main_v60 (broadcastInDim S410000 ![] bcast_S_S410000 : (⟨S_, .i32⟩ : BufTy).Contents (Elt F) → (⟨S410000, .i32⟩ : BufTy).Contents (Elt F)),
    StableHlo.binary main_v25 main_v60 main_v61 (addi : (⟨S410000, .i32⟩ : BufTy).Contents (Elt F) → (⟨S410000, .i32⟩ : BufTy).Contents (Elt F) → (⟨S410000, .i32⟩ : BufTy).Contents (Elt F)),
    StableHlo.ternary main_v59 main_v61 main_v25 main_v62 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v62 main_v63 (broadcastInDim S410000x1 ![0] bcast_S410000_S410000x1_0 : (⟨S410000, .i32⟩ : BufTy).Contents (Elt F) → (⟨S410000x1, .i32⟩ : BufTy).Contents (Elt F)),
    StableHlo.binary main_v29 main_v63 main_v64 ((fun x i => Host.gather gather_S50000x222_S410000x1_S410000x222_1_0_n_n_0_1_1222 x i) : (⟨S50000x222, .f32⟩ : BufTy).Contents (Elt F) → (⟨S410000x1, .i32⟩ : BufTy).Contents (Elt F) → (⟨S410000x222, .f32⟩ : BufTy).Contents (Elt F)),
    StableHlo.unary main_v57 main_v65 (broadcastInDim S410000x222 ![0, 1] bcast_S410000x1_S410000x222_0_1 : (⟨S410000x1, .f32⟩ : BufTy).Contents (Elt F) → (⟨S410000x222, .f32⟩ : BufTy).Contents (Elt F)),
    StableHlo.binary main_v64 main_v65 main_v66 (mulf : (⟨S410000x222, .f32⟩ : BufTy).Contents (Elt F) → (⟨S410000x222, .f32⟩ : BufTy).Contents (Elt F) → (⟨S410000x222, .f32⟩ : BufTy).Contents (Elt F)),
    StableHlo.nullary main_cst_15 (constant S_ .f32 0x00000000#32),
    StableHlo.unary main_cst_15 main_v67 (broadcastInDim S50000x222 ![] bcast_S_S50000x222 : (⟨S_, .f32⟩ : BufTy).Contents (Elt F) → (⟨S50000x222, .f32⟩ : BufTy).Contents (Elt F)),
    StableHlo.unary main_v28 main_v68 (broadcastInDim S410000x1 ![0] bcast_S410000_S410000x1_0 : (⟨S410000, .i32⟩ : BufTy).Contents (Elt F) → (⟨S410000x1, .i32⟩ : BufTy).Contents (Elt F)),
    StableHlo.ternary main_v67 main_v68 main_v66 main_v69 ((fun x i u => Host.scatterAdd scatter_S50000x222_S410000x1_S410000x222_1_0_0_1 x i u) : (⟨S50000x222, .f32⟩ : BufTy).Contents (Elt F) → (⟨S410000x1, .i32⟩ : BufTy).Contents (Elt F) → (⟨S410000x222, .f32⟩ : BufTy).Contents (Elt F) → (⟨S50000x222, .f32⟩ : BufTy).Contents (Elt F)) ]
/-- The references those operations write, in order. -/
abbrev q2_W : List (Ref sig .tc) :=
  [main_v47, main_v48, main_c_11, main_v49, main_v50, main_c_12, main_v51, main_v52, main_v53, main_v54, main_v55, main_v56, main_v57, main_c_13, main_v58, main_v59, main_c_14, main_v60, main_v61, main_v62, main_v63, main_v64, main_v65, main_v66, main_cst_15, main_v67, main_v68, main_v69]

/-- Statements 89 … 93 of the program (a call's statements in its place): 19 operations. -/
abbrev q3 : List (HloOp τ sig (Elt F)) :=
  [ StableHlo.unary main_arg10 main_v70 (broadcastInDim S1x222 ![1] bcast_S222_S1x222_1 : (⟨S222, .f32⟩ : BufTy).Contents (Elt F) → (⟨S1x222, .f32⟩ : BufTy).Contents (Elt F)),
    StableHlo.unary main_v70 main_v71 (broadcastInDim S50000x222 ![0, 1] bcast_S1x222_S50000x222_0_1 : (⟨S1x222, .f32⟩ : BufTy).Contents (Elt F) → (⟨S50000x222, .f32⟩ : BufTy).Contents (Elt F)),
    StableHlo.binary main_v69 main_v71 main_v72 (addf : (⟨S50000x222, .f32⟩ : BufTy).Contents (Elt F) → (⟨S50000x222, .f32⟩ : BufTy).Contents (Elt F) → (⟨S50000x222, .f32⟩ : BufTy).Contents (Elt F)),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S50000x222, .f32⟩) main_call0_v0) (broadcastInDim S50000x222 ![] bcast_S_S50000x222),
    StableHlo.TRef.binary (StableHlo.TRef.of (T := ⟨S50000x222, .f32⟩) main_v72) (StableHlo.TRef.of (T := ⟨S50000x222, .f32⟩) main_call0_v0) (StableHlo.TRef.of (T := ⟨S50000x222, .i1⟩) main_call0_v1) (cmpf .ogt),
    StableHlo.TRef.nullary (StableHlo.TRef.of (T := ⟨S_, .f32⟩) main_call0_cst_0) (constant S_ .f32 0x00000000#32),
    StableHlo.TRef.unary (StableHlo.TRef.of (T := ⟨S_, .f32⟩) main_call0_cst_0) (StableHlo.TRef.of (T := ⟨S50000x222, .f32⟩) main_call0_v2) (broadcastInDim S50000x222 ![] bcast_S_S50000x222),
    StableHlo.TRef.binary (StableHlo.TRef.of (T := ⟨S50000x222, .f32⟩) main_v72) (StableHlo.TRef.of (T := ⟨S50000x222, .f32⟩) main_call0_v2) (StableHlo.TRef.of (T := ⟨S50000x222, .i1⟩) main_call0_v3) (cmpf .ogt),
    StableHlo.TRef.nullary (StableHlo.TRef.of (T := ⟨S_, .f32⟩) main_call0_cst_1) (constant S_ .f32 0x00000000#32),
    StableHlo.TRef.unary (StableHlo.TRef.of (T := ⟨S_, .f32⟩) main_call0_cst_1) (StableHlo.TRef.of (T := ⟨S_, .f32⟩) main_call0_call0_v0) id,
    StableHlo.TRef.unary (StableHlo.TRef.of (T := ⟨S_, .f32⟩) main_call0_call0_v0) (StableHlo.TRef.of (T := ⟨S50000x222, .f32⟩) main_call0_call0_v1) (broadcastInDim S50000x222 ![] bcast_S_S50000x222),
    StableHlo.TRef.ternary (StableHlo.TRef.of (T := ⟨S50000x222, .i1⟩) main_call0_v3) (StableHlo.TRef.of (T := ⟨S50000x222, .f32⟩) main_call0_call0_v1) (StableHlo.TRef.of (T := ⟨S50000x222, .f32⟩) main_v72) (StableHlo.TRef.of (T := ⟨S50000x222, .f32⟩) main_call0_v4) select,
    StableHlo.TRef.unary (StableHlo.TRef.of (T := ⟨S50000x222, .f32⟩) main_call0_v4) (StableHlo.TRef.of (T := ⟨S50000x222, .f32⟩) main_call0_v5) Host.expm1,
    StableHlo.TRef.nullary (StableHlo.TRef.of (T := ⟨S_, .f32⟩) main_call0_cst_2) (constant S_ .f32 0x3F800000#32),
    StableHlo.TRef.unary (StableHlo.TRef.of (T := ⟨S_, .f32⟩) main_call0_cst_2) (StableHlo.TRef.of (T := ⟨S50000x222, .f32⟩) main_call0_v6) (broadcastInDim S50000x222 ![] bcast_S_S50000x222),
    StableHlo.TRef.binary (StableHlo.TRef.of (T := ⟨S50000x222, .f32⟩) main_call0_v6) (StableHlo.TRef.of (T := ⟨S50000x222, .f32⟩) main_call0_v5) (StableHlo.TRef.of (T := ⟨S50000x222, .f32⟩) main_call0_v7) mulf,
    StableHlo.TRef.ternary (StableHlo.TRef.of (T := ⟨S50000x222, .i1⟩) main_call0_v1) (StableHlo.TRef.of (T := ⟨S50000x222, .f32⟩) main_v72) (StableHlo.TRef.of (T := ⟨S50000x222, .f32⟩) main_call0_v7) (StableHlo.TRef.of (T := ⟨S50000x222, .f32⟩) main_v73) select,
    StableHlo.binary main_v73 main_arg11 main_v74 ((fun l r => Host.dotGeneral dot_S50000x222_S222x222_S50000x222_1_0_0_1_n_n none l r) : (⟨S50000x222, .f32⟩ : BufTy).Contents (Elt F) → (⟨S222x222, .f32⟩ : BufTy).Contents (Elt F) → (⟨S50000x222, .f32⟩ : BufTy).Contents (Elt F)) ]
/-- The references those operations write, in order. -/
abbrev q3_W : List (Ref sig .tc) :=
  [main_v70, main_v71, main_v72, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v73, main_v74]

/-- Statements 94 … 120 of the program (a call's statements in its place): 27 operations. -/
abbrev q4 : List (HloOp τ sig (Elt F)) :=
  [ StableHlo.nullary main_cst_16 (constant S_ .f32 0x00000000#32),
    StableHlo.unary main_cst_16 main_v75 (broadcastInDim S50000 ![] bcast_S_S50000 : (⟨S_, .f32⟩ : BufTy).Contents (Elt F) → (⟨S50000, .f32⟩ : BufTy).Contents (Elt F)),
    StableHlo.nullary main_c_17 (constantI S_ 32 0#32),
    StableHlo.unary main_c_17 main_v76 (broadcastInDim S410000 ![] bcast_S_S410000 : (⟨S_, .i32⟩ : BufTy).Contents (Elt F) → (⟨S410000, .i32⟩ : BufTy).Contents (Elt F)),
    StableHlo.binary main_v28 main_v76 main_v77 (cmpi .slt : (⟨S410000, .i32⟩ : BufTy).Contents (Elt F) → (⟨S410000, .i32⟩ : BufTy).Contents (Elt F) → (⟨S410000, .i1⟩ : BufTy).Contents (Elt F)),
    StableHlo.nullary main_c_18 (constantI S_ 32 50000#32),
    StableHlo.unary main_c_18 main_v78 (broadcastInDim S410000 ![] bcast_S_S410000 : (⟨S_, .i32⟩ : BufTy).Contents (Elt F) → (⟨S410000, .i32⟩ : BufTy).Contents (Elt F)),
    StableHlo.binary main_v28 main_v78 main_v79 (addi : (⟨S410000, .i32⟩ : BufTy).Contents (Elt F) → (⟨S410000, .i32⟩ : BufTy).Contents (Elt F) → (⟨S410000, .i32⟩ : BufTy).Contents (Elt F)),
    StableHlo.ternary main_v77 main_v79 main_v28 main_v80 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v80 main_v81 (broadcastInDim S410000x1 ![0] bcast_S410000_S410000x1_0 : (⟨S410000, .i32⟩ : BufTy).Contents (Elt F) → (⟨S410000x1, .i32⟩ : BufTy).Contents (Elt F)),
    StableHlo.nullary main_cst_19 (constant S_ .f32 0x3F800000#32),
    StableHlo.unary main_cst_19 main_v82 (broadcastInDim S410000 ![] bcast_S_S410000 : (⟨S_, .f32⟩ : BufTy).Contents (Elt F) → (⟨S410000, .f32⟩ : BufTy).Contents (Elt F)),
    StableHlo.ternary main_v75 main_v81 main_v82 main_v83 ((fun x i u => Host.scatterAdd scatter_S50000_S410000x1_S410000_n_0_0_1 x i u) : (⟨S50000, .f32⟩ : BufTy).Contents (Elt F) → (⟨S410000x1, .i32⟩ : BufTy).Contents (Elt F) → (⟨S410000, .f32⟩ : BufTy).Contents (Elt F) → (⟨S50000, .f32⟩ : BufTy).Contents (Elt F)),
    StableHlo.nullary main_cst_20 (constant S_ .f32 0x3F800000#32),
    StableHlo.unary main_cst_20 main_v84 (broadcastInDim S50000 ![] bcast_S_S50000 : (⟨S_, .f32⟩ : BufTy).Contents (Elt F) → (⟨S50000, .f32⟩ : BufTy).Contents (Elt F)),
    StableHlo.binary main_v83 main_v84 main_v85 (maximumf : (⟨S50000, .f32⟩ : BufTy).Contents (Elt F) → (⟨S50000, .f32⟩ : BufTy).Contents (Elt F) → (⟨S50000, .f32⟩ : BufTy).Contents (Elt F)),
    StableHlo.unary main_v85 main_v86 (Host.rsqrt : (⟨S50000, .f32⟩ : BufTy).Contents (Elt F) → (⟨S50000, .f32⟩ : BufTy).Contents (Elt F)),
    StableHlo.nullary main_c_21 (constantI S_ 32 0#32),
    StableHlo.unary main_c_21 main_v87 (broadcastInDim S410000 ![] bcast_S_S410000 : (⟨S_, .i32⟩ : BufTy).Contents (Elt F) → (⟨S410000, .i32⟩ : BufTy).Contents (Elt F)),
    StableHlo.binary main_v25 main_v87 main_v88 (cmpi .slt : (⟨S410000, .i32⟩ : BufTy).Contents (Elt F) → (⟨S410000, .i32⟩ : BufTy).Contents (Elt F) → (⟨S410000, .i1⟩ : BufTy).Contents (Elt F)),
    StableHlo.nullary main_c_22 (constantI S_ 32 50000#32),
    StableHlo.unary main_c_22 main_v89 (broadcastInDim S410000 ![] bcast_S_S410000 : (⟨S_, .i32⟩ : BufTy).Contents (Elt F) → (⟨S410000, .i32⟩ : BufTy).Contents (Elt F)),
    StableHlo.binary main_v25 main_v89 main_v90 (addi : (⟨S410000, .i32⟩ : BufTy).Contents (Elt F) → (⟨S410000, .i32⟩ : BufTy).Contents (Elt F) → (⟨S410000, .i32⟩ : BufTy).Contents (Elt F)),
    StableHlo.ternary main_v88 main_v90 main_v25 main_v91 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v91 main_v92 (broadcastInDim S410000x1 ![0] bcast_S410000_S410000x1_0 : (⟨S410000, .i32⟩ : BufTy).Contents (Elt F) → (⟨S410000x1, .i32⟩ : BufTy).Contents (Elt F)),
    StableHlo.binary main_v86 main_v92 main_v93 ((fun x i => Host.gather gather_S50000_S410000x1_S410000_n_0_n_n_0_1_1 x i) : (⟨S50000, .f32⟩ : BufTy).Contents (Elt F) → (⟨S410000x1, .i32⟩ : BufTy).Contents (Elt F) → (⟨S410000, .f32⟩ : BufTy).Contents (Elt F)),
    StableHlo.nullary main_c_23 (constantI S_ 32 0#32) ]
/-- The references those operations write, in order. -/
abbrev q4_W : List (Ref sig .tc) :=
  [main_cst_16, main_v75, main_c_17, main_v76, main_v77, main_c_18, main_v78, main_v79, main_v80, main_v81, main_cst_19, main_v82, main_v83, main_cst_20, main_v84, main_v85, main_v86, main_c_21, main_v87, main_v88, main_c_22, main_v89, main_v90, main_v91, main_v92, main_v93, main_c_23]

/-- Statements 121 … 145 of the program (a call's statements in its place): 25 operations. -/
abbrev q5 : List (HloOp τ sig (Elt F)) :=
  [ StableHlo.unary main_c_23 main_v94 (broadcastInDim S410000 ![] bcast_S_S410000 : (⟨S_, .i32⟩ : BufTy).Contents (Elt F) → (⟨S410000, .i32⟩ : BufTy).Contents (Elt F)),
    StableHlo.binary main_v28 main_v94 main_v95 (cmpi .slt : (⟨S410000, .i32⟩ : BufTy).Contents (Elt F) → (⟨S410000, .i32⟩ : BufTy).Contents (Elt F) → (⟨S410000, .i1⟩ : BufTy).Contents (Elt F)),
    StableHlo.nullary main_c_24 (constantI S_ 32 50000#32),
    StableHlo.unary main_c_24 main_v96 (broadcastInDim S410000 ![] bcast_S_S410000 : (⟨S_, .i32⟩ : BufTy).Contents (Elt F) → (⟨S410000, .i32⟩ : BufTy).Contents (Elt F)),
    StableHlo.binary main_v28 main_v96 main_v97 (addi : (⟨S410000, .i32⟩ : BufTy).Contents (Elt F) → (⟨S410000, .i32⟩ : BufTy).Contents (Elt F) → (⟨S410000, .i32⟩ : BufTy).Contents (Elt F)),
    StableHlo.ternary main_v95 main_v97 main_v28 main_v98 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v98 main_v99 (broadcastInDim S410000x1 ![0] bcast_S410000_S410000x1_0 : (⟨S410000, .i32⟩ : BufTy).Contents (Elt F) → (⟨S410000x1, .i32⟩ : BufTy).Contents (Elt F)),
    StableHlo.binary main_v86 main_v99 main_v100 ((fun x i => Host.gather gather_S50000_S410000x1_S410000_n_0_n_n_0_1_1 x i) : (⟨S50000, .f32⟩ : BufTy).Contents (Elt F) → (⟨S410000x1, .i32⟩ : BufTy).Contents (Elt F) → (⟨S410000, .f32⟩ : BufTy).Contents (Elt F)),
    StableHlo.binary main_v93 main_v100 main_v101 (mulf : (⟨S410000, .f32⟩ : BufTy).Contents (Elt F) → (⟨S410000, .f32⟩ : BufTy).Contents (Elt F) → (⟨S410000, .f32⟩ : BufTy).Contents (Elt F)),
    StableHlo.unary main_v101 main_v102 (broadcastInDim S410000x1 ![0] bcast_S410000_S410000x1_0 : (⟨S410000, .f32⟩ : BufTy).Contents (Elt F) → (⟨S410000x1, .f32⟩ : BufTy).Contents (Elt F)),
    StableHlo.nullary main_c_25 (constantI S_ 32 0#32),
    StableHlo.unary main_c_25 main_v103 (broadcastInDim S410000 ![] bcast_S_S410000 : (⟨S_, .i32⟩ : BufTy).Contents (Elt F) → (⟨S410000, .i32⟩ : BufTy).Contents (Elt F)),
    StableHlo.binary main_v25 main_v103 main_v104 (cmpi .slt : (⟨S410000, .i32⟩ : BufTy).Contents (Elt F) → (⟨S410000, .i32⟩ : BufTy).Contents (Elt F) → (⟨S410000, .i1⟩ : BufTy).Contents (Elt F)),
    StableHlo.nullary main_c_26 (constantI S_ 32 50000#32),
    StableHlo.unary main_c_26 main_v105 (broadcastInDim S410000 ![] bcast_S_S410000 : (⟨S_, .i32⟩ : BufTy).Contents (Elt F) → (⟨S410000, .i32⟩ : BufTy).Contents (Elt F)),
    StableHlo.binary main_v25 main_v105 main_v106 (addi : (⟨S410000, .i32⟩ : BufTy).Contents (Elt F) → (⟨S410000, .i32⟩ : BufTy).Contents (Elt F) → (⟨S410000, .i32⟩ : BufTy).Contents (Elt F)),
    StableHlo.ternary main_v104 main_v106 main_v25 main_v107 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v107 main_v108 (broadcastInDim S410000x1 ![0] bcast_S410000_S410000x1_0 : (⟨S410000, .i32⟩ : BufTy).Contents (Elt F) → (⟨S410000x1, .i32⟩ : BufTy).Contents (Elt F)),
    StableHlo.binary main_v74 main_v108 main_v109 ((fun x i => Host.gather gather_S50000x222_S410000x1_S410000x222_1_0_n_n_0_1_1222 x i) : (⟨S50000x222, .f32⟩ : BufTy).Contents (Elt F) → (⟨S410000x1, .i32⟩ : BufTy).Contents (Elt F) → (⟨S410000x222, .f32⟩ : BufTy).Contents (Elt F)),
    StableHlo.unary main_v102 main_v110 (broadcastInDim S410000x222 ![0, 1] bcast_S410000x1_S410000x222_0_1 : (⟨S410000x1, .f32⟩ : BufTy).Contents (Elt F) → (⟨S410000x222, .f32⟩ : BufTy).Contents (Elt F)),
    StableHlo.binary main_v109 main_v110 main_v111 (mulf : (⟨S410000x222, .f32⟩ : BufTy).Contents (Elt F) → (⟨S410000x222, .f32⟩ : BufTy).Contents (Elt F) → (⟨S410000x222, .f32⟩ : BufTy).Contents (Elt F)),
    StableHlo.nullary main_cst_27 (constant S_ .f32 0x00000000#32),
    StableHlo.unary main_cst_27 main_v112 (broadcastInDim S50000x222 ![] bcast_S_S50000x222 : (⟨S_, .f32⟩ : BufTy).Contents (Elt F) → (⟨S50000x222, .f32⟩ : BufTy).Contents (Elt F)),
    StableHlo.unary main_v28 main_v113 (broadcastInDim S410000x1 ![0] bcast_S410000_S410000x1_0 : (⟨S410000, .i32⟩ : BufTy).Contents (Elt F) → (⟨S410000x1, .i32⟩ : BufTy).Contents (Elt F)),
    StableHlo.ternary main_v112 main_v113 main_v111 main_v114 ((fun x i u => Host.scatterAdd scatter_S50000x222_S410000x1_S410000x222_1_0_0_1 x i u) : (⟨S50000x222, .f32⟩ : BufTy).Contents (Elt F) → (⟨S410000x1, .i32⟩ : BufTy).Contents (Elt F) → (⟨S410000x222, .f32⟩ : BufTy).Contents (Elt F) → (⟨S50000x222, .f32⟩ : BufTy).Contents (Elt F)) ]
/-- The references those operations write, in order. -/
abbrev q5_W : List (Ref sig .tc) :=
  [main_v94, main_v95, main_c_24, main_v96, main_v97, main_v98, main_v99, main_v100, main_v101, main_v102, main_c_25, main_v103, main_v104, main_c_26, main_v105, main_v106, main_v107, main_v108, main_v109, main_v110, main_v111, main_cst_27, main_v112, main_v113, main_v114]

/-- Statements 146 … 150 of the program (a call's statements in its place): 19 operations. -/
abbrev q6 : List (HloOp τ sig (Elt F)) :=
  [ StableHlo.unary main_arg12 main_v115 (broadcastInDim S1x222 ![1] bcast_S222_S1x222_1 : (⟨S222, .f32⟩ : BufTy).Contents (Elt F) → (⟨S1x222, .f32⟩ : BufTy).Contents (Elt F)),
    StableHlo.unary main_v115 main_v116 (broadcastInDim S50000x222 ![0, 1] bcast_S1x222_S50000x222_0_1 : (⟨S1x222, .f32⟩ : BufTy).Contents (Elt F) → (⟨S50000x222, .f32⟩ : BufTy).Contents (Elt F)),
    StableHlo.binary main_v114 main_v116 main_v117 (addf : (⟨S50000x222, .f32⟩ : BufTy).Contents (Elt F) → (⟨S50000x222, .f32⟩ : BufTy).Contents (Elt F) → (⟨S50000x222, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S50000x222, .f32⟩) main_call1_v0) (broadcastInDim S50000x222 ![] bcast_S_S50000x222),
    StableHlo.TRef.binary (StableHlo.TRef.of (T := ⟨S50000x222, .f32⟩) main_v117) (StableHlo.TRef.of (T := ⟨S50000x222, .f32⟩) main_call1_v0) (StableHlo.TRef.of (T := ⟨S50000x222, .i1⟩) main_call1_v1) (cmpf .ogt),
    StableHlo.TRef.nullary (StableHlo.TRef.of (T := ⟨S_, .f32⟩) main_call1_cst_0) (constant S_ .f32 0x00000000#32),
    StableHlo.TRef.unary (StableHlo.TRef.of (T := ⟨S_, .f32⟩) main_call1_cst_0) (StableHlo.TRef.of (T := ⟨S50000x222, .f32⟩) main_call1_v2) (broadcastInDim S50000x222 ![] bcast_S_S50000x222),
    StableHlo.TRef.binary (StableHlo.TRef.of (T := ⟨S50000x222, .f32⟩) main_v117) (StableHlo.TRef.of (T := ⟨S50000x222, .f32⟩) main_call1_v2) (StableHlo.TRef.of (T := ⟨S50000x222, .i1⟩) main_call1_v3) (cmpf .ogt),
    StableHlo.TRef.nullary (StableHlo.TRef.of (T := ⟨S_, .f32⟩) main_call1_cst_1) (constant S_ .f32 0x00000000#32),
    StableHlo.TRef.unary (StableHlo.TRef.of (T := ⟨S_, .f32⟩) main_call1_cst_1) (StableHlo.TRef.of (T := ⟨S_, .f32⟩) main_call1_call0_v0) id,
    StableHlo.TRef.unary (StableHlo.TRef.of (T := ⟨S_, .f32⟩) main_call1_call0_v0) (StableHlo.TRef.of (T := ⟨S50000x222, .f32⟩) main_call1_call0_v1) (broadcastInDim S50000x222 ![] bcast_S_S50000x222),
    StableHlo.TRef.ternary (StableHlo.TRef.of (T := ⟨S50000x222, .i1⟩) main_call1_v3) (StableHlo.TRef.of (T := ⟨S50000x222, .f32⟩) main_call1_call0_v1) (StableHlo.TRef.of (T := ⟨S50000x222, .f32⟩) main_v117) (StableHlo.TRef.of (T := ⟨S50000x222, .f32⟩) main_call1_v4) select,
    StableHlo.TRef.unary (StableHlo.TRef.of (T := ⟨S50000x222, .f32⟩) main_call1_v4) (StableHlo.TRef.of (T := ⟨S50000x222, .f32⟩) main_call1_v5) Host.expm1,
    StableHlo.TRef.nullary (StableHlo.TRef.of (T := ⟨S_, .f32⟩) main_call1_cst_2) (constant S_ .f32 0x3F800000#32),
    StableHlo.TRef.unary (StableHlo.TRef.of (T := ⟨S_, .f32⟩) main_call1_cst_2) (StableHlo.TRef.of (T := ⟨S50000x222, .f32⟩) main_call1_v6) (broadcastInDim S50000x222 ![] bcast_S_S50000x222),
    StableHlo.TRef.binary (StableHlo.TRef.of (T := ⟨S50000x222, .f32⟩) main_call1_v6) (StableHlo.TRef.of (T := ⟨S50000x222, .f32⟩) main_call1_v5) (StableHlo.TRef.of (T := ⟨S50000x222, .f32⟩) main_call1_v7) mulf,
    StableHlo.TRef.ternary (StableHlo.TRef.of (T := ⟨S50000x222, .i1⟩) main_call1_v1) (StableHlo.TRef.of (T := ⟨S50000x222, .f32⟩) main_v117) (StableHlo.TRef.of (T := ⟨S50000x222, .f32⟩) main_call1_v7) (StableHlo.TRef.of (T := ⟨S50000x222, .f32⟩) main_v118) select,
    StableHlo.binary main_v118 main_arg13 main_v119 ((fun l r => Host.dotGeneral dot_S50000x222_S222x222_S50000x222_1_0_0_1_n_n none l r) : (⟨S50000x222, .f32⟩ : BufTy).Contents (Elt F) → (⟨S222x222, .f32⟩ : BufTy).Contents (Elt F) → (⟨S50000x222, .f32⟩ : BufTy).Contents (Elt F)) ]
/-- The references those operations write, in order. -/
abbrev q6_W : List (Ref sig .tc) :=
  [main_v115, main_v116, main_v117, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v118, main_v119]

/-- Statements 151 … 180 of the program (a call's statements in its place): 30 operations. -/
abbrev q7 : List (HloOp τ sig (Elt F)) :=
  [ StableHlo.nullary main_cst_28 (constant S_ .f32 0x00000000#32),
    StableHlo.unary main_cst_28 main_v120 (broadcastInDim S50000 ![] bcast_S_S50000 : (⟨S_, .f32⟩ : BufTy).Contents (Elt F) → (⟨S50000, .f32⟩ : BufTy).Contents (Elt F)),
    StableHlo.nullary main_c_29 (constantI S_ 32 0#32),
    StableHlo.unary main_c_29 main_v121 (broadcastInDim S410000 ![] bcast_S_S410000 : (⟨S_, .i32⟩ : BufTy).Contents (Elt F) → (⟨S410000, .i32⟩ : BufTy).Contents (Elt F)),
    StableHlo.binary main_v28 main_v121 main_v122 (cmpi .slt : (⟨S410000, .i32⟩ : BufTy).Contents (Elt F) → (⟨S410000, .i32⟩ : BufTy).Contents (Elt F) → (⟨S410000, .i1⟩ : BufTy).Contents (Elt F)),
    StableHlo.nullary main_c_30 (constantI S_ 32 50000#32),
    StableHlo.unary main_c_30 main_v123 (broadcastInDim S410000 ![] bcast_S_S410000 : (⟨S_, .i32⟩ : BufTy).Contents (Elt F) → (⟨S410000, .i32⟩ : BufTy).Contents (Elt F)),
    StableHlo.binary main_v28 main_v123 main_v124 (addi : (⟨S410000, .i32⟩ : BufTy).Contents (Elt F) → (⟨S410000, .i32⟩ : BufTy).Contents (Elt F) → (⟨S410000, .i32⟩ : BufTy).Contents (Elt F)),
    StableHlo.ternary main_v122 main_v124 main_v28 main_v125 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v125 main_v126 (broadcastInDim S410000x1 ![0] bcast_S410000_S410000x1_0 : (⟨S410000, .i32⟩ : BufTy).Contents (Elt F) → (⟨S410000x1, .i32⟩ : BufTy).Contents (Elt F)),
    StableHlo.nullary main_cst_31 (constant S_ .f32 0x3F800000#32),
    StableHlo.unary main_cst_31 main_v127 (broadcastInDim S410000 ![] bcast_S_S410000 : (⟨S_, .f32⟩ : BufTy).Contents (Elt F) → (⟨S410000, .f32⟩ : BufTy).Contents (Elt F)),
    StableHlo.ternary main_v120 main_v126 main_v127 main_v128 ((fun x i u => Host.scatterAdd scatter_S50000_S410000x1_S410000_n_0_0_1 x i u) : (⟨S50000, .f32⟩ : BufTy).Contents (Elt F) → (⟨S410000x1, .i32⟩ : BufTy).Contents (Elt F) → (⟨S410000, .f32⟩ : BufTy).Contents (Elt F) → (⟨S50000, .f32⟩ : BufTy).Contents (Elt F)),
    StableHlo.nullary main_cst_32 (constant S_ .f32 0x3F800000#32),
    StableHlo.unary main_cst_32 main_v129 (broadcastInDim S50000 ![] bcast_S_S50000 : (⟨S_, .f32⟩ : BufTy).Contents (Elt F) → (⟨S50000, .f32⟩ : BufTy).Contents (Elt F)),
    StableHlo.binary main_v128 main_v129 main_v130 (maximumf : (⟨S50000, .f32⟩ : BufTy).Contents (Elt F) → (⟨S50000, .f32⟩ : BufTy).Contents (Elt F) → (⟨S50000, .f32⟩ : BufTy).Contents (Elt F)),
    StableHlo.unary main_v130 main_v131 (Host.rsqrt : (⟨S50000, .f32⟩ : BufTy).Contents (Elt F) → (⟨S50000, .f32⟩ : BufTy).Contents (Elt F)),
    StableHlo.nullary main_c_33 (constantI S_ 32 0#32),
    StableHlo.unary main_c_33 main_v132 (broadcastInDim S410000 ![] bcast_S_S410000 : (⟨S_, .i32⟩ : BufTy).Contents (Elt F) → (⟨S410000, .i32⟩ : BufTy).Contents (Elt F)),
    StableHlo.binary main_v25 main_v132 main_v133 (cmpi .slt : (⟨S410000, .i32⟩ : BufTy).Contents (Elt F) → (⟨S410000, .i32⟩ : BufTy).Contents (Elt F) → (⟨S410000, .i1⟩ : BufTy).Contents (Elt F)),
    StableHlo.nullary main_c_34 (constantI S_ 32 50000#32),
    StableHlo.unary main_c_34 main_v134 (broadcastInDim S410000 ![] bcast_S_S410000 : (⟨S_, .i32⟩ : BufTy).Contents (Elt F) → (⟨S410000, .i32⟩ : BufTy).Contents (Elt F)),
    StableHlo.binary main_v25 main_v134 main_v135 (addi : (⟨S410000, .i32⟩ : BufTy).Contents (Elt F) → (⟨S410000, .i32⟩ : BufTy).Contents (Elt F) → (⟨S410000, .i32⟩ : BufTy).Contents (Elt F)),
    StableHlo.ternary main_v133 main_v135 main_v25 main_v136 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v136 main_v137 (broadcastInDim S410000x1 ![0] bcast_S410000_S410000x1_0 : (⟨S410000, .i32⟩ : BufTy).Contents (Elt F) → (⟨S410000x1, .i32⟩ : BufTy).Contents (Elt F)),
    StableHlo.binary main_v131 main_v137 main_v138 ((fun x i => Host.gather gather_S50000_S410000x1_S410000_n_0_n_n_0_1_1 x i) : (⟨S50000, .f32⟩ : BufTy).Contents (Elt F) → (⟨S410000x1, .i32⟩ : BufTy).Contents (Elt F) → (⟨S410000, .f32⟩ : BufTy).Contents (Elt F)),
    StableHlo.nullary main_c_35 (constantI S_ 32 0#32),
    StableHlo.unary main_c_35 main_v139 (broadcastInDim S410000 ![] bcast_S_S410000 : (⟨S_, .i32⟩ : BufTy).Contents (Elt F) → (⟨S410000, .i32⟩ : BufTy).Contents (Elt F)),
    StableHlo.binary main_v28 main_v139 main_v140 (cmpi .slt : (⟨S410000, .i32⟩ : BufTy).Contents (Elt F) → (⟨S410000, .i32⟩ : BufTy).Contents (Elt F) → (⟨S410000, .i1⟩ : BufTy).Contents (Elt F)),
    StableHlo.nullary main_c_36 (constantI S_ 32 50000#32) ]
/-- The references those operations write, in order. -/
abbrev q7_W : List (Ref sig .tc) :=
  [main_cst_28, main_v120, main_c_29, main_v121, main_v122, main_c_30, main_v123, main_v124, main_v125, main_v126, main_cst_31, main_v127, main_v128, main_cst_32, main_v129, main_v130, main_v131, main_c_33, main_v132, main_v133, main_c_34, main_v134, main_v135, main_v136, main_v137, main_v138, main_c_35, main_v139, main_v140, main_c_36]

/-- Statements 181 … 202 of the program (a call's statements in its place): 22 operations. -/
abbrev q8 : List (HloOp τ sig (Elt F)) :=
  [ StableHlo.unary main_c_36 main_v141 (broadcastInDim S410000 ![] bcast_S_S410000 : (⟨S_, .i32⟩ : BufTy).Contents (Elt F) → (⟨S410000, .i32⟩ : BufTy).Contents (Elt F)),
    StableHlo.binary main_v28 main_v141 main_v142 (addi : (⟨S410000, .i32⟩ : BufTy).Contents (Elt F) → (⟨S410000, .i32⟩ : BufTy).Contents (Elt F) → (⟨S410000, .i32⟩ : BufTy).Contents (Elt F)),
    StableHlo.ternary main_v140 main_v142 main_v28 main_v143 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v143 main_v144 (broadcastInDim S410000x1 ![0] bcast_S410000_S410000x1_0 : (⟨S410000, .i32⟩ : BufTy).Contents (Elt F) → (⟨S410000x1, .i32⟩ : BufTy).Contents (Elt F)),
    StableHlo.binary main_v131 main_v144 main_v145 ((fun x i => Host.gather gather_S50000_S410000x1_S410000_n_0_n_n_0_1_1 x i) : (⟨S50000, .f32⟩ : BufTy).Contents (Elt F) → (⟨S410000x1, .i32⟩ : BufTy).Contents (Elt F) → (⟨S410000, .f32⟩ : BufTy).Contents (Elt F)),
    StableHlo.binary main_v138 main_v145 main_v146 (mulf : (⟨S410000, .f32⟩ : BufTy).Contents (Elt F) → (⟨S410000, .f32⟩ : BufTy).Contents (Elt F) → (⟨S410000, .f32⟩ : BufTy).Contents (Elt F)),
    StableHlo.unary main_v146 main_v147 (broadcastInDim S410000x1 ![0] bcast_S410000_S410000x1_0 : (⟨S410000, .f32⟩ : BufTy).Contents (Elt F) → (⟨S410000x1, .f32⟩ : BufTy).Contents (Elt F)),
    StableHlo.nullary main_c_37 (constantI S_ 32 0#32),
    StableHlo.unary main_c_37 main_v148 (broadcastInDim S410000 ![] bcast_S_S410000 : (⟨S_, .i32⟩ : BufTy).Contents (Elt F) → (⟨S410000, .i32⟩ : BufTy).Contents (Elt F)),
    StableHlo.binary main_v25 main_v148 main_v149 (cmpi .slt : (⟨S410000, .i32⟩ : BufTy).Contents (Elt F) → (⟨S410000, .i32⟩ : BufTy).Contents (Elt F) → (⟨S410000, .i1⟩ : BufTy).Contents (Elt F)),
    StableHlo.nullary main_c_38 (constantI S_ 32 50000#32),
    StableHlo.unary main_c_38 main_v150 (broadcastInDim S410000 ![] bcast_S_S410000 : (⟨S_, .i32⟩ : BufTy).Contents (Elt F) → (⟨S410000, .i32⟩ : BufTy).Contents (Elt F)),
    StableHlo.binary main_v25 main_v150 main_v151 (addi : (⟨S410000, .i32⟩ : BufTy).Contents (Elt F) → (⟨S410000, .i32⟩ : BufTy).Contents (Elt F) → (⟨S410000, .i32⟩ : BufTy).Contents (Elt F)),
    StableHlo.ternary main_v149 main_v151 main_v25 main_v152 (select : (⟨S410000, .i1⟩ : BufTy).Contents (Elt F) → (⟨S410000, .i32⟩ : BufTy).Contents (Elt F) → (⟨S410000, .i32⟩ : BufTy).Contents (Elt F) → (⟨S410000, .i32⟩ : BufTy).Contents (Elt F)),
    StableHlo.unary main_v152 main_v153 (broadcastInDim S410000x1 ![0] bcast_S410000_S410000x1_0 : (⟨S410000, .i32⟩ : BufTy).Contents (Elt F) → (⟨S410000x1, .i32⟩ : BufTy).Contents (Elt F)),
    StableHlo.binary main_v119 main_v153 main_v154 ((fun x i => Host.gather gather_S50000x222_S410000x1_S410000x222_1_0_n_n_0_1_1222 x i) : (⟨S50000x222, .f32⟩ : BufTy).Contents (Elt F) → (⟨S410000x1, .i32⟩ : BufTy).Contents (Elt F) → (⟨S410000x222, .f32⟩ : BufTy).Contents (Elt F)),
    StableHlo.unary main_v147 main_v155 (broadcastInDim S410000x222 ![0, 1] bcast_S410000x1_S410000x222_0_1 : (⟨S410000x1, .f32⟩ : BufTy).Contents (Elt F) → (⟨S410000x222, .f32⟩ : BufTy).Contents (Elt F)),
    StableHlo.binary main_v154 main_v155 main_v156 (mulf : (⟨S410000x222, .f32⟩ : BufTy).Contents (Elt F) → (⟨S410000x222, .f32⟩ : BufTy).Contents (Elt F) → (⟨S410000x222, .f32⟩ : BufTy).Contents (Elt F)),
    StableHlo.nullary main_cst_39 (constant S_ .f32 0x00000000#32),
    StableHlo.unary main_cst_39 main_v157 (broadcastInDim S50000x222 ![] bcast_S_S50000x222 : (⟨S_, .f32⟩ : BufTy).Contents (Elt F) → (⟨S50000x222, .f32⟩ : BufTy).Contents (Elt F)),
    StableHlo.unary main_v28 main_v158 (broadcastInDim S410000x1 ![0] bcast_S410000_S410000x1_0 : (⟨S410000, .i32⟩ : BufTy).Contents (Elt F) → (⟨S410000x1, .i32⟩ : BufTy).Contents (Elt F)),
    StableHlo.ternary main_v157 main_v158 main_v156 main_v159 ((fun x i u => Host.scatterAdd scatter_S50000x222_S410000x1_S410000x222_1_0_0_1 x i u) : (⟨S50000x222, .f32⟩ : BufTy).Contents (Elt F) → (⟨S410000x1, .i32⟩ : BufTy).Contents (Elt F) → (⟨S410000x222, .f32⟩ : BufTy).Contents (Elt F) → (⟨S50000x222, .f32⟩ : BufTy).Contents (Elt F)) ]
/-- The references those operations write, in order. -/
abbrev q8_W : List (Ref sig .tc) :=
  [main_v141, main_v142, main_v143, main_v144, main_v145, main_v146, main_v147, main_c_37, main_v148, main_v149, main_c_38, main_v150, main_v151, main_v152, main_v153, main_v154, main_v155, main_v156, main_cst_39, main_v157, main_v158, main_v159]

/-- Statements 203 … 206 of the program (a call's statements in its place): 18 operations. -/
abbrev q9 : List (HloOp τ sig (Elt F)) :=
  [ StableHlo.unary main_arg14 main_v160 (broadcastInDim S1x222 ![1] bcast_S222_S1x222_1 : (⟨S222, .f32⟩ : BufTy).Contents (Elt F) → (⟨S1x222, .f32⟩ : BufTy).Contents (Elt F)),
    StableHlo.unary main_v160 main_v161 (broadcastInDim S50000x222 ![0, 1] bcast_S1x222_S50000x222_0_1 : (⟨S1x222, .f32⟩ : BufTy).Contents (Elt F) → (⟨S50000x222, .f32⟩ : BufTy).Contents (Elt F)),
    StableHlo.binary main_v159 main_v161 main_v162 (addf : (⟨S50000x222, .f32⟩ : BufTy).Contents (Elt F) → (⟨S50000x222, .f32⟩ : BufTy).Contents (Elt F) → (⟨S50000x222, .f32⟩ : BufTy).Contents (Elt F)),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S50000x222, .f32⟩) main_call2_v0) (broadcastInDim S50000x222 ![] bcast_S_S50000x222),
    StableHlo.TRef.binary (StableHlo.TRef.of (T := ⟨S50000x222, .f32⟩) main_v162) (StableHlo.TRef.of (T := ⟨S50000x222, .f32⟩) main_call2_v0) (StableHlo.TRef.of (T := ⟨S50000x222, .i1⟩) main_call2_v1) (cmpf .ogt),
    StableHlo.TRef.nullary (StableHlo.TRef.of (T := ⟨S_, .f32⟩) main_call2_cst_0) (constant S_ .f32 0x00000000#32),
    StableHlo.TRef.unary (StableHlo.TRef.of (T := ⟨S_, .f32⟩) main_call2_cst_0) (StableHlo.TRef.of (T := ⟨S50000x222, .f32⟩) main_call2_v2) (broadcastInDim S50000x222 ![] bcast_S_S50000x222),
    StableHlo.TRef.binary (StableHlo.TRef.of (T := ⟨S50000x222, .f32⟩) main_v162) (StableHlo.TRef.of (T := ⟨S50000x222, .f32⟩) main_call2_v2) (StableHlo.TRef.of (T := ⟨S50000x222, .i1⟩) main_call2_v3) (cmpf .ogt),
    StableHlo.TRef.nullary (StableHlo.TRef.of (T := ⟨S_, .f32⟩) main_call2_cst_1) (constant S_ .f32 0x00000000#32),
    StableHlo.TRef.unary (StableHlo.TRef.of (T := ⟨S_, .f32⟩) main_call2_cst_1) (StableHlo.TRef.of (T := ⟨S_, .f32⟩) main_call2_call0_v0) id,
    StableHlo.TRef.unary (StableHlo.TRef.of (T := ⟨S_, .f32⟩) main_call2_call0_v0) (StableHlo.TRef.of (T := ⟨S50000x222, .f32⟩) main_call2_call0_v1) (broadcastInDim S50000x222 ![] bcast_S_S50000x222),
    StableHlo.TRef.ternary (StableHlo.TRef.of (T := ⟨S50000x222, .i1⟩) main_call2_v3) (StableHlo.TRef.of (T := ⟨S50000x222, .f32⟩) main_call2_call0_v1) (StableHlo.TRef.of (T := ⟨S50000x222, .f32⟩) main_v162) (StableHlo.TRef.of (T := ⟨S50000x222, .f32⟩) main_call2_v4) select,
    StableHlo.TRef.unary (StableHlo.TRef.of (T := ⟨S50000x222, .f32⟩) main_call2_v4) (StableHlo.TRef.of (T := ⟨S50000x222, .f32⟩) main_call2_v5) Host.expm1,
    StableHlo.TRef.nullary (StableHlo.TRef.of (T := ⟨S_, .f32⟩) main_call2_cst_2) (constant S_ .f32 0x3F800000#32),
    StableHlo.TRef.unary (StableHlo.TRef.of (T := ⟨S_, .f32⟩) main_call2_cst_2) (StableHlo.TRef.of (T := ⟨S50000x222, .f32⟩) main_call2_v6) (broadcastInDim S50000x222 ![] bcast_S_S50000x222),
    StableHlo.TRef.binary (StableHlo.TRef.of (T := ⟨S50000x222, .f32⟩) main_call2_v6) (StableHlo.TRef.of (T := ⟨S50000x222, .f32⟩) main_call2_v5) (StableHlo.TRef.of (T := ⟨S50000x222, .f32⟩) main_call2_v7) mulf,
    StableHlo.TRef.ternary (StableHlo.TRef.of (T := ⟨S50000x222, .i1⟩) main_call2_v1) (StableHlo.TRef.of (T := ⟨S50000x222, .f32⟩) main_v162) (StableHlo.TRef.of (T := ⟨S50000x222, .f32⟩) main_call2_v7) (StableHlo.TRef.of (T := ⟨S50000x222, .f32⟩) main_v163) select ]
/-- The references those operations write, in order. -/
abbrev q9_W : List (Ref sig .tc) :=
  [main_v160, main_v161, main_v162, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v163]

/-- Statements 207 … 222 of the program (a call's statements in its place): 16 operations. -/
abbrev q10 : List (HloOp τ sig (Elt F)) :=
  [ StableHlo.nullary main_cst_40 (constant S_ .f32 0x00000000#32),
    StableHlo.unary main_cst_40 main_v164 (broadcastInDim S2000x222 ![] bcast_S_S2000x222 : (⟨S_, .f32⟩ : BufTy).Contents (Elt F) → (⟨S2000x222, .f32⟩ : BufTy).Contents (Elt F)),
    StableHlo.unary main_arg5 main_v165 (broadcastInDim S50000x1 ![0] bcast_S50000_S50000x1_0 : (⟨S50000, .i32⟩ : BufTy).Contents (Elt F) → (⟨S50000x1, .i32⟩ : BufTy).Contents (Elt F)),
    StableHlo.ternary main_v164 main_v165 main_v163 main_v166 ((fun x i u => Host.scatterAdd scatter_S2000x222_S50000x1_S50000x222_1_0_0_1 x i u) : (⟨S2000x222, .f32⟩ : BufTy).Contents (Elt F) → (⟨S50000x1, .i32⟩ : BufTy).Contents (Elt F) → (⟨S50000x222, .f32⟩ : BufTy).Contents (Elt F) → (⟨S2000x222, .f32⟩ : BufTy).Contents (Elt F)),
    StableHlo.nullary main_cst_41 (constant S_ .f32 0x3F800000#32),
    StableHlo.unary main_cst_41 main_v167 (broadcastInDim S50000 ![] bcast_S_S50000 : (⟨S_, .f32⟩ : BufTy).Contents (Elt F) → (⟨S50000, .f32⟩ : BufTy).Contents (Elt F)),
    StableHlo.nullary main_cst_42 (constant S_ .f32 0x00000000#32),
    StableHlo.unary main_cst_42 main_v168 (broadcastInDim S2000 ![] bcast_S_S2000 : (⟨S_, .f32⟩ : BufTy).Contents (Elt F) → (⟨S2000, .f32⟩ : BufTy).Contents (Elt F)),
    StableHlo.unary main_arg5 main_v169 (broadcastInDim S50000x1 ![0] bcast_S50000_S50000x1_0 : (⟨S50000, .i32⟩ : BufTy).Contents (Elt F) → (⟨S50000x1, .i32⟩ : BufTy).Contents (Elt F)),
    StableHlo.ternary main_v168 main_v169 main_v167 main_v170 ((fun x i u => Host.scatterAdd scatter_S2000_S50000x1_S50000_n_0_0_1 x i u) : (⟨S2000, .f32⟩ : BufTy).Contents (Elt F) → (⟨S50000x1, .i32⟩ : BufTy).Contents (Elt F) → (⟨S50000, .f32⟩ : BufTy).Contents (Elt F) → (⟨S2000, .f32⟩ : BufTy).Contents (Elt F)),
    StableHlo.nullary main_cst_43 (constant S_ .f32 0x3F800000#32),
    StableHlo.unary main_cst_43 main_v171 (broadcastInDim S2000 ![] bcast_S_S2000 : (⟨S_, .f32⟩ : BufTy).Contents (Elt F) → (⟨S2000, .f32⟩ : BufTy).Contents (Elt F)),
    StableHlo.binary main_v170 main_v171 main_v172 (maximumf : (⟨S2000, .f32⟩ : BufTy).Contents (Elt F) → (⟨S2000, .f32⟩ : BufTy).Contents (Elt F) → (⟨S2000, .f32⟩ : BufTy).Contents (Elt F)),
    StableHlo.unary main_v172 main_v173 (broadcastInDim S2000x1 ![0] bcast_S2000_S2000x1_0 : (⟨S2000, .f32⟩ : BufTy).Contents (Elt F) → (⟨S2000x1, .f32⟩ : BufTy).Contents (Elt F)),
    StableHlo.unary main_v173 main_v174 (broadcastInDim S2000x222 ![0, 1] bcast_S2000x1_S2000x222_0_1 : (⟨S2000x1, .f32⟩ : BufTy).Contents (Elt F) → (⟨S2000x222, .f32⟩ : BufTy).Contents (Elt F)),
    StableHlo.binary main_v166 main_v174 main_v175 (Host.divf : (⟨S2000x222, .f32⟩ : BufTy).Contents (Elt F) → (⟨S2000x222, .f32⟩ : BufTy).Contents (Elt F) → (⟨S2000x222, .f32⟩ : BufTy).Contents (Elt F)) ]
/-- The references those operations write, in order. -/
abbrev q10_W : List (Ref sig .tc) :=
  [main_cst_40, main_v164, main_v165, main_v166, main_cst_41, main_v167, main_cst_42, main_v168, main_v169, main_v170, main_cst_43, main_v171, main_v172, main_v173, main_v174, main_v175]

/-- Statements 223 … 236 of the program (a call's statements in its place): 42 operations. -/
abbrev q11 : List (HloOp τ sig (Elt F)) :=
  [ StableHlo.binary main_v175 main_arg15 main_v176 ((fun l r => Host.dotGeneral dot_S2000x222_S222x512_S2000x512_1_0_0_1_n_n none l r) : (⟨S2000x222, .f32⟩ : BufTy).Contents (Elt F) → (⟨S222x512, .f32⟩ : BufTy).Contents (Elt F) → (⟨S2000x512, .f32⟩ : BufTy).Contents (Elt F)),
    StableHlo.unary main_arg16 main_v177 (broadcastInDim S1x512 ![1] bcast_S512_S1x512_1 : (⟨S512, .f32⟩ : BufTy).Contents (Elt F) → (⟨S1x512, .f32⟩ : BufTy).Contents (Elt F)),
    StableHlo.unary main_v177 main_v178 (broadcastInDim S2000x512 ![0, 1] bcast_S1x512_S2000x512_0_1 : (⟨S1x512, .f32⟩ : BufTy).Contents (Elt F) → (⟨S2000x512, .f32⟩ : BufTy).Contents (Elt F)),
    StableHlo.binary main_v176 main_v178 main_v179 (addf : (⟨S2000x512, .f32⟩ : BufTy).Contents (Elt F) → (⟨S2000x512, .f32⟩ : BufTy).Contents (Elt F) → (⟨S2000x512, .f32⟩ : BufTy).Contents (Elt F)),
    StableHlo.TRef.nullary (StableHlo.TRef.of (T := ⟨S_, .f32⟩) main_call3_cst) (constant S_ .f32 0x00000000#32),
    StableHlo.TRef.unary (StableHlo.TRef.of (T := ⟨S_, .f32⟩) main_call3_cst) (StableHlo.TRef.of (T := ⟨S2000x512, .f32⟩) main_call3_v0) (broadcastInDim S2000x512 ![] bcast_S_S2000x512),
    StableHlo.TRef.binary (StableHlo.TRef.of (T := ⟨S2000x512, .f32⟩) main_v179) (StableHlo.TRef.of (T := ⟨S2000x512, .f32⟩) main_call3_v0) (StableHlo.TRef.of (T := ⟨S2000x512, .i1⟩) main_call3_v1) (cmpf .ogt),
    StableHlo.TRef.nullary (StableHlo.TRef.of (T := ⟨S_, .f32⟩) main_call3_cst_0) (constant S_ .f32 0x00000000#32),
    StableHlo.TRef.unary (StableHlo.TRef.of (T := ⟨S_, .f32⟩) main_call3_cst_0) (StableHlo.TRef.of (T := ⟨S2000x512, .f32⟩) main_call3_v2) (broadcastInDim S2000x512 ![] bcast_S_S2000x512),
    StableHlo.TRef.binary (StableHlo.TRef.of (T := ⟨S2000x512, .f32⟩) main_v179) (StableHlo.TRef.of (T := ⟨S2000x512, .f32⟩) main_call3_v2) (StableHlo.TRef.of (T := ⟨S2000x512, .i1⟩) main_call3_v3) (cmpf .ogt),
    StableHlo.TRef.nullary (StableHlo.TRef.of (T := ⟨S_, .f32⟩) main_call3_cst_1) (constant S_ .f32 0x00000000#32),
    StableHlo.TRef.unary (StableHlo.TRef.of (T := ⟨S_, .f32⟩) main_call3_cst_1) (StableHlo.TRef.of (T := ⟨S_, .f32⟩) main_call3_call0_v0) id,
    StableHlo.TRef.unary (StableHlo.TRef.of (T := ⟨S_, .f32⟩) main_call3_call0_v0) (StableHlo.TRef.of (T := ⟨S2000x512, .f32⟩) main_call3_call0_v1) (broadcastInDim S2000x512 ![] bcast_S_S2000x512),
    StableHlo.TRef.ternary (StableHlo.TRef.of (T := ⟨S2000x512, .i1⟩) main_call3_v3) (StableHlo.TRef.of (T := ⟨S2000x512, .f32⟩) main_call3_call0_v1) (StableHlo.TRef.of (T := ⟨S2000x512, .f32⟩) main_v179) (StableHlo.TRef.of (T := ⟨S2000x512, .f32⟩) main_call3_v4) select,
    StableHlo.TRef.unary (StableHlo.TRef.of (T := ⟨S2000x512, .f32⟩) main_call3_v4) (StableHlo.TRef.of (T := ⟨S2000x512, .f32⟩) main_call3_v5) Host.expm1,
    StableHlo.TRef.nullary (StableHlo.TRef.of (T := ⟨S_, .f32⟩) main_call3_cst_2) (constant S_ .f32 0x3F800000#32),
    StableHlo.TRef.unary (StableHlo.TRef.of (T := ⟨S_, .f32⟩) main_call3_cst_2) (StableHlo.TRef.of (T := ⟨S2000x512, .f32⟩) main_call3_v6) (broadcastInDim S2000x512 ![] bcast_S_S2000x512),
    StableHlo.TRef.binary (StableHlo.TRef.of (T := ⟨S2000x512, .f32⟩) main_call3_v6) (StableHlo.TRef.of (T := ⟨S2000x512, .f32⟩) main_call3_v5) (StableHlo.TRef.of (T := ⟨S2000x512, .f32⟩) main_call3_v7) mulf,
    StableHlo.TRef.ternary (StableHlo.TRef.of (T := ⟨S2000x512, .i1⟩) main_call3_v1) (StableHlo.TRef.of (T := ⟨S2000x512, .f32⟩) main_v179) (StableHlo.TRef.of (T := ⟨S2000x512, .f32⟩) main_call3_v7) (StableHlo.TRef.of (T := ⟨S2000x512, .f32⟩) main_v180) select,
    StableHlo.binary main_v180 main_arg17 main_v181 ((fun l r => Host.dotGeneral dot_S2000x512_S512x128_S2000x128_1_0_0_1_n_n none l r) : (⟨S2000x512, .f32⟩ : BufTy).Contents (Elt F) → (⟨S512x128, .f32⟩ : BufTy).Contents (Elt F) → (⟨S2000x128, .f32⟩ : BufTy).Contents (Elt F)),
    StableHlo.unary main_arg18 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S2000x128 ![0, 1] bcast_S1x128_S2000x128_0_1 : (⟨S1x128, .f32⟩ : BufTy).Contents (Elt F) → (⟨S2000x128, .f32⟩ : BufTy).Contents (Elt F)),
    StableHlo.binary main_v181 main_v183 main_v184 (addf : (⟨S2000x128, .f32⟩ : BufTy).Contents (Elt F) → (⟨S2000x128, .f32⟩ : BufTy).Contents (Elt F) → (⟨S2000x128, .f32⟩ : BufTy).Contents (Elt F)),
    StableHlo.TRef.nullary (StableHlo.TRef.of (T := ⟨S_, .f32⟩) main_call4_cst) (constant S_ .f32 0x00000000#32),
    StableHlo.TRef.unary (StableHlo.TRef.of (T := ⟨S_, .f32⟩) main_call4_cst) (StableHlo.TRef.of (T := ⟨S2000x128, .f32⟩) main_call4_v0) (broadcastInDim S2000x128 ![] bcast_S_S2000x128),
    StableHlo.TRef.binary (StableHlo.TRef.of (T := ⟨S2000x128, .f32⟩) main_v184) (StableHlo.TRef.of (T := ⟨S2000x128, .f32⟩) main_call4_v0) (StableHlo.TRef.of (T := ⟨S2000x128, .i1⟩) main_call4_v1) (cmpf .ogt),
    StableHlo.TRef.nullary (StableHlo.TRef.of (T := ⟨S_, .f32⟩) main_call4_cst_0) (constant S_ .f32 0x00000000#32),
    StableHlo.TRef.unary (StableHlo.TRef.of (T := ⟨S_, .f32⟩) main_call4_cst_0) (StableHlo.TRef.of (T := ⟨S2000x128, .f32⟩) main_call4_v2) (broadcastInDim S2000x128 ![] bcast_S_S2000x128),
    StableHlo.TRef.binary (StableHlo.TRef.of (T := ⟨S2000x128, .f32⟩) main_v184) (StableHlo.TRef.of (T := ⟨S2000x128, .f32⟩) main_call4_v2) (StableHlo.TRef.of (T := ⟨S2000x128, .i1⟩) main_call4_v3) (cmpf .ogt),
    StableHlo.TRef.nullary (StableHlo.TRef.of (T := ⟨S_, .f32⟩) main_call4_cst_1) (constant S_ .f32 0x00000000#32),
    StableHlo.TRef.unary (StableHlo.TRef.of (T := ⟨S_, .f32⟩) main_call4_cst_1) (StableHlo.TRef.of (T := ⟨S_, .f32⟩) main_call4_call0_v0) id,
    StableHlo.TRef.unary (StableHlo.TRef.of (T := ⟨S_, .f32⟩) main_call4_call0_v0) (StableHlo.TRef.of (T := ⟨S2000x128, .f32⟩) main_call4_call0_v1) (broadcastInDim S2000x128 ![] bcast_S_S2000x128),
    StableHlo.TRef.ternary (StableHlo.TRef.of (T := ⟨S2000x128, .i1⟩) main_call4_v3) (StableHlo.TRef.of (T := ⟨S2000x128, .f32⟩) main_call4_call0_v1) (StableHlo.TRef.of (T := ⟨S2000x128, .f32⟩) main_v184) (StableHlo.TRef.of (T := ⟨S2000x128, .f32⟩) main_call4_v4) select,
    StableHlo.TRef.unary (StableHlo.TRef.of (T := ⟨S2000x128, .f32⟩) main_call4_v4) (StableHlo.TRef.of (T := ⟨S2000x128, .f32⟩) main_call4_v5) Host.expm1,
    StableHlo.TRef.nullary (StableHlo.TRef.of (T := ⟨S_, .f32⟩) main_call4_cst_2) (constant S_ .f32 0x3F800000#32),
    StableHlo.TRef.unary (StableHlo.TRef.of (T := ⟨S_, .f32⟩) main_call4_cst_2) (StableHlo.TRef.of (T := ⟨S2000x128, .f32⟩) main_call4_v6) (broadcastInDim S2000x128 ![] bcast_S_S2000x128),
    StableHlo.TRef.binary (StableHlo.TRef.of (T := ⟨S2000x128, .f32⟩) main_call4_v6) (StableHlo.TRef.of (T := ⟨S2000x128, .f32⟩) main_call4_v5) (StableHlo.TRef.of (T := ⟨S2000x128, .f32⟩) main_call4_v7) mulf,
    StableHlo.TRef.ternary (StableHlo.TRef.of (T := ⟨S2000x128, .i1⟩) main_call4_v1) (StableHlo.TRef.of (T := ⟨S2000x128, .f32⟩) main_v184) (StableHlo.TRef.of (T := ⟨S2000x128, .f32⟩) main_call4_v7) (StableHlo.TRef.of (T := ⟨S2000x128, .f32⟩) main_v185) select,
    StableHlo.binary main_v185 main_arg19 main_v186 ((fun l r => Host.dotGeneral dot_S2000x128_S128x1_S2000x1_1_0_0_1_n_n none l r) : (⟨S2000x128, .f32⟩ : BufTy).Contents (Elt F) → (⟨S128x1, .f32⟩ : BufTy).Contents (Elt F) → (⟨S2000x1, .f32⟩ : BufTy).Contents (Elt F)),
    StableHlo.unary main_arg20 main_v187 (broadcastInDim S1x1 ![1] bcast_S1_S1x1_1 : (⟨S1, .f32⟩ : BufTy).Contents (Elt F) → (⟨S1x1, .f32⟩ : BufTy).Contents (Elt F)),
    StableHlo.unary main_v187 main_v188 (broadcastInDim S2000x1 ![0, 1] bcast_S1x1_S2000x1_0_1 : (⟨S1x1, .f32⟩ : BufTy).Contents (Elt F) → (⟨S2000x1, .f32⟩ : BufTy).Contents (Elt F)),
    StableHlo.binary main_v186 main_v188 main_v189 (addf : (⟨S2000x1, .f32⟩ : BufTy).Contents (Elt F) → (⟨S2000x1, .f32⟩ : BufTy).Contents (Elt F) → (⟨S2000x1, .f32⟩ : BufTy).Contents (Elt F)) ]
/-- The references those operations write, in order. -/
abbrev q11_W : List (Ref sig .tc) :=
  [main_v176, main_v177, main_v178, main_v179, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v180, main_v181, main_v182, main_v183, main_v184, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v185, main_v186, main_v187, main_v188, main_v189]

end Cert.ReferenceIdeal.RefRun

end
-- ==== Proof.RefLine.lean ====
/-
  The whole-array program is one straight line of host operations.

  Its four windows are four stretches of the twelve lists of operations, in order, a called
  function's operations standing where it is called.  Every operation names device buffers only,
  allocates nothing, and writes the reference listed at its place — so a reference outside a list's
  written references keeps its contents through the list.
-/
import proofs.«140304_j41248865910880_2_alg».proof.Proof.RefOps
import Idealize.ShloMosaic.Lib.Pipeline.Frame

set_option maxRecDepth 16384

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The whole line: the twelve lists in order. -/
abbrev ops : List (HloOp τ sig (Elt F)) :=
  q0 ++ q1 ++ q2 ++ q3 ++ q4 ++ q5 ++ q6 ++ q7 ++ q8 ++ q9 ++ q10 ++ q11

theorem main_part0_eq (c : Dev nD) : main_part0 (F := F) c = seq (q0 ++ q1) := rfl

theorem main_part1_eq (c : Dev nD) : main_part1 (F := F) c = seq (q2 ++ q3 ++ q4) := rfl

theorem main_part2_eq (c : Dev nD) : main_part2 (F := F) c = seq (q5 ++ q6 ++ q7) := rfl

theorem main_part3_eq (c : Dev nD) : main_part3 (F := F) c = seq (q8 ++ q9 ++ q10 ++ q11) := rfl

/-- The program is the line run in order: its four windows are four stretches of it. -/
theorem main_eq (c : Dev nD) : main (F := F) c = seq ops := by
  unfold main
  rw [main_part0_eq, main_part1_eq, main_part2_eq, main_part3_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation of a list names device buffers only. -/
local macro "bufs_in_tc" : tactic =>
  `(tactic| simp only [q0, q1, q2, q3, q4, q5, q6, q7, q8, q9, q10, q11, List.Forall, nullary_bufs_sub, unary_bufs_sub, binary_bufs_sub,
      ternary_bufs_sub, nary_bufs_sub, reshape_bufs_sub, and_self])

theorem q0_sub : (q0 : List (HloOp τ sig (Elt F))).Forall fun op => op.bufs ⊆ tcRefs τ sig := by bufs_in_tc
theorem q1_sub : (q1 : List (HloOp τ sig (Elt F))).Forall fun op => op.bufs ⊆ tcRefs τ sig := by bufs_in_tc
theorem q2_sub : (q2 : List (HloOp τ sig (Elt F))).Forall fun op => op.bufs ⊆ tcRefs τ sig := by bufs_in_tc
theorem q3_sub : (q3 : List (HloOp τ sig (Elt F))).Forall fun op => op.bufs ⊆ tcRefs τ sig := by bufs_in_tc
theorem q4_sub : (q4 : List (HloOp τ sig (Elt F))).Forall fun op => op.bufs ⊆ tcRefs τ sig := by bufs_in_tc
theorem q5_sub : (q5 : List (HloOp τ sig (Elt F))).Forall fun op => op.bufs ⊆ tcRefs τ sig := by bufs_in_tc
theorem q6_sub : (q6 : List (HloOp τ sig (Elt F))).Forall fun op => op.bufs ⊆ tcRefs τ sig := by bufs_in_tc
theorem q7_sub : (q7 : List (HloOp τ sig (Elt F))).Forall fun op => op.bufs ⊆ tcRefs τ sig := by bufs_in_tc
theorem q8_sub : (q8 : List (HloOp τ sig (Elt F))).Forall fun op => op.bufs ⊆ tcRefs τ sig := by bufs_in_tc
theorem q9_sub : (q9 : List (HloOp τ sig (Elt F))).Forall fun op => op.bufs ⊆ tcRefs τ sig := by bufs_in_tc
theorem q10_sub : (q10 : List (HloOp τ sig (Elt F))).Forall fun op => op.bufs ⊆ tcRefs τ sig := by bufs_in_tc
theorem q11_sub : (q11 : List (HloOp τ sig (Elt F))).Forall fun op => op.bufs ⊆ tcRefs τ sig := by bufs_in_tc

theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h | h | h | h
    exacts [List.forall_iff_forall_mem.mp q0_sub op h, List.forall_iff_forall_mem.mp q1_sub op h, List.forall_iff_forall_mem.mp q2_sub op h, List.forall_iff_forall_mem.mp q3_sub op h, List.forall_iff_forall_mem.mp q4_sub op h, List.forall_iff_forall_mem.mp q5_sub op h, List.forall_iff_forall_mem.mp q6_sub op h, List.forall_iff_forall_mem.mp q7_sub op h, List.forall_iff_forall_mem.mp q8_sub op h, List.forall_iff_forall_mem.mp q9_sub op h, List.forall_iff_forall_mem.mp q10_sub op h, List.forall_iff_forall_mem.mp q11_sub op h]

/-- No operation of a list allocates: each determines what it writes. -/
local macro "none_fresh" : tactic =>
  `(tactic| (intro _ h; (repeat (cases h with | head => rfl | tail _ h => ?_)); exact nomatch h))

theorem q0_fresh : ∀ op ∈ (q0 : List (HloOp τ sig (Elt F))), op.fresh = ∅ := by none_fresh
theorem q1_fresh : ∀ op ∈ (q1 : List (HloOp τ sig (Elt F))), op.fresh = ∅ := by none_fresh
theorem q2_fresh : ∀ op ∈ (q2 : List (HloOp τ sig (Elt F))), op.fresh = ∅ := by none_fresh
theorem q3_fresh : ∀ op ∈ (q3 : List (HloOp τ sig (Elt F))), op.fresh = ∅ := by none_fresh
theorem q4_fresh : ∀ op ∈ (q4 : List (HloOp τ sig (Elt F))), op.fresh = ∅ := by none_fresh
theorem q5_fresh : ∀ op ∈ (q5 : List (HloOp τ sig (Elt F))), op.fresh = ∅ := by none_fresh
theorem q6_fresh : ∀ op ∈ (q6 : List (HloOp τ sig (Elt F))), op.fresh = ∅ := by none_fresh
theorem q7_fresh : ∀ op ∈ (q7 : List (HloOp τ sig (Elt F))), op.fresh = ∅ := by none_fresh
theorem q8_fresh : ∀ op ∈ (q8 : List (HloOp τ sig (Elt F))), op.fresh = ∅ := by none_fresh
theorem q9_fresh : ∀ op ∈ (q9 : List (HloOp τ sig (Elt F))), op.fresh = ∅ := by none_fresh
theorem q10_fresh : ∀ op ∈ (q10 : List (HloOp τ sig (Elt F))), op.fresh = ∅ := by none_fresh
theorem q11_fresh : ∀ op ∈ (q11 : List (HloOp τ sig (Elt F))), op.fresh = ∅ := by none_fresh

theorem ops_fresh : ∀ op ∈ (ops : List (HloOp τ sig (Elt F))), op.fresh = ∅ := fun op h => by
  simp only [ops, List.mem_append, or_assoc] at h
  rcases h with h | h | h | h | h | h | h | h | h | h | h | h
  exacts [q0_fresh op h, q1_fresh op h, q2_fresh op h, q3_fresh op h, q4_fresh op h, q5_fresh op h, q6_fresh op h, q7_fresh op h, q8_fresh op h, q9_fresh op h, q10_fresh op h, q11_fresh op h]

/-- Each operation of a list writes the reference listed at its place. -/
local macro "writes_listed" : tactic =>
  `(tactic| (simp only [q0, q1, q2, q3, q4, q5, q6, q7, q8, q9, q10, q11, List.Forall, nullary_writes, unary_writes, binary_writes, ternary_writes,
      nary_writes, reshape_writes, Finset.singleton_subset_iff, List.mem_toFinset]
             (repeat' apply And.intro) <;> exact List.mem_map_of_mem (by decide)))

theorem q0_writes : (q0 : List (HloOp τ sig (Elt F))).Forall fun op =>
    op.writes ⊆ (q0_W.map (Proc.devRef (τ := τ) .tc)).toFinset := by writes_listed
theorem q1_writes : (q1 : List (HloOp τ sig (Elt F))).Forall fun op =>
    op.writes ⊆ (q1_W.map (Proc.devRef (τ := τ) .tc)).toFinset := by writes_listed
theorem q2_writes : (q2 : List (HloOp τ sig (Elt F))).Forall fun op =>
    op.writes ⊆ (q2_W.map (Proc.devRef (τ := τ) .tc)).toFinset := by writes_listed
theorem q3_writes : (q3 : List (HloOp τ sig (Elt F))).Forall fun op =>
    op.writes ⊆ (q3_W.map (Proc.devRef (τ := τ) .tc)).toFinset := by writes_listed
theorem q4_writes : (q4 : List (HloOp τ sig (Elt F))).Forall fun op =>
    op.writes ⊆ (q4_W.map (Proc.devRef (τ := τ) .tc)).toFinset := by writes_listed
theorem q5_writes : (q5 : List (HloOp τ sig (Elt F))).Forall fun op =>
    op.writes ⊆ (q5_W.map (Proc.devRef (τ := τ) .tc)).toFinset := by writes_listed
theorem q6_writes : (q6 : List (HloOp τ sig (Elt F))).Forall fun op =>
    op.writes ⊆ (q6_W.map (Proc.devRef (τ := τ) .tc)).toFinset := by writes_listed
theorem q7_writes : (q7 : List (HloOp τ sig (Elt F))).Forall fun op =>
    op.writes ⊆ (q7_W.map (Proc.devRef (τ := τ) .tc)).toFinset := by writes_listed
theorem q8_writes : (q8 : List (HloOp τ sig (Elt F))).Forall fun op =>
    op.writes ⊆ (q8_W.map (Proc.devRef (τ := τ) .tc)).toFinset := by writes_listed
theorem q9_writes : (q9 : List (HloOp τ sig (Elt F))).Forall fun op =>
    op.writes ⊆ (q9_W.map (Proc.devRef (τ := τ) .tc)).toFinset := by writes_listed
theorem q10_writes : (q10 : List (HloOp τ sig (Elt F))).Forall fun op =>
    op.writes ⊆ (q10_W.map (Proc.devRef (τ := τ) .tc)).toFinset := by writes_listed
theorem q11_writes : (q11 : List (HloOp τ sig (Elt F))).Forall fun op =>
    op.writes ⊆ (q11_W.map (Proc.devRef (τ := τ) .tc)).toFinset := by writes_listed

/-- A reference a list does not write keeps its contents through the list. -/
theorem q0_keep (V : Valuation τ sig (Elt F)) (r : Ref sig .tc) (h : r ∉ q0_W) :
    after q0 V (no_index (Proc.devRef .tc r)) = V (Proc.devRef .tc r) := after_of_writes_sub q0 V q0_writes h
theorem q1_keep (V : Valuation τ sig (Elt F)) (r : Ref sig .tc) (h : r ∉ q1_W) :
    after q1 V (no_index (Proc.devRef .tc r)) = V (Proc.devRef .tc r) := after_of_writes_sub q1 V q1_writes h
theorem q2_keep (V : Valuation τ sig (Elt F)) (r : Ref sig .tc) (h : r ∉ q2_W) :
    after q2 V (no_index (Proc.devRef .tc r)) = V (Proc.devRef .tc r) := after_of_writes_sub q2 V q2_writes h
theorem q3_keep (V : Valuation τ sig (Elt F)) (r : Ref sig .tc) (h : r ∉ q3_W) :
    after q3 V (no_index (Proc.devRef .tc r)) = V (Proc.devRef .tc r) := after_of_writes_sub q3 V q3_writes h
theorem q4_keep (V : Valuation τ sig (Elt F)) (r : Ref sig .tc) (h : r ∉ q4_W) :
    after q4 V (no_index (Proc.devRef .tc r)) = V (Proc.devRef .tc r) := after_of_writes_sub q4 V q4_writes h
theorem q5_keep (V : Valuation τ sig (Elt F)) (r : Ref sig .tc) (h : r ∉ q5_W) :
    after q5 V (no_index (Proc.devRef .tc r)) = V (Proc.devRef .tc r) := after_of_writes_sub q5 V q5_writes h
theorem q6_keep (V : Valuation τ sig (Elt F)) (r : Ref sig .tc) (h : r ∉ q6_W) :
    after q6 V (no_index (Proc.devRef .tc r)) = V (Proc.devRef .tc r) := after_of_writes_sub q6 V q6_writes h
theorem q7_keep (V : Valuation τ sig (Elt F)) (r : Ref sig .tc) (h : r ∉ q7_W) :
    after q7 V (no_index (Proc.devRef .tc r)) = V (Proc.devRef .tc r) := after_of_writes_sub q7 V q7_writes h
theorem q8_keep (V : Valuation τ sig (Elt F)) (r : Ref sig .tc) (h : r ∉ q8_W) :
    after q8 V (no_index (Proc.devRef .tc r)) = V (Proc.devRef .tc r) := after_of_writes_sub q8 V q8_writes h
theorem q9_keep (V : Valuation τ sig (Elt F)) (r : Ref sig .tc) (h : r ∉ q9_W) :
    after q9 V (no_index (Proc.devRef .tc r)) = V (Proc.devRef .tc r) := after_of_writes_sub q9 V q9_writes h
theorem q10_keep (V : Valuation τ sig (Elt F)) (r : Ref sig .tc) (h : r ∉ q10_W) :
    after q10 V (no_index (Proc.devRef .tc r)) = V (Proc.devRef .tc r) := after_of_writes_sub q10 V q10_writes h
theorem q11_keep (V : Valuation τ sig (Elt F)) (r : Ref sig .tc) (h : r ∉ q11_W) :
    after q11 V (no_index (Proc.devRef .tc r)) = V (Proc.devRef .tc r) := after_of_writes_sub q11 V q11_writes h

end Cert.ReferenceIdeal.RefRun

end
-- ==== Proof.RefRun.lean ====
/-
  The whole-array program's run.

  The program is one straight line of host operations, so every weakly fair execution of it
  terminates, with every buffer at the value the operations compose over the launch contents.
  The line is read in stages — the first layer's product and the edge endpoints; an aggregation;
  bias, ELU and the next product; the same twice more; the mean pool; the dense head — each
  stage's result being the shared chain's function of the stage before.  The result buffer so
  holds the chain's whole value of the twenty-one argument arrays, and no operation writes an
  argument array.
-/
import proofs.«140304_j41248865910880_2_alg».proof.Proof.RefLine
import proofs.«140304_j41248865910880_2_alg».proof.Proof.Chain
import proofs.«140304_j41248865910880_2_alg».proof.Proof.Gen.KernelIdeal

set_option maxRecDepth 16384

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-! ## The buffers after each list -/

section Stages

variable (V0 : Valuation τ sig (Elt Ideal))

set_option quotPrecheck false in
/-- The contents of a reference's buffer at the start. -/
local notation "⟪" r "⟫" => V0 (Proc.devRef .tc r)

/-- The buffers' contents at the start, and after the first k lists. -/
def u0 : Valuation τ sig (Elt Ideal) := V0
def u1 : Valuation τ sig (Elt Ideal) := after q0 (u0 V0)
def u2 : Valuation τ sig (Elt Ideal) := after q1 (u1 V0)
def u3 : Valuation τ sig (Elt Ideal) := after q2 (u2 V0)
def u4 : Valuation τ sig (Elt Ideal) := after q3 (u3 V0)
def u5 : Valuation τ sig (Elt Ideal) := after q4 (u4 V0)
def u6 : Valuation τ sig (Elt Ideal) := after q5 (u5 V0)
def u7 : Valuation τ sig (Elt Ideal) := after q6 (u6 V0)
def u8 : Valuation τ sig (Elt Ideal) := after q7 (u7 V0)
def u9 : Valuation τ sig (Elt Ideal) := after q8 (u8 V0)
def u10 : Valuation τ sig (Elt Ideal) := after q9 (u9 V0)
def u11 : Valuation τ sig (Elt Ideal) := after q10 (u10 V0)
def u12 : Valuation τ sig (Elt Ideal) := after q11 (u11 V0)

/-! ### A called function's buffers are read at the type they are written at

A called function's operations carry each buffer's type with its reference, and move a value to the
buffer's own type and back along the equation between the two.  Written then read, the two moves
cancel; at a call's operand and at its result, literal references whose type is the carried one, a
move is the identity. -/

/-- Written, then read: the value. -/
theorem ofBuf_toBuf {T : BufTy} (x : TRef sig T) (v : T.Contents (Elt Ideal)) : x.ofBuf (x.toBuf v) = v := by
  unfold TRef.ofBuf TRef.toBuf
  simp only [cast_cast, cast_eq]

theorem ofBuf_v72 (h1 h2 h3) (v : main_v72.ty.Contents (Elt Ideal)) :
    (TRef.of (T := ⟨S50000x222, .f32⟩) main_v72 h1 h2 h3).ofBuf v = v := rfl
theorem toBuf_v73 (h1 h2 h3) (v : (⟨S50000x222, .f32⟩ : BufTy).Contents (Elt Ideal)) :
    (TRef.of (T := ⟨S50000x222, .f32⟩) main_v73 h1 h2 h3).toBuf v = v := rfl
theorem ofBuf_v117 (h1 h2 h3) (v : main_v117.ty.Contents (Elt Ideal)) :
    (TRef.of (T := ⟨S50000x222, .f32⟩) main_v117 h1 h2 h3).ofBuf v = v := rfl
theorem toBuf_v118 (h1 h2 h3) (v : (⟨S50000x222, .f32⟩ : BufTy).Contents (Elt Ideal)) :
    (TRef.of (T := ⟨S50000x222, .f32⟩) main_v118 h1 h2 h3).toBuf v = v := rfl
theorem ofBuf_v162 (h1 h2 h3) (v : main_v162.ty.Contents (Elt Ideal)) :
    (TRef.of (T := ⟨S50000x222, .f32⟩) main_v162 h1 h2 h3).ofBuf v = v := rfl
theorem toBuf_v163 (h1 h2 h3) (v : (⟨S50000x222, .f32⟩ : BufTy).Contents (Elt Ideal)) :
    (TRef.of (T := ⟨S50000x222, .f32⟩) main_v163 h1 h2 h3).toBuf v = v := rfl
theorem ofBuf_v179 (h1 h2 h3) (v : main_v179.ty.Contents (Elt Ideal)) :
    (TRef.of (T := ⟨S2000x512, .f32⟩) main_v179 h1 h2 h3).ofBuf v = v := rfl
theorem toBuf_v180 (h1 h2 h3) (v : (⟨S2000x512, .f32⟩ : BufTy).Contents (Elt Ideal)) :
    (TRef.of (T := ⟨S2000x512, .f32⟩) main_v180 h1 h2 h3).toBuf v = v := rfl
theorem ofBuf_v184 (h1 h2 h3) (v : main_v184.ty.Contents (Elt Ideal)) :
    (TRef.of (T := ⟨S2000x128, .f32⟩) main_v184 h1 h2 h3).ofBuf v = v := rfl
theorem toBuf_v185 (h1 h2 h3) (v : (⟨S2000x128, .f32⟩ : BufTy).Contents (Elt Ideal)) :
    (TRef.of (T := ⟨S2000x128, .f32⟩) main_v185 h1 h2 h3).toBuf v = v := rfl

/-- A reference a list does not write has after it the contents it had before it. -/
theorem k0 (r : Ref sig .tc) (h : r ∉ q0_W) : u1 V0 (no_index (Proc.devRef .tc r)) = u0 V0 (Proc.devRef .tc r) :=
  q0_keep (u0 V0) r h
theorem k1 (r : Ref sig .tc) (h : r ∉ q1_W) : u2 V0 (no_index (Proc.devRef .tc r)) = u1 V0 (Proc.devRef .tc r) :=
  q1_keep (u1 V0) r h
theorem k2 (r : Ref sig .tc) (h : r ∉ q2_W) : u3 V0 (no_index (Proc.devRef .tc r)) = u2 V0 (Proc.devRef .tc r) :=
  q2_keep (u2 V0) r h
theorem k3 (r : Ref sig .tc) (h : r ∉ q3_W) : u4 V0 (no_index (Proc.devRef .tc r)) = u3 V0 (Proc.devRef .tc r) :=
  q3_keep (u3 V0) r h
theorem k4 (r : Ref sig .tc) (h : r ∉ q4_W) : u5 V0 (no_index (Proc.devRef .tc r)) = u4 V0 (Proc.devRef .tc r) :=
  q4_keep (u4 V0) r h
theorem k5 (r : Ref sig .tc) (h : r ∉ q5_W) : u6 V0 (no_index (Proc.devRef .tc r)) = u5 V0 (Proc.devRef .tc r) :=
  q5_keep (u5 V0) r h
theorem k6 (r : Ref sig .tc) (h : r ∉ q6_W) : u7 V0 (no_index (Proc.devRef .tc r)) = u6 V0 (Proc.devRef .tc r) :=
  q6_keep (u6 V0) r h
theorem k7 (r : Ref sig .tc) (h : r ∉ q7_W) : u8 V0 (no_index (Proc.devRef .tc r)) = u7 V0 (Proc.devRef .tc r) :=
  q7_keep (u7 V0) r h
theorem k8 (r : Ref sig .tc) (h : r ∉ q8_W) : u9 V0 (no_index (Proc.devRef .tc r)) = u8 V0 (Proc.devRef .tc r) :=
  q8_keep (u8 V0) r h
theorem k9 (r : Ref sig .tc) (h : r ∉ q9_W) : u10 V0 (no_index (Proc.devRef .tc r)) = u9 V0 (Proc.devRef .tc r) :=
  q9_keep (u9 V0) r h
theorem k10 (r : Ref sig .tc) (h : r ∉ q10_W) : u11 V0 (no_index (Proc.devRef .tc r)) = u10 V0 (Proc.devRef .tc r) :=
  q10_keep (u10 V0) r h
theorem k11 (r : Ref sig .tc) (h : r ∉ q11_W) : u12 V0 (no_index (Proc.devRef .tc r)) = u11 V0 (Proc.devRef .tc r) :=
  q11_keep (u11 V0) r h

/-! ### The chain's values, stage by stage -/

/-- The first layer's product. -/
def s1 := Cert.Chain.h1Whole ⟪main_arg0⟫ ⟪main_arg1⟫ ⟪main_arg2⟫ ⟪main_arg3⟫ ⟪main_arg6⟫ ⟪main_arg7⟫ ⟪main_arg8⟫ ⟪main_arg9⟫
/-- The first aggregation. -/
def s2 := Cert.Chain.spmm ⟪main_arg4⟫ (s1 V0)
/-- Bias, ELU, the second layer's product. -/
def s3 := Cert.Chain.layerHost ⟪main_arg10⟫ ⟪main_arg11⟫ (s2 V0)
/-- The second aggregation. -/
def s4 := Cert.Chain.spmm ⟪main_arg4⟫ (s3 V0)
/-- Bias, ELU, the third layer's product. -/
def s5 := Cert.Chain.layerHost ⟪main_arg12⟫ ⟪main_arg13⟫ (s4 V0)
/-- The third aggregation. -/
def s6 := Cert.Chain.spmm ⟪main_arg4⟫ (s5 V0)
/-- Bias and ELU. -/
def s7 := Cert.Chain.actHost ⟪main_arg14⟫ (s6 V0)
/-- The mean over each graph's nodes. -/
def s8 := Cert.Chain.pool ⟪main_arg5⟫ (s7 V0)
/-- The dense head. -/
def s9 := Cert.Chain.headHost (s8 V0) ⟪main_arg15⟫ ⟪main_arg16⟫ ⟪main_arg17⟫ ⟪main_arg18⟫ ⟪main_arg19⟫ ⟪main_arg20⟫

/-- The last stage is the chain's whole value. -/
theorem s9_eq : s9 V0 = Cert.Chain.wholeValue ⟪main_arg0⟫ ⟪main_arg1⟫ ⟪main_arg2⟫ ⟪main_arg3⟫ ⟪main_arg4⟫ ⟪main_arg5⟫ ⟪main_arg6⟫ ⟪main_arg7⟫ ⟪main_arg8⟫ ⟪main_arg9⟫ ⟪main_arg10⟫ ⟪main_arg11⟫ ⟪main_arg12⟫ ⟪main_arg13⟫ ⟪main_arg14⟫ ⟪main_arg15⟫ ⟪main_arg16⟫ ⟪main_arg17⟫ ⟪main_arg18⟫ ⟪main_arg19⟫ ⟪main_arg20⟫ := rfl

/-! ### The edge endpoints and the first layer's product (list 0) -/

theorem u1_v25 : u1 V0 (no_index (Proc.devRef .tc main_v25)) = Cert.Chain.src ⟪main_arg4⟫ := by
  unfold u1 u0
  simp only [q0]
  after_results_simp
  rfl

theorem u1_v28 : u1 V0 (no_index (Proc.devRef .tc main_v28)) = Cert.Chain.dst ⟪main_arg4⟫ := by
  unfold u1 u0
  simp only [q0]
  after_results_simp
  rfl

theorem u1_v29 : u1 V0 (no_index (Proc.devRef .tc main_v29)) = s1 V0 := by
  unfold u1 u0
  simp only [q0]
  after_results_simp
  rfl

/-! ### The first aggregation (lists 1 and 2): the weights, then gather, scale, add -/

theorem u3_v69 : u3 V0 (no_index (Proc.devRef .tc main_v69)) = s2 V0 := by
  unfold u3 u2
  simp only [q1, q2]
  after_results_simp
  simp only [u1_v25, u1_v28, u1_v29]
  rfl

/-! ### Bias, ELU, the second product (list 3) -/

theorem u4_v74 : u4 V0 (no_index (Proc.devRef .tc main_v74)) = s3 V0 := by
  unfold u4
  simp only [q3]
  after_results_simp
  simp (disch := decide) only [u3_v69, k2, k1, k0, u0, ofBuf_toBuf, ofBuf_v72, toBuf_v73]
  rfl

/-! ### The second aggregation (lists 4 and 5) -/

theorem u4_v25 : u4 V0 (no_index (Proc.devRef .tc main_v25)) = Cert.Chain.src ⟪main_arg4⟫ := by
  simp (disch := decide) only [k3, k2, k1, u1_v25]

theorem u4_v28 : u4 V0 (no_index (Proc.devRef .tc main_v28)) = Cert.Chain.dst ⟪main_arg4⟫ := by
  simp (disch := decide) only [k3, k2, k1, u1_v28]

theorem u6_v114 : u6 V0 (no_index (Proc.devRef .tc main_v114)) = s4 V0 := by
  unfold u6 u5
  simp only [q4, q5]
  after_results_simp
  simp only [u4_v25, u4_v28, u4_v74]
  rfl

/-! ### Bias, ELU, the third product (list 6) -/

theorem u7_v119 : u7 V0 (no_index (Proc.devRef .tc main_v119)) = s5 V0 := by
  unfold u7
  simp only [q6]
  after_results_simp
  simp (disch := decide) only [u6_v114, k5, k4, k3, k2, k1, k0, u0, ofBuf_toBuf, ofBuf_v117, toBuf_v118]
  rfl

/-! ### The third aggregation (lists 7 and 8) -/

theorem u7_v25 : u7 V0 (no_index (Proc.devRef .tc main_v25)) = Cert.Chain.src ⟪main_arg4⟫ := by
  simp (disch := decide) only [k6, k5, k4, u4_v25]

theorem u7_v28 : u7 V0 (no_index (Proc.devRef .tc main_v28)) = Cert.Chain.dst ⟪main_arg4⟫ := by
  simp (disch := decide) only [k6, k5, k4, u4_v28]

theorem u9_v159 : u9 V0 (no_index (Proc.devRef .tc main_v159)) = s6 V0 := by
  unfold u9 u8
  simp only [q7, q8]
  after_results_simp
  simp only [u7_v25, u7_v28, u7_v119]
  rfl

/-! ### Bias and ELU (list 9) -/

theorem u10_v163 : u10 V0 (no_index (Proc.devRef .tc main_v163)) = s7 V0 := by
  unfold u10
  simp only [q9]
  after_results_simp
  simp (disch := decide) only [u9_v159, k8, k7, k6, k5, k4, k3, k2, k1, k0, u0, ofBuf_toBuf, ofBuf_v162, toBuf_v163]
  rfl

/-! ### The mean pool (list 10) -/

theorem u11_v175 : u11 V0 (no_index (Proc.devRef .tc main_v175)) = s8 V0 := by
  unfold u11
  simp only [q10]
  after_results_simp
  simp (disch := decide) only [u10_v163, k9, k8, k7, k6, k5, k4, k3, k2, k1, k0, u0]
  rfl

/-! ### The dense head (list 11) -/

theorem u12_v189 : u12 V0 (no_index (Proc.devRef .tc main_v189)) = s9 V0 := by
  unfold u12
  simp only [q11]
  after_results_simp
  simp (disch := decide) only [u11_v175, k10, k9, k8, k7, k6, k5, k4, k3, k2, k1, k0, u0, ofBuf_toBuf, ofBuf_v179, toBuf_v180, ofBuf_v184, toBuf_v185]
  rfl

/-! ## The whole line -/

/-- The line's effect is the twelve lists' in turn. -/
theorem after_ops : after ops V0 = u12 V0 := by
  simp only [ops, after_append]
  rfl

/-- The result buffer ends at the chain's whole value of the argument arrays. -/
theorem result_eq : after ops V0 (Proc.devRef .tc main_v189)
    = Cert.Chain.wholeValue ⟪main_arg0⟫ ⟪main_arg1⟫ ⟪main_arg2⟫ ⟪main_arg3⟫ ⟪main_arg4⟫ ⟪main_arg5⟫ ⟪main_arg6⟫ ⟪main_arg7⟫ ⟪main_arg8⟫ ⟪main_arg9⟫ ⟪main_arg10⟫ ⟪main_arg11⟫ ⟪main_arg12⟫ ⟪main_arg13⟫ ⟪main_arg14⟫ ⟪main_arg15⟫ ⟪main_arg16⟫ ⟪main_arg17⟫ ⟪main_arg18⟫ ⟪main_arg19⟫ ⟪main_arg20⟫ := by
  rw [after_ops]
  exact (u12_v189 V0).trans (s9_eq V0)

/-- No operation writes an argument array. -/
theorem arg_eq (r : Ref sig .tc)
    (h : r ∉ q0_W ++ q1_W ++ q2_W ++ q3_W ++ q4_W ++ q5_W ++ q6_W ++ q7_W ++ q8_W ++ q9_W ++ q10_W ++ q11_W) :
    after ops V0 (Proc.devRef .tc r) = V0 (Proc.devRef .tc r) := by
  simp only [List.mem_append, not_or] at h
  obtain ⟨⟨⟨⟨⟨⟨⟨⟨⟨⟨⟨h0, h1⟩, h2⟩, h3⟩, h4⟩, h5⟩, h6⟩, h7⟩, h8⟩, h9⟩, h10⟩, h11⟩ := h
  rw [after_ops, k11 V0 r h11, k10 V0 r h10, k9 V0 r h9, k8 V0 r h8, k7 V0 r h7, k6 V0 r h6, k5 V0 r h5, k4 V0 r h4,
    k3 V0 r h3, k2 V0 r h2, k1 V0 r h1, k0 V0 r h0, u0]

end Stages

/-! ## The run -/

/-- On every device, from any memory with zero counters: every weakly fair execution of the program
    terminates with the result buffer at the chain's whole value of the argument arrays as launched,
    and every argument array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v189)
          = Cert.Chain.wholeValue (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
              (m ((c.tc : Thread nD τ).loc main_arg16))
              (m ((c.tc : Thread nD τ).loc main_arg17))
              (m ((c.tc : Thread nD τ).loc main_arg18))
              (m ((c.tc : Thread nD τ).loc main_arg19))
              (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v189).trans (result_eq (launchContents m c)),
      (h c main_arg0).trans (arg_eq (launchContents m c) main_arg0 (by decide)),
      (h c main_arg1).trans (arg_eq (launchContents m c) main_arg1 (by decide)),
      (h c main_arg2).trans (arg_eq (launchContents m c) main_arg2 (by decide)),
      (h c main_arg3).trans (arg_eq (launchContents m c) main_arg3 (by decide)),
      (h c main_arg4).trans (arg_eq (launchContents m c) main_arg4 (by decide)),
      (h c main_arg5).trans (arg_eq (launchContents m c) main_arg5 (by decide)),
      (h c main_arg6).trans (arg_eq (launchContents m c) main_arg6 (by decide)),
      (h c main_arg7).trans (arg_eq (launchContents m c) main_arg7 (by decide)),
      (h c main_arg8).trans (arg_eq (launchContents m c) main_arg8 (by decide)),
      (h c main_arg9).trans (arg_eq (launchContents m c) main_arg9 (by decide)),
      (h c main_arg10).trans (arg_eq (launchContents m c) main_arg10 (by decide)),
      (h c main_arg11).trans (arg_eq (launchContents m c) main_arg11 (by decide)),
      (h c main_arg12).trans (arg_eq (launchContents m c) main_arg12 (by decide)),
      (h c main_arg13).trans (arg_eq (launchContents m c) main_arg13 (by decide)),
      (h c main_arg14).trans (arg_eq (launchContents m c) main_arg14 (by decide)),
      (h c main_arg15).trans (arg_eq (launchContents m c) main_arg15 (by decide)),
      (h c main_arg16).trans (arg_eq (launchContents m c) main_arg16 (by decide)),
      (h c main_arg17).trans (arg_eq (launchContents m c) main_arg17 (by decide)),
      (h c main_arg18).trans (arg_eq (launchContents m c) main_arg18 (by decide)),
      (h c main_arg19).trans (arg_eq (launchContents m c) main_arg19 (by decide)),
      (h c main_arg20).trans (arg_eq (launchContents m c) main_arg20 (by decide))⟩)
    (run_seq scopedRefs_eq scopedSems_eq defs main (fun _ => ops) main_eq (fun _ => ops_sub) m ρ (fun _ => ops_fresh))

end Cert.ReferenceIdeal.RefRun

end
-- ==== Proof.FirstLayer.lean ====
/-
  The first layer's product is one function whichever way it is spelt.

  At node n and feature f the product of the node features by the weight matrix is
  ∑_{k<222} X[n,k] · W[k,f], where row n of X is four blocks side by side: columns 0–199 the row
  e(n) of the 118 × 200 table, columns 200–209 the row o(n) of the 16 × 10 table, columns 210–219
  the row g(n) of the 64 × 10 table, columns 220–221 the two angles.  Splitting the range of
  k into those four blocks gives
    ∑_{k<200} T₁[e(n),k]·W[k,f] + ∑_{k<10} T₂[o(n),k]·W[200+k,f] + ∑_{k<10} T₃[g(n),k]·W[210+k,f]
      + ∑_{k<2} A[n,k]·W[220+k,f],
  and each of the first three sums is row e(n) (o(n), g(n)) of the table times its slice of the
  weight rows: choosing a row of a product is the product of the chosen row.  Only the splitting
  of a finite sum into consecutive ranges is used (addition on the extended reals is associative and
  commutative); no product is distributed over a sum, so nothing has to be finite.

  The row numbers e, o, g are the same on both sides: a row gather reads its start index as a signed
  integer and clamps it into [0, height − 1], and the 200-wide (10-wide) table and the 222-wide
  product have the same height.
-/
import proofs.«140304_j41248865910880_2_alg».proof.Proof.Chain
import proofs.«140304_j41248865910880_2_alg».proof.Proof.LibRows
import Idealize.ShloMosaic.Lib.ValueLayout

noncomputable section

namespace Cert.FirstLayer

open Idealize.ShloMosaic Idealize.ShloMosaic.ValueIdx Cert.KernelIdeal Cert.KernelIdeal.Facts₀ Cert.Chain RowBlocks

variable [Cert.KernelIdeal.Facts] [Cert.ReferenceIdeal.Facts]

/-! ## The five products are plain matrix products -/

theorem plain_d118 : PlainSum dot_S118x200_S200x222_S118x222_1_0_0_1_n_n :=
  plainSum_of _ rfl rfl (fun _ _ => rfl)
    (fun i q => DotDims.lhsIdx_val_of_single dot_S118x200_S200x222_S118x222_1_0_0_1_n_n rfl i q)
    (fun i q => DotDims.rhsIdx_val_of_single dot_S118x200_S200x222_S118x222_1_0_0_1_n_n rfl i q)
    (fun _ _ => rfl)

theorem plain_d16 : PlainSum dot_S16x10_S10x222_S16x222_1_0_0_1_n_n :=
  plainSum_of _ rfl rfl (fun _ _ => rfl)
    (fun i q => DotDims.lhsIdx_val_of_single dot_S16x10_S10x222_S16x222_1_0_0_1_n_n rfl i q)
    (fun i q => DotDims.rhsIdx_val_of_single dot_S16x10_S10x222_S16x222_1_0_0_1_n_n rfl i q)
    (fun _ _ => rfl)

theorem plain_d64 : PlainSum dot_S64x10_S10x222_S64x222_1_0_0_1_n_n :=
  plainSum_of _ rfl rfl (fun _ _ => rfl)
    (fun i q => DotDims.lhsIdx_val_of_single dot_S64x10_S10x222_S64x222_1_0_0_1_n_n rfl i q)
    (fun i q => DotDims.rhsIdx_val_of_single dot_S64x10_S10x222_S64x222_1_0_0_1_n_n rfl i q)
    (fun _ _ => rfl)

theorem plain_d2 : PlainSum dot_S50000x2_S2x222_S50000x222_1_0_0_1_n_n :=
  plainSum_of _ rfl rfl (fun _ _ => rfl)
    (fun i q => DotDims.lhsIdx_val_of_single dot_S50000x2_S2x222_S50000x222_1_0_0_1_n_n rfl i q)
    (fun i q => DotDims.rhsIdx_val_of_single dot_S50000x2_S2x222_S50000x222_1_0_0_1_n_n rfl i q)
    (fun _ _ => rfl)

theorem plain_d222 : PlainSum Cert.ReferenceIdeal.dot_S50000x222_S222x222_S50000x222_1_0_0_1_n_n :=
  plainSum_of _ rfl rfl (fun _ _ => rfl)
    (fun i q => DotDims.lhsIdx_val_of_single Cert.ReferenceIdeal.dot_S50000x222_S222x222_S50000x222_1_0_0_1_n_n rfl i q)
    (fun i q => DotDims.rhsIdx_val_of_single Cert.ReferenceIdeal.dot_S50000x222_S222x222_S50000x222_1_0_0_1_n_n rfl i q)
    (fun _ _ => rfl)

/-! ## A row gather read at an index -/

section RowGather
variable {α : Type}

/-- The dimension numbers of a gather of whole rows: operand `[H, C]`, one start index per result row held in
    a column `[N, 1]`, result `[N, C]`. -/
abbrev rowDims (H C N : Nat)
    (wf : GatherDims.WF ⟨2, ![H, C]⟩ ⟨2, ![N, 1]⟩ ⟨2, ![N, C]⟩ [1] [0] [] [0] [] 1 ![1, C]) :
    GatherDims ⟨2, ![H, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row a start index chooses in a table of `H` rows: the index read signed, clamped into `[0, H − 1]`. -/
def rowOf (H : Nat) (hH : 0 < H) {N w : Nat} (idx : IVec ⟨2, ![N, 1]⟩ w) (n : Fin N) : Fin H :=
  ⟨min (idx (ix2 n (⟨0, Nat.one_pos⟩ : Fin 1))).toInt.toNat (H - 1), by omega⟩

/-- THE ROW GATHER READ AT `(n, k)`: the table at the chosen row and the same column. -/
theorem rowGather_apply {H C N w : Nat} (hH : 0 < H)
    (wf : GatherDims.WF ⟨2, ![H, C]⟩ ⟨2, ![N, 1]⟩ ⟨2, ![N, C]⟩ [1] [0] [] [0] [] 1 ![1, C])
    (x : (⟨2, ![H, C]⟩ : Shape).Idx → α) (idx : IVec ⟨2, ![N, 1]⟩ w) (n : Fin N) (k : Fin C) :
    Host.gather (rowDims H C N wf) x idx (ix2 n k) = x (ix2 (rowOf H hH idx n) k) := by
  unfold Host.gather
  congr 1
  funext a
  refine Fin.ext ?_
  match a with
  | ⟨0, _⟩ =>
    show (rowDims H C N wf).start (ix2 n k) idx 0 + (rowDims H C N wf).batchCoord (ix2 n k) 0
      + (rowDims H C N wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims H C N wf).startIndexMap from List.mem_singleton.mpr rfl)]
    have hsi : (rowDims H C N wf).siIdx (ix2 n k) ⟨List.idxOf (0 : Fin 2) (rowDims H C N wf).startIndexMap,
        List.idxOf_lt_length_iff.2 (List.mem_singleton.mpr rfl)⟩ = ix2 n (⟨0, Nat.one_pos⟩ : Fin 1) := by
      funext b; refine Fin.ext ?_
      match b with
      | ⟨0, _⟩ => rfl
      | ⟨1, _⟩ => rfl
    rw [hsi]
    rfl
  | ⟨1, _⟩ =>
    show (rowDims H C N wf).start (ix2 n k) idx 1 + (rowDims H C N wf).batchCoord (ix2 n k) 1
      + (rowDims H C N wf).offCoord (ix2 n k) 1 = _
    rw [GatherDims.batchCoord_eq_zero _ _ _ List.not_mem_nil]
    unfold GatherDims.start
    rw [dif_neg (show (1 : Fin 2) ∉ (rowDims H C N wf).startIndexMap from
      fun h => absurd (show (1 : Fin 2) = 0 from List.mem_singleton.mp h) (by decide))]
    simp only [Nat.add_zero, Nat.zero_add]
    rfl

end RowGather

/-! ## The six row gathers of the first layer, each read at `(n, k)`

The three tables have 118, 16 and 64 rows; the table of a given height is gathered once as it is
(200 or 10 columns wide) and once after its product with the weight rows (222 columns wide), and
`rowOf` of the common height names the row read in both. -/

theorem gather_prod118 (x : Cf S118x222) (idx : Ci S50000x1) (n : Fin 50000) (f : Fin 222) :
    Host.gather gather_S118x222_S50000x1_S50000x222_1_0_n_n_0_1_1222 x idx (ix2 n f)
      = x (ix2 (rowOf 118 (by decide) idx n) f) :=
  rowGather_apply (H := 118) (C := 222) (N := 50000) (by decide)
    gather_S118x222_S50000x1_S50000x222_1_0_n_n_0_1_1222_wf x idx n f

theorem gather_prod16 (x : Cf S16x222) (idx : Ci S50000x1) (n : Fin 50000) (f : Fin 222) :
    Host.gather gather_S16x222_S50000x1_S50000x222_1_0_n_n_0_1_1222 x idx (ix2 n f)
      = x (ix2 (rowOf 16 (by decide) idx n) f) :=
  rowGather_apply (H := 16) (C := 222) (N := 50000) (by decide)
    gather_S16x222_S50000x1_S50000x222_1_0_n_n_0_1_1222_wf x idx n f

theorem gather_prod64 (x : Cf S64x222) (idx : Ci S50000x1) (n : Fin 50000) (f : Fin 222) :
    Host.gather gather_S64x222_S50000x1_S50000x222_1_0_n_n_0_1_1222 x idx (ix2 n f)
      = x (ix2 (rowOf 64 (by decide) idx n) f) :=
  rowGather_apply (H := 64) (C := 222) (N := 50000) (by decide)
    gather_S64x222_S50000x1_S50000x222_1_0_n_n_0_1_1222_wf x idx n f

theorem gather_table118 (x : Cf S118x200) (idx : Ci S50000x1) (n : Fin 50000) (k : Fin 200) :
    Host.gather Cert.ReferenceIdeal.gather_S118x200_S50000x1_S50000x200_1_0_n_n_0_1_1200 x idx (ix2 n k)
      = x (ix2 (rowOf 118 (by decide) idx n) k) :=
  rowGather_apply (H := 118) (C := 200) (N := 50000) (by decide)
    Cert.ReferenceIdeal.Facts₀.gather_S118x200_S50000x1_S50000x200_1_0_n_n_0_1_1200_wf x idx n k

theorem gather_table16 (x : Cf S16x10) (idx : Ci S50000x1) (n : Fin 50000) (k : Fin 10) :
    Host.gather Cert.ReferenceIdeal.gather_S16x10_S50000x1_S50000x10_1_0_n_n_0_1_110 x idx (ix2 n k)
      = x (ix2 (rowOf 16 (by decide) idx n) k) :=
  rowGather_apply (H := 16) (C := 10) (N := 50000) (by decide)
    Cert.ReferenceIdeal.Facts₀.gather_S16x10_S50000x1_S50000x10_1_0_n_n_0_1_110_wf x idx n k

theorem gather_table64 (x : Cf S64x10) (idx : Ci S50000x1) (n : Fin 50000) (k : Fin 10) :
    Host.gather Cert.ReferenceIdeal.gather_S64x10_S50000x1_S50000x10_1_0_n_n_0_1_110 x idx (ix2 n k)
      = x (ix2 (rowOf 64 (by decide) idx n) k) :=
  rowGather_apply (H := 64) (C := 10) (N := 50000) (by decide)
    Cert.ReferenceIdeal.Facts₀.gather_S64x10_S50000x1_S50000x10_1_0_n_n_0_1_110_wf x idx n k

/-! ## Four blocks side by side, read at a column of each block -/

section Blocks
variable (x1 : Cf Cert.ReferenceIdeal.S50000x200) (x2 x3 : Cf Cert.ReferenceIdeal.S50000x10) (x4 : Cf S50000x2)

theorem blocks_first (n : Fin 50000) (j : Fin 200) :
    concatenate S50000x222 1
        [⟨Cert.ReferenceIdeal.S50000x200, x1⟩, ⟨Cert.ReferenceIdeal.S50000x10, x2⟩, ⟨Cert.ReferenceIdeal.S50000x10, x3⟩, ⟨S50000x2, x4⟩]
        Cert.ReferenceIdeal.Facts₀.concatenates_S50000x200_S50000x10_S50000x10_S50000x2_S50000x222_d1
        (ix2 n (⟨j.val, by omega⟩ : Fin 222)) = x1 (ix2 n j) := by
  refine concatenate_apply_piece (t := S50000x222) 1 _ _ (ix2 n (⟨j.val, by omega⟩ : Fin 222)) 0 ?_ Cert.ReferenceIdeal.S50000x200 x1 rfl rfl 0 rfl
    (ix2 n j) ?_ ?_
  · exact (by decide : (0 : Nat) < 4)
  · intro b hb
    match b with
    | ⟨0, _⟩ => rfl
    | ⟨1, _⟩ => exact absurd rfl hb
  · exact Nat.zero_add _

theorem blocks_second (n : Fin 50000) (j : Fin 10) :
    concatenate S50000x222 1
        [⟨Cert.ReferenceIdeal.S50000x200, x1⟩, ⟨Cert.ReferenceIdeal.S50000x10, x2⟩, ⟨Cert.ReferenceIdeal.S50000x10, x3⟩, ⟨S50000x2, x4⟩]
        Cert.ReferenceIdeal.Facts₀.concatenates_S50000x200_S50000x10_S50000x10_S50000x2_S50000x222_d1
        (ix2 n (⟨200 + j.val, by omega⟩ : Fin 222)) = x2 (ix2 n j) := by
  refine concatenate_apply_piece (t := S50000x222) 1 _ _ (ix2 n (⟨200 + j.val, by omega⟩ : Fin 222)) 1 ?_ Cert.ReferenceIdeal.S50000x10 x2 rfl rfl 200 rfl
    (ix2 n j) ?_ ?_
  · exact (by decide : (1 : Nat) < 4)
  · intro b hb
    match b with
    | ⟨0, _⟩ => rfl
    | ⟨1, _⟩ => exact absurd rfl hb
  · rfl

theorem blocks_third (n : Fin 50000) (j : Fin 10) :
    concatenate S50000x222 1
        [⟨Cert.ReferenceIdeal.S50000x200, x1⟩, ⟨Cert.ReferenceIdeal.S50000x10, x2⟩, ⟨Cert.ReferenceIdeal.S50000x10, x3⟩, ⟨S50000x2, x4⟩]
        Cert.ReferenceIdeal.Facts₀.concatenates_S50000x200_S50000x10_S50000x10_S50000x2_S50000x222_d1
        (ix2 n (⟨210 + j.val, by omega⟩ : Fin 222)) = x3 (ix2 n j) := by
  refine concatenate_apply_piece (t := S50000x222) 1 _ _ (ix2 n (⟨210 + j.val, by omega⟩ : Fin 222)) 2 ?_ Cert.ReferenceIdeal.S50000x10 x3 rfl rfl 210 rfl
    (ix2 n j) ?_ ?_
  · exact (by decide : (2 : Nat) < 4)
  · intro b hb
    match b with
    | ⟨0, _⟩ => rfl
    | ⟨1, _⟩ => exact absurd rfl hb
  · rfl

theorem blocks_fourth (n : Fin 50000) (j : Fin 2) :
    concatenate S50000x222 1
        [⟨Cert.ReferenceIdeal.S50000x200, x1⟩, ⟨Cert.ReferenceIdeal.S50000x10, x2⟩, ⟨Cert.ReferenceIdeal.S50000x10, x3⟩, ⟨S50000x2, x4⟩]
        Cert.ReferenceIdeal.Facts₀.concatenates_S50000x200_S50000x10_S50000x10_S50000x2_S50000x222_d1
        (ix2 n (⟨220 + j.val, by omega⟩ : Fin 222)) = x4 (ix2 n j) := by
  refine concatenate_apply_piece (t := S50000x222) 1 _ _ (ix2 n (⟨220 + j.val, by omega⟩ : Fin 222)) 3 ?_ S50000x2 x4 rfl rfl 220 rfl
    (ix2 n j) ?_ ?_
  · exact (by decide : (3 : Nat) < 4)
  · intro b hb
    match b with
    | ⟨0, _⟩ => rfl
    | ⟨1, _⟩ => exact absurd rfl hb
  · rfl

end Blocks

/-! ## A sum over 222 columns is the sum over the four blocks of columns -/

theorem sum_four {M : Type} [AddCommMonoid M] (g : Fin 222 → M) :
    ∑ k, g k = ((∑ j : Fin 200, g ⟨j.val, by omega⟩ + ∑ j : Fin 10, g ⟨200 + j.val, by omega⟩)
      + ∑ j : Fin 10, g ⟨210 + j.val, by omega⟩) + ∑ j : Fin 2, g ⟨220 + j.val, by omega⟩ := by
  refine (Fin.sum_univ_add (a := 220) (b := 2) g).trans ?_
  refine congrArg₂ (· + ·) ?_ rfl
  refine (Fin.sum_univ_add (a := 210) (b := 10) (fun i => g (Fin.castAdd 2 i))).trans ?_
  refine congrArg₂ (· + ·) ?_ rfl
  exact Fin.sum_univ_add (a := 200) (b := 10) (fun i => g (Fin.castAdd 2 (Fin.castAdd 10 i)))

/-! ## The two spellings of the first layer's product agree -/

theorem h1Split_eq_h1Whole (a0 a1 a2 : Ci S50000) (a3 : Cf S50000x2) (a6 : Cf S118x200) (a7 : Cf S16x10)
    (a8 : Cf S64x10) (a9 : Cf S222x222) :
    h1Split a0 a1 a2 a3 a6 a7 a8 a9 = h1Whole a0 a1 a2 a3 a6 a7 a8 a9 := by
  funext y
  obtain ⟨n, f, rfl⟩ : ∃ (n : Fin 50000) (f : Fin 222), y = ix2 n f := ⟨y 0, y 1, eq_ix2 y⟩
  unfold h1Split h1Whole
  rw [dotGeneral_ix2 _ plain_d222, sum_four]
  rw [addf_apply, addf_apply, addf_apply, gather_prod118, gather_prod16, gather_prod64,
    dotGeneral_ix2 _ plain_d118, dotGeneral_ix2 _ plain_d16, dotGeneral_ix2 _ plain_d64, dotGeneral_ix2 _ plain_d2]
  refine congrArg₂ (· + ·) (congrArg₂ (· + ·) (congrArg₂ (· + ·) ?_ ?_) ?_) ?_
  · refine Finset.sum_congr rfl fun j _ => ?_
    rw [blocks_first, gather_table118,
      slice2_axis0_apply 0 a9 slices_S222x222_S200x222_0_0 j f ⟨j.val, by omega⟩ (Nat.zero_add _).symm]
  · refine Finset.sum_congr rfl fun j _ => ?_
    rw [blocks_second, gather_table16,
      slice2_axis0_apply 200 a9 slices_S222x222_S10x222_200_0 j f ⟨200 + j.val, by omega⟩ rfl]
  · refine Finset.sum_congr rfl fun j _ => ?_
    rw [blocks_third, gather_table64,
      slice2_axis0_apply 210 a9 slices_S222x222_S10x222_210_0 j f ⟨210 + j.val, by omega⟩ rfl]
  · refine Finset.sum_congr rfl fun j _ => ?_
    rw [blocks_fourth,
      slice2_axis0_apply 220 a9 slices_S222x222_S2x222_220_0 j f ⟨220 + j.val, by omega⟩ rfl]

end Cert.FirstLayer

end
-- ==== Proof.lean ====
/-
  A three-layer graph convolution network with a mean pool and a dense head, computed two ways.

  The whole-array program gathers each node's feature row (three embedding rows chosen by integer
  codes, and two angles, side by side), and then, three times: multiplies the node rows by a weight
  matrix, sends along every edge (and a self loop per node) the source's row scaled by
  d^(-1/2)[source] · d^(-1/2)[destination], adds the messages arriving at each node, adds a bias and
  applies ELU; it averages the node rows of every graph and applies Linear–ELU–Linear–ELU–Linear.

  The tiled program computes the same function with the dense steps in four kernel regions: the
  first layer's product is taken table by table before the rows are chosen (the product of rows laid
  side by side is the sum of the blocks' products: one sum of 222 terms split 200 + 10 + 10 + 2, which
  needs only that addition of extended reals is associative and commutative); "bias, ELU, next
  weight matrix" is one region walking the 50000 node rows in ten blocks of 5000 (a row of a matrix
  product depends on that row of the left factor only); the last layer's bias and ELU is a region of
  the same tiling; the dense head is a region of one block.  ELU is spelt `x` where `0 < x` and
  `exp x - 1` elsewhere in the regions, and through `expm1` guarded against its unused branch in the
  whole-array program: the same function of an extended real.  Changes of float format inside the
  regions are the identity at the ideal values, and every aggregation, the degree normalisation and
  the pooling are the same host operations in both programs.

  No law used needs a finite operand, so the precondition is never opened.
-/
import proofs.«140304_j41248865910880_2_alg».proof.Defs
import proofs.«140304_j41248865910880_2_alg».proof.Proof.Gen.Kernel
import proofs.«140304_j41248865910880_2_alg».proof.Proof.Gen.Kernel.Frame
import proofs.«140304_j41248865910880_2_alg».proof.Proof.Gen.KernelIdeal
import proofs.«140304_j41248865910880_2_alg».proof.Proof.Gen.KernelIdeal.Frame
import proofs.«140304_j41248865910880_2_alg».proof.Proof.Gen.ReferenceIdeal
import proofs.«140304_j41248865910880_2_alg».proof.Proof.Gen.Pre_finite_inputs
import proofs.«140304_j41248865910880_2_alg».proof.Proof.KernelRun
import proofs.«140304_j41248865910880_2_alg».proof.Proof.KernelFold
import proofs.«140304_j41248865910880_2_alg».proof.Proof.RefRun
import proofs.«140304_j41248865910880_2_alg».proof.Proof.FirstLayer
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The whole-array program's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The tiled program's result, as the fold through its segments gives it, is the whole-array
    program's value of the same arguments: the fold read back (the regions' outputs composed with the
    shared host chains), then the first layer's two spellings identified. -/
theorem algebraic : Cert.algebraic_KernelIdeal_ReferenceIdeal := by
  intro m ρ m' ρ' _ hagree
  refine ⟨fun c => Cert.KernelIdeal.Gen.W8 m ρ c (Proc.devRef .tc Cert.KernelIdeal.main_v126),
    Cert.KernelIdeal.KRun.run (F := Ideal) m ρ, ?_⟩
  refine (θ_run Cert.ReferenceIdeal.defs _ _).mono (fun _ h c => ⟨(h c).1.trans ?_, (h c).2⟩)
    (Cert.ReferenceIdeal.RefRun.run m' ρ')
  obtain ⟨g0, g1, g2, g3, g4, g5, g6, g7, g8, g9, g10, g11, g12, g13, g14, g15, g16, g17, g18, g19, g20⟩ := hagree c
  rw [g0, g1, g2, g3, g4, g5, g6, g7, g8, g9, g10, g11, g12, g13, g14, g15, g16, g17, g18, g19, g20]
  show _ = Cert.KernelIdeal.Gen.W8 m ρ c (Proc.devRef .tc Cert.KernelIdeal.main_v126)
  rw [Cert.KernelIdeal.KFold.result m ρ c, Cert.FirstLayer.h1Split_eq_h1Whole]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
